-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_v146) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x600000 : Shape := ⟨2, ![2, 600000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x128 : Shape := ⟨2, ![64, 128]⟩
abbrev S128x256 : Shape := ⟨2, ![128, 256]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg8 : FVec F S64x128 .f32) (main_arg9 : FVec F S128 .f32) (main_arg10 : FVec F S128x256 .f32) (main_arg11 : FVec F S256 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x256 .f32 := Host.absf main_arg10
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg5 : FVec F S128 .f32) (main_arg6 : FVec F S128x64 .f32) (main_arg7 : FVec F S64 .f32) (main_arg8 : FVec F S64x128 .f32) (main_arg9 : FVec F S128 .f32) (main_arg10 : FVec F S128x256 .f32) (main_arg11 : FVec F S256 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x256 .f32) (main_arg1 : IVec S2x600000 32) (main_arg2 : FVec F S256x128 .f32) (main_arg3 : FVec F S128 .f32) (main_arg4 : FVec F S128x128 .f32) (main_arg5 : FVec F S128 .f32) (main_arg6 : FVec F S128x64 .f32) (main_arg7 : FVec F S64 .f32) (main_arg8 : FVec F S64x128 .f32) (main_arg9 : FVec F S128 .f32) (main_arg10 : FVec F S128x256 .f32) (main_arg11 : FVec F S256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x256 : Shape := ⟨2, ![100000, 256]⟩
abbrev S2x600000 : Shape := ⟨2, ![2, 600000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x128 : Shape := ⟨2, ![64, 128]⟩
abbrev S128x256 : Shape := ⟨2, ![128, 256]⟩
abbrev S256 : Shape := ⟨1, ![256]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S100000x128 : Shape := ⟨2, ![100000, 128]⟩
abbrev S600000x128 : Shape := ⟨2, ![600000, 128]⟩
abbrev S1x128 : Shape := ⟨2, ![1, 128]⟩
abbrev S100000x64 : Shape := ⟨2, ![100000, 64]⟩
abbrev S600000x64 : Shape := ⟨2, ![600000, 64]⟩
abbrev S1x64 : Shape := ⟨2, ![1, 64]⟩
abbrev S1x256 : Shape := ⟨2, ![1, 256]⟩
abbrev S2000x256 : Shape := ⟨2, ![2000, 256]⟩
abbrev S2000x128 : Shape := ⟨2, ![2000, 128]⟩
abbrev S2000x1 : Shape := ⟨2, ![2000, 1]⟩
abbrev S2000x64 : Shape := ⟨2, ![2000, 64]⟩

abbrev nBuf : Space → Nat
  | .hbm => 107
  | .vmem => 50
  | .smem => 0
  | _ => 0

abbrev bufTy : (tb : Table) → Fin (tcTables nBuf tb) → BufTy
  | .hbm, ⟨0, _⟩ => ⟨S100000x256, .f32⟩
  | .hbm, ⟨1, _⟩ => ⟨S2x600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x128, .f32⟩
  | .hbm, ⟨9, _⟩ => ⟨S128, .f32⟩
  | .hbm, ⟨10, _⟩ => ⟨S128x256, .f32⟩
  | .hbm, ⟨11, _⟩ => ⟨S256, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .f32⟩
  | .hbm, ⟨17, _⟩ => ⟨S600000, .f32⟩
  | .hbm, ⟨18, _⟩ => ⟨S_, .f32⟩
  | .hbm, ⟨19, _⟩ => ⟨S100000, .f32⟩
  | .hbm, ⟨20, _⟩ => ⟨S600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S600000, .i32⟩
  | .hbm, ⟨28, _⟩ => ⟨S600000, .i1⟩
  | .hbm, ⟨29, _⟩ => ⟨S_, .i32⟩
  | .hbm, ⟨30, _⟩ => ⟨S600000, .i32⟩
  | .hbm, ⟨31, _⟩ => ⟨S600000, .i32⟩
  | .hbm, ⟨32, _⟩ => ⟨S600000, .i32⟩
  | .hbm, ⟨33, _⟩ => ⟨S600000x1, .i32⟩
  | .hbm, ⟨34, _⟩ => ⟨S600000, .f32⟩
  | .hbm, ⟨35, _⟩ => ⟨S_, .i32⟩
  | .hbm, ⟨36, _⟩ => ⟨S600000, .i32⟩
  | .hbm, ⟨37, _⟩ => ⟨S600000, .i1⟩
  | .hbm, ⟨38, _⟩ => ⟨S_, .i32⟩
  | .hbm, ⟨39, _⟩ => ⟨S600000, .i32⟩
  | .hbm, ⟨40, _⟩ => ⟨S600000, .i32⟩
  | .hbm, ⟨41, _⟩ => ⟨S600000, .i32⟩
  | .hbm, ⟨42, _⟩ => ⟨S600000x1, .i32⟩
  | .hbm, ⟨43, _⟩ => ⟨S600000, .f32⟩
  | .hbm, ⟨44, _⟩ => ⟨S600000, .f32⟩
  | .hbm, ⟨45, _⟩ => ⟨S100000, .f32⟩
  | .hbm, ⟨46, _⟩ => ⟨S100000x1, .f32⟩
  | .hbm, ⟨47, _⟩ => ⟨S100000x128, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000x128, .f32⟩
  | .hbm, ⟨57, _⟩ => ⟨S600000x1, .f32⟩
  | .hbm, ⟨58, _⟩ => ⟨S600000x128, .f32⟩
  | .hbm, ⟨59, _⟩ => ⟨S600000x128, .f32⟩
  | .hbm, ⟨60, _⟩ => ⟨S_, .f32⟩
  | .hbm, ⟨61, _⟩ => ⟨S100000x128, .f32⟩
  | .hbm, ⟨62, _⟩ => ⟨S600000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .i32⟩
  | .hbm, ⟨68, _⟩ => ⟨S600000, .i32⟩
  | .hbm, ⟨69, _⟩ => ⟨S600000, .i1⟩
  | .hbm, ⟨70, _⟩ => ⟨S_, .i32⟩
  | .hbm, ⟨71, _⟩ => ⟨S600000, .i32⟩
  | .hbm, ⟨72, _⟩ => ⟨S600000, .i32⟩
  | .hbm, ⟨73, _⟩ => ⟨S600000, .i32⟩
  | .hbm, ⟨74, _⟩ => ⟨S600000x1, .i32⟩
  | .hbm, ⟨75, _⟩ => ⟨S600000x128, .f32⟩
  | .hbm, ⟨76, _⟩ => ⟨S600000x1, .f32⟩
  | .hbm, ⟨77, _⟩ => ⟨S600000x128, .f32⟩
  | .hbm, ⟨78, _⟩ => ⟨S600000x128, .f32⟩
  | .hbm, ⟨79, _⟩ => ⟨S_, .f32⟩
  | .hbm, ⟨80, _⟩ => ⟨S100000x128, .f32⟩
  | .hbm, ⟨81, _⟩ => ⟨S600000x1, .i32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S100000x64, .f32⟩
  | .hbm, ⟨86, _⟩ => ⟨S_, .i32⟩
  | .hbm, ⟨87, _⟩ => ⟨S600000, .i32⟩
  | .hbm, ⟨88, _⟩ => ⟨S600000, .i1⟩
  | .hbm, ⟨89, _⟩ => ⟨S_, .i32⟩
  | .hbm, ⟨90, _⟩ => ⟨S600000, .i32⟩
  | .hbm, ⟨91, _⟩ => ⟨S600000, .i32⟩
  | .hbm, ⟨92, _⟩ => ⟨S600000, .i32⟩
  | .hbm, ⟨93, _⟩ => ⟨S600000x1, .i32⟩
  | .hbm, ⟨94, _⟩ => ⟨S600000x64, .f32⟩
  | .hbm, ⟨95, _⟩ => ⟨S600000x1, .f32⟩
  | .hbm, ⟨96, _⟩ => ⟨S600000x64, .f32⟩
  | .hbm, ⟨97, _⟩ => ⟨S600000x64, .f32⟩
  | .hbm, ⟨98, _⟩ => ⟨S_, .f32⟩
  | .hbm, ⟨99, _⟩ => ⟨S100000x64, .f32⟩
  | .hbm, ⟨100, _⟩ => ⟨S600000x1, .i32⟩
  | .hbm, ⟨101, _⟩ => ⟨S100000x64, .f32⟩
  | .hbm, ⟨102, _⟩ => ⟨S1x64, .f32⟩
  | .hbm, ⟨103, _⟩ => ⟨S100000x64, .f32⟩
  | .hbm, ⟨104, _⟩ => ⟨S1x128, .f32⟩
  | .hbm, ⟨105, _⟩ => ⟨S1x256, .f32⟩
  | .hbm, ⟨106, _⟩ => ⟨S100000x256, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S2000x1, .f32⟩
  | .local _ .vmem, ⟨38, _⟩ => ⟨S2000x1, .f32⟩
  | .local _ .vmem, ⟨39, _⟩ => ⟨S1x64, .f32⟩
  | .local _ .vmem, ⟨40, _⟩ => ⟨S2000x64, .f32⟩
  | .local _ .vmem, ⟨41, _⟩ => ⟨S2000x64, .f32⟩
  | .local _ .vmem, ⟨42, _⟩ => ⟨S2000x64, .f32⟩
  | .local _ .vmem, ⟨43, _⟩ => ⟨S2000x64, .f32⟩
  | .local _ .vmem, ⟨44, _⟩ => ⟨S64x128, .f32⟩
  | .local _ .vmem, ⟨45, _⟩ => ⟨S1x128, .f32⟩
  | .local _ .vmem, ⟨46, _⟩ => ⟨S128x256, .f32⟩
  | .local _ .vmem, ⟨47, _⟩ => ⟨S1x256, .f32⟩
  | .local _ .vmem, ⟨48, _⟩ => ⟨S2000x256, .f32⟩
  | .local _ .vmem, ⟨49, _⟩ => ⟨S2000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_cst : Ref sig .tc := ⟨.hbm, 16, rfl⟩
abbrev main_call0_v4 : Ref sig .tc := ⟨.hbm, 17, rfl⟩
abbrev main_call0_cst_0 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_c : Ref sig .tc := ⟨.hbm, 26, rfl⟩
abbrev main_call0_v11 : Ref sig .tc := ⟨.hbm, 27, rfl⟩
abbrev main_call0_v12 : Ref sig .tc := ⟨.hbm, 28, rfl⟩
abbrev main_call0_c_2 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_call0_v17 : Ref sig .tc := ⟨.hbm, 34, rfl⟩
abbrev main_call0_c_3 : Ref sig .tc := ⟨.hbm, 35, rfl⟩
abbrev main_call0_v18 : Ref sig .tc := ⟨.hbm, 36, rfl⟩
abbrev main_call0_v19 : Ref sig .tc := ⟨.hbm, 37, rfl⟩
abbrev main_call0_c_4 : Ref sig .tc := ⟨.hbm, 38, rfl⟩
abbrev main_call0_v20 : Ref sig .tc := ⟨.hbm, 39, rfl⟩
abbrev main_call0_v21 : Ref sig .tc := ⟨.hbm, 40, rfl⟩
abbrev main_call0_v22 : Ref sig .tc := ⟨.hbm, 41, rfl⟩
abbrev main_call0_v23 : Ref sig .tc := ⟨.hbm, 42, rfl⟩
abbrev main_call0_v24 : Ref sig .tc := ⟨.hbm, 43, rfl⟩
abbrev main_call0_v25 : Ref sig .tc := ⟨.hbm, 44, rfl⟩
abbrev main_call0_v26 : Ref sig .tc := ⟨.hbm, 45, rfl⟩
abbrev main_call0_v27 : Ref sig .tc := ⟨.hbm, 46, rfl⟩
abbrev main_call0_v28 : Ref sig .tc := ⟨.hbm, 47, rfl⟩
abbrev main_call0_c_5 : Ref sig .tc := ⟨.hbm, 48, rfl⟩
abbrev main_call0_v29 : Ref sig .tc := ⟨.hbm, 49, rfl⟩
abbrev main_call0_v30 : Ref sig .tc := ⟨.hbm, 50, rfl⟩
abbrev main_call0_c_6 : Ref sig .tc := ⟨.hbm, 51, rfl⟩
abbrev main_call0_v31 : Ref sig .tc := ⟨.hbm, 52, rfl⟩
abbrev main_call0_v32 : Ref sig .tc := ⟨.hbm, 53, rfl⟩
abbrev main_call0_v33 : Ref sig .tc := ⟨.hbm, 54, rfl⟩
abbrev main_call0_v34 : Ref sig .tc := ⟨.hbm, 55, rfl⟩
abbrev main_call0_v35 : Ref sig .tc := ⟨.hbm, 56, rfl⟩
abbrev main_call0_v36 : Ref sig .tc := ⟨.hbm, 57, rfl⟩
abbrev main_call0_v37 : Ref sig .tc := ⟨.hbm, 58, rfl⟩
abbrev main_call0_v38 : Ref sig .tc := ⟨.hbm, 59, rfl⟩
abbrev main_call0_cst_7 : Ref sig .tc := ⟨.hbm, 60, rfl⟩
abbrev main_call0_v39 : Ref sig .tc := ⟨.hbm, 61, rfl⟩
abbrev main_call0_v40 : Ref sig .tc := ⟨.hbm, 62, rfl⟩
abbrev main_call0_v41 : Ref sig .tc := ⟨.hbm, 63, rfl⟩
abbrev main_call0_v42 : Ref sig .tc := ⟨.hbm, 64, rfl⟩
abbrev main_call0_v43 : Ref sig .tc := ⟨.hbm, 65, rfl⟩
abbrev main_call0_v44 : Ref sig .tc := ⟨.hbm, 66, rfl⟩
abbrev main_call0_c_8 : Ref sig .tc := ⟨.hbm, 67, rfl⟩
abbrev main_call0_v45 : Ref sig .tc := ⟨.hbm, 68, rfl⟩
abbrev main_call0_v46 : Ref sig .tc := ⟨.hbm, 69, rfl⟩
abbrev main_call0_c_9 : Ref sig .tc := ⟨.hbm, 70, rfl⟩
abbrev main_call0_v47 : Ref sig .tc := ⟨.hbm, 71, rfl⟩
abbrev main_call0_v48 : Ref sig .tc := ⟨.hbm, 72, rfl⟩
abbrev main_call0_v49 : Ref sig .tc := ⟨.hbm, 73, rfl⟩
abbrev main_call0_v50 : Ref sig .tc := ⟨.hbm, 74, rfl⟩
abbrev main_call0_v51 : Ref sig .tc := ⟨.hbm, 75, rfl⟩
abbrev main_call0_v52 : Ref sig .tc := ⟨.hbm, 76, rfl⟩
abbrev main_call0_v53 : Ref sig .tc := ⟨.hbm, 77, rfl⟩
abbrev main_call0_v54 : Ref sig .tc := ⟨.hbm, 78, rfl⟩
abbrev main_call0_cst_10 : Ref sig .tc := ⟨.hbm, 79, rfl⟩
abbrev main_call0_v55 : Ref sig .tc := ⟨.hbm, 80, rfl⟩
abbrev main_call0_v56 : Ref sig .tc := ⟨.hbm, 81, rfl⟩
abbrev main_call0_v57 : Ref sig .tc := ⟨.hbm, 82, rfl⟩
abbrev main_call0_v58 : Ref sig .tc := ⟨.hbm, 83, rfl⟩
abbrev main_call0_v59 : Ref sig .tc := ⟨.hbm, 84, rfl⟩
abbrev main_call0_v60 : Ref sig .tc := ⟨.hbm, 85, rfl⟩
abbrev main_call0_c_11 : Ref sig .tc := ⟨.hbm, 86, rfl⟩
abbrev main_call0_v61 : Ref sig .tc := ⟨.hbm, 87, rfl⟩
abbrev main_call0_v62 : Ref sig .tc := ⟨.hbm, 88, rfl⟩
abbrev main_call0_c_12 : Ref sig .tc := ⟨.hbm, 89, rfl⟩
abbrev main_call0_v63 : Ref sig .tc := ⟨.hbm, 90, rfl⟩
abbrev main_call0_v64 : Ref sig .tc := ⟨.hbm, 91, rfl⟩
abbrev main_call0_v65 : Ref sig .tc := ⟨.hbm, 92, rfl⟩
abbrev main_call0_v66 : Ref sig .tc := ⟨.hbm, 93, rfl⟩
abbrev main_call0_v67 : Ref sig .tc := ⟨.hbm, 94, rfl⟩
abbrev main_call0_v68 : Ref sig .tc := ⟨.hbm, 95, rfl⟩
abbrev main_call0_v69 : Ref sig .tc := ⟨.hbm, 96, rfl⟩
abbrev main_call0_v70 : Ref sig .tc := ⟨.hbm, 97, rfl⟩
abbrev main_call0_cst_13 : Ref sig .tc := ⟨.hbm, 98, rfl⟩
abbrev main_call0_v71 : Ref sig .tc := ⟨.hbm, 99, rfl⟩
abbrev main_call0_v72 : Ref sig .tc := ⟨.hbm, 100, rfl⟩
abbrev main_call0_v73 : Ref sig .tc := ⟨.hbm, 101, rfl⟩
abbrev main_call0_v74 : Ref sig .tc := ⟨.hbm, 102, rfl⟩
abbrev main_v0_0 : Ref sig .tc := ⟨.hbm, 103, rfl⟩
abbrev main_call0_v76 : Ref sig .tc := ⟨.hbm, 104, rfl⟩
abbrev main_call0_v77 : Ref sig .tc := ⟨.hbm, 105, rfl⟩
abbrev main_v0_1 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg4_0 : Ref sig .tc := ⟨.vmem, 47, rfl⟩
abbrev cc6_stg5_0 : Ref sig .tc := ⟨.vmem, 48, rfl⟩
abbrev cc6_stg5_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem4_0 : DmaSem sig := 47
abbrev cc6_sem5_0 : DmaSem sig := 48
abbrev cc6_sem5_1 : DmaSem sig := 49

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x256 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  shapeCasts_S128_S1x128 : S128.ShapeCasts S1x128
  bcast_S600000x1_S600000x64_0_1 : S600000x1.BroadcastsInDim S600000x64 (![0, 1] : Fin 2 → Fin S600000x64.rank)
  bcast_S_S100000x64 : S_.BroadcastsInDim S100000x64 (![] : Fin 0 → Fin S100000x64.rank)
  shapeCasts_S64_S1x64 : S64.ShapeCasts S1x64
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x128_S64x128_0_0 : ∀ a, (![0, 0] : Fin 2 → Nat) a + S64x128.size a ≤ S64x128.size a
  h_S64x128 : 0 < S64x128.numel
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  dot_S2000x64_S64x128_S2000x128_1_0_0_1_n_n_wf : DotDims.WF S2000x64 S64x128 S2000x128 [1] [0] [0] [1] [] []
  dot_S2000x128_S128x256_S2000x256_1_0_0_1_n_n_wf : DotDims.WF S2000x128 S128x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S100000x128.size a
  hwx3_4 : ∀ i : grid3.Coords, EltTy.bits .f32 = 32 ∨ (Rect.block (s := S100000x128) S2000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S100000x64.size a
  hwx4_2 : ∀ i : grid4.Coords, EltTy.bits .f32 = 32 ∨ (Rect.block (s := S100000x64) S2000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S100000x64.size a
  hwx5_0 : ∀ i : grid5.Coords, EltTy.bits .f32 = 32 ∨ (Rect.block (s := S100000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S100000x64.size a
  hwx5_1 : ∀ i : grid5.Coords, EltTy.bits .f32 = 32 ∨ (Rect.block (s := S100000x64) S2000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S100000x1.size a
  hwx5_2 : ∀ i : grid5.Coords, EltTy.bits .f32 = 32 ∨ (Rect.block (s := S100000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x64.size a ≤ S100000x64.size a
  hwx5_4 : ∀ i : grid5.Coords, EltTy.bits .f32 = 32 ∨ (Rect.block (s := S100000x64) S2000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S100000x64.size a
  hwx6_0 : ∀ i : grid6.Coords, EltTy.bits .f32 = 32 ∨ (Rect.block (s := S100000x64) S2000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x128.size a ≤ S64x128.size a
  hwx6_1 : ∀ i : grid6.Coords, EltTy.bits .f32 = 32 ∨ (Rect.block (s := S64x128) S64x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x256.size a ≤ S128x256.size a
  hwx6_3 : ∀ i : grid6.Coords, EltTy.bits .f32 = 32 ∨ (Rect.block (s := S128x256) S128x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x256.size a ≤ S100000x256.size a
  hwx6_5 : ∀ i : grid6.Coords, EltTy.bits .f32 = 32 ∨ (Rect.block (s := S100000x256) S2000x256.size (cc6_transform_5 i) (hinb6_5 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v28) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v41) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v28) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v27) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v43) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_call0_v43) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v44) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_call0_v57) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v44) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v27) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_call0_v58) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call0_v59) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_call0_v59) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_call0_v60) S2000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_call0_v73) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_call0_v60) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_call0_v27) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_call0_v74) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v0_0) S2000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v0_0) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S64x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_call0_v76) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg10) S128x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_call0_v77) S1x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v0_1) S2000x256.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x256 : Shape := ⟨2, ![100000, 256]⟩
abbrev S2x600000 : Shape := ⟨2, ![2, 600000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x128 : Shape := ⟨2, ![64, 128]⟩
abbrev S128x256 : Shape := ⟨2, ![128, 256]⟩
abbrev S256 : Shape := ⟨1, ![256]⟩
abbrev S1x600000 : Shape := ⟨2, ![1, 600000]⟩
abbrev S600000 : Shape := ⟨1, ![600000]⟩
abbrev S100000x128 : Shape := ⟨2, ![100000, 128]⟩
abbrev S_ : Shape := ⟨0, ![]⟩
abbrev S100000 : Shape := ⟨1, ![100000]⟩
abbrev S600000x1 : Shape := ⟨2, ![600000, 1]⟩
abbrev S600000x128 : Shape := ⟨2, ![600000, 128]⟩
abbrev S100000x1 : Shape := ⟨2, ![100000, 1]⟩
abbrev S1x128 : Shape := ⟨2, ![1, 128]⟩
abbrev S100000x64 : Shape := ⟨2, ![100000, 64]⟩
abbrev S600000x64 : Shape := ⟨2, ![600000, 64]⟩
abbrev S1x64 : Shape := ⟨2, ![1, 64]⟩
abbrev S1x256 : Shape := ⟨2, ![1, 256]⟩

abbrev nBuf : Space → Nat
  | .hbm => 195
  | .vmem => 0
  | .smem => 0
  | _ => 0

abbrev hbmTy0_0 (i : Nat) : BufTy := match i % 128 with
  | 0 => ⟨S100000x256, .f32⟩
  | 1 => ⟨S2x600000, .i32⟩
  | 2 => ⟨S256x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S64x128, .f32⟩
  | 9 => ⟨S128, .f32⟩
  | 10 => ⟨S128x256, .f32⟩
  | 11 => ⟨S256, .f32⟩
  | 12 => ⟨S1x600000, .i32⟩
  | 13 => ⟨S600000, .i32⟩
  | 14 => ⟨S1x600000, .i32⟩
  | 15 => ⟨S600000, .i32⟩
  | 16 => ⟨S100000x128, .f32⟩
  | 17 => ⟨S_, .f32⟩
  | 18 => ⟨S600000, .f32⟩
  | 19 => ⟨S_, .f32⟩
  | 20 => ⟨S100000, .f32⟩
  | 21 => ⟨S600000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .i32⟩
  | 28 => ⟨S600000, .i32⟩
  | 29 => ⟨S600000, .i1⟩
  | 30 => ⟨S_, .i32⟩
  | 31 => ⟨S600000, .i32⟩
  | 32 => ⟨S600000, .i32⟩
  | 33 => ⟨S600000, .i32⟩
  | 34 => ⟨S600000x1, .i32⟩
  | 35 => ⟨S600000, .f32⟩
  | 36 => ⟨S_, .i32⟩
  | 37 => ⟨S600000, .i32⟩
  | 38 => ⟨S600000, .i1⟩
  | 39 => ⟨S_, .i32⟩
  | 40 => ⟨S600000, .i32⟩
  | 41 => ⟨S600000, .i32⟩
  | 42 => ⟨S600000, .i32⟩
  | 43 => ⟨S600000x1, .i32⟩
  | 44 => ⟨S600000, .f32⟩
  | 45 => ⟨S600000, .f32⟩
  | 46 => ⟨S_, .i32⟩
  | 47 => ⟨S600000, .i32⟩
  | 48 => ⟨S600000, .i1⟩
  | 49 => ⟨S_, .i32⟩
  | 50 => ⟨S600000, .i32⟩
  | 51 => ⟨S600000, .i32⟩
  | 52 => ⟨S600000, .i32⟩
  | 53 => ⟨S600000x1, .i32⟩
  | 54 => ⟨S600000x128, .f32⟩
  | 55 => ⟨S600000x1, .f32⟩
  | 56 => ⟨S600000x128, .f32⟩
  | 57 => ⟨S600000x128, .f32⟩
  | 58 => ⟨S_, .f32⟩
  | 59 => ⟨S100000x128, .f32⟩
  | 60 => ⟨S600000x1, .i32⟩
  | 61 => ⟨S100000x128, .f32⟩
  | 62 => ⟨S100000, .f32⟩
  | 63 => ⟨S100000x1, .f32⟩
  | 64 => ⟨S100000x128, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S100000x128, .f32⟩
  | 74 => ⟨S_, .f32⟩
  | 75 => ⟨S600000, .f32⟩
  | 76 => ⟨S_, .f32⟩
  | 77 => ⟨S100000, .f32⟩
  | 78 => ⟨S600000x1, .i32⟩
  | 79 => ⟨S100000, .f32⟩
  | 80 => ⟨S_, .f32⟩
  | 81 => ⟨S100000, .f32⟩
  | 82 => ⟨S100000, .f32⟩
  | 83 => ⟨S100000, .f32⟩
  | 84 => ⟨S_, .i32⟩
  | 85 => ⟨S600000, .i32⟩
  | 86 => ⟨S600000, .i1⟩
  | 87 => ⟨S_, .i32⟩
  | 88 => ⟨S600000, .i32⟩
  | 89 => ⟨S600000, .i32⟩
  | 90 => ⟨S600000, .i32⟩
  | 91 => ⟨S600000x1, .i32⟩
  | 92 => ⟨S600000, .f32⟩
  | 93 => ⟨S_, .i32⟩
  | 94 => ⟨S600000, .i32⟩
  | 95 => ⟨S600000, .i1⟩
  | 96 => ⟨S_, .i32⟩
  | 97 => ⟨S600000, .i32⟩
  | 98 => ⟨S600000, .i32⟩
  | 99 => ⟨S600000, .i32⟩
  | 100 => ⟨S600000x1, .i32⟩
  | 101 => ⟨S600000, .f32⟩
  | 102 => ⟨S600000, .f32⟩
  | 103 => ⟨S_, .i32⟩
  | 104 => ⟨S600000, .i32⟩
  | 105 => ⟨S600000, .i1⟩
  | 106 => ⟨S_, .i32⟩
  | 107 => ⟨S600000, .i32⟩
  | 108 => ⟨S600000, .i32⟩
  | 109 => ⟨S600000, .i32⟩
  | 110 => ⟨S600000x1, .i32⟩
  | 111 => ⟨S600000x128, .f32⟩
  | 112 => ⟨S600000x1, .f32⟩
  | 113 => ⟨S600000x128, .f32⟩
  | 114 => ⟨S600000x128, .f32⟩
  | 115 => ⟨S_, .f32⟩
  | 116 => ⟨S100000x128, .f32⟩
  | 117 => ⟨S600000x1, .i32⟩
  | 118 => ⟨S100000x128, .f32⟩
  | 119 => ⟨S100000, .f32⟩
  | 120 => ⟨S100000x1, .f32⟩
  | 121 => ⟨S100000x128, .f32⟩
  | 122 => ⟨S100000x128, .f32⟩
  | 123 => ⟨S100000x128, .f32⟩
  | 124 => ⟨S1x128, .f32⟩
  | 125 => ⟨S100000x128, .f32⟩
  | 126 => ⟨S100000x128, .f32⟩
  | 127 => ⟨S_, .f32⟩
  | _ => ⟨S100000x256, .f32⟩

abbrev hbmTy0_1 (i : Nat) : BufTy := match i % 128 with
  | 0 => ⟨S100000x128, .f32⟩
  | 1 => ⟨S100000x128, .f32⟩
  | 2 => ⟨S100000x64, .f32⟩
  | 3 => ⟨S_, .f32⟩
  | 4 => ⟨S600000, .f32⟩
  | 5 => ⟨S_, .f32⟩
  | 6 => ⟨S100000, .f32⟩
  | 7 => ⟨S600000x1, .i32⟩
  | 8 => ⟨S100000, .f32⟩
  | 9 => ⟨S_, .f32⟩
  | 10 => ⟨S100000, .f32⟩
  | 11 => ⟨S100000, .f32⟩
  | 12 => ⟨S100000, .f32⟩
  | 13 => ⟨S_, .i32⟩
  | 14 => ⟨S600000, .i32⟩
  | 15 => ⟨S600000, .i1⟩
  | 16 => ⟨S_, .i32⟩
  | 17 => ⟨S600000, .i32⟩
  | 18 => ⟨S600000, .i32⟩
  | 19 => ⟨S600000, .i32⟩
  | 20 => ⟨S600000x1, .i32⟩
  | 21 => ⟨S600000, .f32⟩
  | 22 => ⟨S_, .i32⟩
  | 23 => ⟨S600000, .i32⟩
  | 24 => ⟨S600000, .i1⟩
  | 25 => ⟨S_, .i32⟩
  | 26 => ⟨S600000, .i32⟩
  | 27 => ⟨S600000, .i32⟩
  | 28 => ⟨S600000, .i32⟩
  | 29 => ⟨S600000x1, .i32⟩
  | 30 => ⟨S600000, .f32⟩
  | 31 => ⟨S600000, .f32⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S600000x64, .f32⟩
  | 41 => ⟨S600000x1, .f32⟩
  | 42 => ⟨S600000x64, .f32⟩
  | 43 => ⟨S600000x64, .f32⟩
  | 44 => ⟨S_, .f32⟩
  | 45 => ⟨S100000x64, .f32⟩
  | 46 => ⟨S600000x1, .i32⟩
  | 47 => ⟨S100000x64, .f32⟩
  | 48 => ⟨S100000, .f32⟩
  | 49 => ⟨S100000x1, .f32⟩
  | 50 => ⟨S100000x64, .f32⟩
  | 51 => ⟨S100000x64, .f32⟩
  | 52 => ⟨S100000x64, .f32⟩
  | 53 => ⟨S1x64, .f32⟩
  | 54 => ⟨S100000x64, .f32⟩
  | 55 => ⟨S100000x64, .f32⟩
  | 56 => ⟨S100000x128, .f32⟩
  | 57 => ⟨S1x128, .f32⟩
  | 58 => ⟨S100000x128, .f32⟩
  | 59 => ⟨S100000x128, .f32⟩
  | 60 => ⟨S_, .f32⟩
  | 61 => ⟨S100000x128, .f32⟩
  | 62 => ⟨S100000x128, .f32⟩
  | 63 => ⟨S100000x256, .f32⟩
  | 64 => ⟨S1x256, .f32⟩
  | 65 => ⟨S100000x256, .f32⟩
  | 66 => ⟨S100000x256, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call0_cst : Ref sig .tc := ⟨.hbm, 70, rfl⟩
abbrev main_call0_v0 : Ref sig .tc := ⟨.hbm, 71, rfl⟩
abbrev main_v48 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_11 : Ref sig .tc := ⟨.hbm, 84, rfl⟩
abbrev main_v57 : Ref sig .tc := ⟨.hbm, 85, rfl⟩
abbrev main_v58 : Ref sig .tc := ⟨.hbm, 86, rfl⟩
abbrev main_c_12 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_13 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_15 : Ref sig .tc := ⟨.hbm, 103, rfl⟩
abbrev main_v72 : Ref sig .tc := ⟨.hbm, 104, rfl⟩
abbrev main_v73 : Ref sig .tc := ⟨.hbm, 105, rfl⟩
abbrev main_c_16 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_17 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_call1_cst : Ref sig .tc := ⟨.hbm, 127, rfl⟩
abbrev main_call1_v0 : Ref sig .tc := ⟨.hbm, 128, rfl⟩
abbrev main_v93 : Ref sig .tc := ⟨.hbm, 129, rfl⟩
abbrev main_v94 : Ref sig .tc := ⟨.hbm, 130, rfl⟩
abbrev main_cst_18 : Ref sig .tc := ⟨.hbm, 131, rfl⟩
abbrev main_v95 : Ref sig .tc := ⟨.hbm, 132, rfl⟩
abbrev main_cst_19 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_20 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_c_21 : Ref sig .tc := ⟨.hbm, 141, rfl⟩
abbrev main_v102 : Ref sig .tc := ⟨.hbm, 142, rfl⟩
abbrev main_v103 : Ref sig .tc := ⟨.hbm, 143, rfl⟩
abbrev main_c_22 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_c_23 : Ref sig .tc := ⟨.hbm, 150, rfl⟩
abbrev main_v109 : Ref sig .tc := ⟨.hbm, 151, rfl⟩
abbrev main_v110 : Ref sig .tc := ⟨.hbm, 152, rfl⟩
abbrev main_c_24 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_c_25 : Ref sig .tc := ⟨.hbm, 160, rfl⟩
abbrev main_v117 : Ref sig .tc := ⟨.hbm, 161, rfl⟩
abbrev main_v118 : Ref sig .tc := ⟨.hbm, 162, rfl⟩
abbrev main_c_26 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_cst_27 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_call2_cst : Ref sig .tc := ⟨.hbm, 188, rfl⟩
abbrev main_call2_v0 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S600000x1_S600000x64_0_1 : S600000x1.BroadcastsInDim S600000x64 (![0, 1] : Fin 2 → Fin S600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  dot_S100000x256_S256x128_S100000x128_1_0_0_1_n_n_wf : DotDims.WF S100000x256 S256x128 S100000x128 [1] [0] [0] [1] [] []
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1
  dot_S100000x64_S64x128_S100000x128_1_0_0_1_n_n_wf : DotDims.WF S100000x64 S64x128 S100000x128 [1] [0] [0] [1] [] []
  dot_S100000x128_S128x256_S100000x256_1_0_0_1_n_n_wf : DotDims.WF S100000x128 S128x256 S100000x256 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf

class Facts : Prop extends Facts₀ where

variable [Facts]
-- ==== Proof.KernelRun.lean ====
/-
  The idealized kernel program's run with its two results named.

  The program is twelve segments: five stretches of host operations and seven grid launches.  Its generated frame walks the
  contents of every buffer from the launch memory through the segments (the contents after segment k are named W k) and
  reads the argument arrays out of the last of them.  Here the same walk is read at the two result buffers as well: every
  weakly fair execution terminates, nothing faults, each result buffer holds what the last contents W12 hold there, and
  the arguments are unchanged.  What W12 holds at the results, as a function of the arguments, is computed elsewhere.
-/
import proofs.«113976_j46772193853800_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; each result buffer then holds the last
    segment boundary's contents at that buffer, and every argument array is as launched. -/
theorem run_results : θ_run defs (onTc (τ := τ) (main (F := F))) ⟨m, fun _ => 0, ρ⟩ (fun r => ∀ c : Dev nD,
      r.2.mem ((c.tc : Thread nD τ).loc main_v0_0) = W12 m ρ c (Proc.devRef .tc main_v0_0)
      ∧ r.2.mem ((c.tc : Thread nD τ).loc main_v0_1) = W12 m ρ c (Proc.devRef .tc main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v0_0 (by decide)),
       h c _ (mem_uc main_v0_1 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.KernelIdeal.Hand

end
-- ==== Proof.LibTypedRef.lean ====
/-
  A typed reference's two transports cancel.

  A host operation stated over typed references moves each operand from its buffer's contents to contents at the
  value's type, and the result back.  The two moves are transports along one equation of types, in opposite
  directions, so one after the other is the identity; this holds for any typed reference, with nothing about which
  buffer it is.
-/
import Idealize.ShloMosaic.Lib.StableHlo

namespace Cert.LibTypedRef

open Idealize.ShloMosaic Idealize.ShloMosaic.StableHlo

variable {sig : RefSig} {Val : EltTy → Type} {T : BufTy}

/-- Contents moved to the buffer's type and back are the contents. -/
theorem ofBuf_toBuf (x : TRef sig T) (v : T.Contents Val) : x.ofBuf (x.toBuf v) = v := by
  obtain ⟨r, h, h1, h2⟩ := x
  subst h
  rfl

/-- Contents of the buffer moved to the value's type and back are the contents. -/
theorem toBuf_ofBuf (x : TRef sig T) (v : x.ref.ty.Contents Val) : x.toBuf (x.ofBuf v) = v := by
  obtain ⟨r, h, h1, h2⟩ := x
  subst h
  rfl

end Cert.LibTypedRef
-- ==== Proof.Spec.lean ====
/-
  The neighbour aggregation on whole arrays.

  Every layer sums, into each node's row, the rows of the transformed array at the sources of the edges that end at the
  node, each scaled by its edge's weight: gather the rows at the sources (a source index below zero wraps by the number
  of nodes), multiply row by row by the edge weights broadcast along the columns, and scatter-add the products at the
  edges' targets into a zero array.  The two functions below are that expression for 128 and for 64 columns.
-/
import proofs.«113976_j46772193853800_2_alg».proof.Proof.Gen.ReferenceIdeal
import Idealize.ShloMosaic.PureOps.Ideal

noncomputable section

namespace Cert.KernelIdeal.Hand.Spec

open Cert.ReferenceIdeal Cert.ReferenceIdeal.Gen Idealize.ShloMosaic

/-- An array of 32-bit integers of a given shape. -/
abbrev IVec (s : Shape) : Type := (⟨s, .i32⟩ : BufTy).Contents (Elt Ideal)

/-- Edge ends as gather indices: an index below zero wraps by the number of nodes. -/
def wrap (s : IVec S600000) : IVec S600000 :=
  select (cmpi .slt s (broadcastInDim S600000 ![] bcast_S_S600000 (constantI S_ 32 0#32)))
    (addi s (broadcastInDim S600000 ![] bcast_S_S600000 (constantI S_ 32 100000#32))) s

/-- The weighted sum over incoming edges, 128 columns. -/
def agg128 (h : FVec Ideal S100000x128 .f32) (s d : IVec S600000) (w : FVec Ideal S600000 .f32) : FVec Ideal S100000x128 .f32 :=
  Host.scatterAdd scatter_S100000x128_S600000x1_S600000x128_1_0_0_1
    (broadcastInDim S100000x128 ![] bcast_S_S100000x128 (constant (F := Ideal) S_ .f32 0x00000000#32))
    (broadcastInDim S600000x1 ![0] bcast_S600000_S600000x1_0 d)
    (mulf (Host.gather gather_S100000x128_S600000x1_S600000x128_1_0_n_n_0_1_1128 h (broadcastInDim S600000x1 ![0] bcast_S600000_S600000x1_0 (wrap s)))
      (broadcastInDim S600000x128 ![0, 1] bcast_S600000x1_S600000x128_0_1 (broadcastInDim S600000x1 ![0] bcast_S600000_S600000x1_0 w)))

/-- The weighted sum over incoming edges, 64 columns. -/
def agg64 (h : FVec Ideal S100000x64 .f32) (s d : IVec S600000) (w : FVec Ideal S600000 .f32) : FVec Ideal S100000x64 .f32 :=
  Host.scatterAdd scatter_S100000x64_S600000x1_S600000x64_1_0_0_1
    (broadcastInDim S100000x64 ![] bcast_S_S100000x64 (constant (F := Ideal) S_ .f32 0x00000000#32))
    (broadcastInDim S600000x1 ![0] bcast_S600000_S600000x1_0 d)
    (mulf (Host.gather gather_S100000x64_S600000x1_S600000x64_1_0_n_n_0_1_164 h (broadcastInDim S600000x1 ![0] bcast_S600000_S600000x1_0 (wrap s)))
      (broadcastInDim S600000x64 ![0, 1] bcast_S600000x1_S600000x64_0_1 (broadcastInDim S600000x1 ![0] bcast_S600000_S600000x1_0 w)))

end Cert.KernelIdeal.Hand.Spec

end
-- ==== Proof.Host0.lean ====
/-
  The first stretch of host operations, read at the buffers the later segments use.

  Before the first launch the program slices the two rows of the edge array (sources and targets), counts each node's
  incoming edges by a scatter-add of ones and adds one for the self-loop, takes the inverse square root, gathers it at
  each edge's two ends (an index below zero wraps by the number of nodes) and multiplies the two into the edge's
  weight, and squares it into the one-column array of self-loop weights.  These are the operations, in the same order,
  by which the plain program's first layer computes the same four arrays, so each of the four buffers holds the plain
  program's value of the edge array.  No operation of the stretch writes an argument array.
-/
import proofs.«113976_j46772193853800_2_alg».proof.Proof.Gen.KernelIdeal.Launch
import proofs.«113976_j46772193853800_2_alg».proof.Proof.Gen.ReferenceIdeal.Read
import proofs.«113976_j46772193853800_2_alg».proof.Proof.LibTypedRef
import proofs.«113976_j46772193853800_2_alg».proof.Proof.Spec

set_option maxRecDepth 16384

noncomputable section

namespace Cert.KernelIdeal.Hand.Host0

open Cert.KernelIdeal Cert.KernelIdeal.Gen
open Idealize.ShloMosaic Idealize.ShloMosaic.TcCoe Idealize.SL.Sem Idealize.ShloMosaic.StableHlo

variable (W : Valuation τ sig (Elt Ideal))

/-- The edges' sources. -/
theorem src : StableHlo.after (hostOps0 (F := Ideal)) W (Proc.devRef .tc main_call0_v1) = Cert.ReferenceIdeal.Read.val_main_v1 (F := Ideal) (W (Proc.devRef .tc main_arg1)) := by
  after_results_simp
  try simp only [Cert.LibTypedRef.ofBuf_toBuf, Cert.LibTypedRef.toBuf_ofBuf]
  rfl
/-- The edges' targets. -/
theorem dst : StableHlo.after (hostOps0 (F := Ideal)) W (Proc.devRef .tc main_call0_v3) = Cert.ReferenceIdeal.Read.val_main_v3 (F := Ideal) (W (Proc.devRef .tc main_arg1)) := by
  after_results_simp
  try simp only [Cert.LibTypedRef.ofBuf_toBuf, Cert.LibTypedRef.toBuf_ofBuf]
  rfl
/-- The edges' weights. -/
theorem coef : StableHlo.after (hostOps0 (F := Ideal)) W (Proc.devRef .tc main_call0_v25) = Cert.ReferenceIdeal.Read.val_main_v26 (F := Ideal) (W (Proc.devRef .tc main_arg1)) := by
  after_results_simp
  try simp only [Cert.LibTypedRef.ofBuf_toBuf, Cert.LibTypedRef.toBuf_ofBuf]
  rfl
/-- The self-loop weights, one column. -/
theorem self : StableHlo.after (hostOps0 (F := Ideal)) W (Proc.devRef .tc main_call0_v27) = Cert.ReferenceIdeal.Read.val_main_v41 (F := Ideal) (W (Proc.devRef .tc main_arg1)) := by
  after_results_simp
  try simp only [Cert.LibTypedRef.ofBuf_toBuf, Cert.LibTypedRef.toBuf_ofBuf]
  rfl

/-- The stretch leaves the argument arrays it does not write as they were. -/
theorem keep_arg0 : StableHlo.after (hostOps0 (F := Ideal)) W (Proc.devRef .tc main_arg0) = W (Proc.devRef .tc main_arg0) := by
  after_results_simp
theorem keep_arg2 : StableHlo.after (hostOps0 (F := Ideal)) W (Proc.devRef .tc main_arg2) = W (Proc.devRef .tc main_arg2) := by
  after_results_simp
theorem keep_arg3 : StableHlo.after (hostOps0 (F := Ideal)) W (Proc.devRef .tc main_arg3) = W (Proc.devRef .tc main_arg3) := by
  after_results_simp
theorem keep_arg4 : StableHlo.after (hostOps0 (F := Ideal)) W (Proc.devRef .tc main_arg4) = W (Proc.devRef .tc main_arg4) := by
  after_results_simp
theorem keep_arg5 : StableHlo.after (hostOps0 (F := Ideal)) W (Proc.devRef .tc main_arg5) = W (Proc.devRef .tc main_arg5) := by
  after_results_simp
theorem keep_arg6 : StableHlo.after (hostOps0 (F := Ideal)) W (Proc.devRef .tc main_arg6) = W (Proc.devRef .tc main_arg6) := by
  after_results_simp
theorem keep_arg7 : StableHlo.after (hostOps0 (F := Ideal)) W (Proc.devRef .tc main_arg7) = W (Proc.devRef .tc main_arg7) := by
  after_results_simp
theorem keep_arg8 : StableHlo.after (hostOps0 (F := Ideal)) W (Proc.devRef .tc main_arg8) = W (Proc.devRef .tc main_arg8) := by
  after_results_simp
theorem keep_arg9 : StableHlo.after (hostOps0 (F := Ideal)) W (Proc.devRef .tc main_arg9) = W (Proc.devRef .tc main_arg9) := by
  after_results_simp
theorem keep_arg10 : StableHlo.after (hostOps0 (F := Ideal)) W (Proc.devRef .tc main_arg10) = W (Proc.devRef .tc main_arg10) := by
  after_results_simp
theorem keep_arg11 : StableHlo.after (hostOps0 (F := Ideal)) W (Proc.devRef .tc main_arg11) = W (Proc.devRef .tc main_arg11) := by
  after_results_simp

end Cert.KernelIdeal.Hand.Host0

end
-- ==== Proof.Host1.lean ====
/-
  A stretch of host operations between two launches: the neighbour aggregation of a layer.

  The stretch gathers the rows of the transformed array at the edges' sources, scales them by the edge weights,
  scatter-adds them at the edges' targets into a zero array, and reshapes the layer's bias into a one-row array.  Read at
  the aggregated buffer it is the weighted sum over incoming edges of the four buffers it reads; every buffer it does
  not write is as it was.
-/
import proofs.«113976_j46772193853800_2_alg».proof.Proof.Gen.KernelIdeal.Launch
import proofs.«113976_j46772193853800_2_alg».proof.Proof.LibTypedRef
import proofs.«113976_j46772193853800_2_alg».proof.Proof.Spec

set_option maxRecDepth 16384

noncomputable section

namespace Cert.KernelIdeal.Hand.Host1

open Cert.KernelIdeal Cert.KernelIdeal.Gen
open Idealize.ShloMosaic Idealize.ShloMosaic.TcCoe Idealize.SL.Sem Idealize.ShloMosaic.StableHlo

variable (W : Valuation τ sig (Elt Ideal))

/-- The weighted sum over incoming edges. -/
theorem agg : StableHlo.after (hostOps1 (F := Ideal)) W (Proc.devRef .tc main_call0_v41) = Spec.agg128 (W (Proc.devRef .tc main_call0_v28)) (W (Proc.devRef .tc main_call0_v1)) (W (Proc.devRef .tc main_call0_v3)) (W (Proc.devRef .tc main_call0_v25)) := by
  after_results_simp
  try simp only [Cert.LibTypedRef.ofBuf_toBuf, Cert.LibTypedRef.toBuf_ofBuf]
  rfl
/-- The bias as a one-row array. -/
theorem bias : StableHlo.after (hostOps1 (F := Ideal)) W (Proc.devRef .tc main_call0_v42) = shapeCast S1x128 (W (Proc.devRef .tc main_arg3)) shapeCasts_S128_S1x128 := by
  after_results_simp
  try simp only [Cert.LibTypedRef.ofBuf_toBuf, Cert.LibTypedRef.toBuf_ofBuf]
  rfl

/-- The stretch leaves every buffer it does not write as it was. -/
theorem keep_v28 : StableHlo.after (hostOps1 (F := Ideal)) W (Proc.devRef .tc main_call0_v28) = W (Proc.devRef .tc main_call0_v28) := by
  after_results_simp
theorem keep_v27 : StableHlo.after (hostOps1 (F := Ideal)) W (Proc.devRef .tc main_call0_v27) = W (Proc.devRef .tc main_call0_v27) := by
  after_results_simp
theorem keep_v1 : StableHlo.after (hostOps1 (F := Ideal)) W (Proc.devRef .tc main_call0_v1) = W (Proc.devRef .tc main_call0_v1) := by
  after_results_simp
theorem keep_v3 : StableHlo.after (hostOps1 (F := Ideal)) W (Proc.devRef .tc main_call0_v3) = W (Proc.devRef .tc main_call0_v3) := by
  after_results_simp
theorem keep_v25 : StableHlo.after (hostOps1 (F := Ideal)) W (Proc.devRef .tc main_call0_v25) = W (Proc.devRef .tc main_call0_v25) := by
  after_results_simp
theorem keep_arg4 : StableHlo.after (hostOps1 (F := Ideal)) W (Proc.devRef .tc main_arg4) = W (Proc.devRef .tc main_arg4) := by
  after_results_simp
theorem keep_arg5 : StableHlo.after (hostOps1 (F := Ideal)) W (Proc.devRef .tc main_arg5) = W (Proc.devRef .tc main_arg5) := by
  after_results_simp
theorem keep_arg6 : StableHlo.after (hostOps1 (F := Ideal)) W (Proc.devRef .tc main_arg6) = W (Proc.devRef .tc main_arg6) := by
  after_results_simp
theorem keep_arg7 : StableHlo.after (hostOps1 (F := Ideal)) W (Proc.devRef .tc main_arg7) = W (Proc.devRef .tc main_arg7) := by
  after_results_simp
theorem keep_arg8 : StableHlo.after (hostOps1 (F := Ideal)) W (Proc.devRef .tc main_arg8) = W (Proc.devRef .tc main_arg8) := by
  after_results_simp
theorem keep_arg9 : StableHlo.after (hostOps1 (F := Ideal)) W (Proc.devRef .tc main_arg9) = W (Proc.devRef .tc main_arg9) := by
  after_results_simp
theorem keep_arg10 : StableHlo.after (hostOps1 (F := Ideal)) W (Proc.devRef .tc main_arg10) = W (Proc.devRef .tc main_arg10) := by
  after_results_simp
theorem keep_arg11 : StableHlo.after (hostOps1 (F := Ideal)) W (Proc.devRef .tc main_arg11) = W (Proc.devRef .tc main_arg11) := by
  after_results_simp

end Cert.KernelIdeal.Hand.Host1

end
-- ==== Proof.Host3.lean ====
/-
  A stretch of host operations between two launches: the neighbour aggregation of a layer.

  The stretch gathers the rows of the transformed array at the edges' sources, scales them by the edge weights,
  scatter-adds them at the edges' targets into a zero array, and reshapes the layer's bias into a one-row array.  Read at
  the aggregated buffer it is the weighted sum over incoming edges of the four buffers it reads; every buffer it does
  not write is as it was.
-/
import proofs.«113976_j46772193853800_2_alg».proof.Proof.Gen.KernelIdeal.Launch
import proofs.«113976_j46772193853800_2_alg».proof.Proof.LibTypedRef
import proofs.«113976_j46772193853800_2_alg».proof.Proof.Spec

set_option maxRecDepth 16384

noncomputable section

namespace Cert.KernelIdeal.Hand.Host3

open Cert.KernelIdeal Cert.KernelIdeal.Gen
open Idealize.ShloMosaic Idealize.ShloMosaic.TcCoe Idealize.SL.Sem Idealize.ShloMosaic.StableHlo

variable (W : Valuation τ sig (Elt Ideal))

/-- The weighted sum over incoming edges. -/
theorem agg : StableHlo.after (hostOps3 (F := Ideal)) W (Proc.devRef .tc main_call0_v57) = Spec.agg128 (W (Proc.devRef .tc main_call0_v44)) (W (Proc.devRef .tc main_call0_v1)) (W (Proc.devRef .tc main_call0_v3)) (W (Proc.devRef .tc main_call0_v25)) := by
  after_results_simp
  try simp only [Cert.LibTypedRef.ofBuf_toBuf, Cert.LibTypedRef.toBuf_ofBuf]
  rfl
/-- The bias as a one-row array. -/
theorem bias : StableHlo.after (hostOps3 (F := Ideal)) W (Proc.devRef .tc main_call0_v58) = shapeCast S1x128 (W (Proc.devRef .tc main_arg5)) shapeCasts_S128_S1x128 := by
  after_results_simp
  try simp only [Cert.LibTypedRef.ofBuf_toBuf, Cert.LibTypedRef.toBuf_ofBuf]
  rfl

/-- The stretch leaves every buffer it does not write as it was. -/
theorem keep_v44 : StableHlo.after (hostOps3 (F := Ideal)) W (Proc.devRef .tc main_call0_v44) = W (Proc.devRef .tc main_call0_v44) := by
  after_results_simp
theorem keep_v27 : StableHlo.after (hostOps3 (F := Ideal)) W (Proc.devRef .tc main_call0_v27) = W (Proc.devRef .tc main_call0_v27) := by
  after_results_simp
theorem keep_v1 : StableHlo.after (hostOps3 (F := Ideal)) W (Proc.devRef .tc main_call0_v1) = W (Proc.devRef .tc main_call0_v1) := by
  after_results_simp
theorem keep_v3 : StableHlo.after (hostOps3 (F := Ideal)) W (Proc.devRef .tc main_call0_v3) = W (Proc.devRef .tc main_call0_v3) := by
  after_results_simp
theorem keep_v25 : StableHlo.after (hostOps3 (F := Ideal)) W (Proc.devRef .tc main_call0_v25) = W (Proc.devRef .tc main_call0_v25) := by
  after_results_simp
theorem keep_arg6 : StableHlo.after (hostOps3 (F := Ideal)) W (Proc.devRef .tc main_arg6) = W (Proc.devRef .tc main_arg6) := by
  after_results_simp
theorem keep_arg7 : StableHlo.after (hostOps3 (F := Ideal)) W (Proc.devRef .tc main_arg7) = W (Proc.devRef .tc main_arg7) := by
  after_results_simp
theorem keep_arg8 : StableHlo.after (hostOps3 (F := Ideal)) W (Proc.devRef .tc main_arg8) = W (Proc.devRef .tc main_arg8) := by
  after_results_simp
theorem keep_arg9 : StableHlo.after (hostOps3 (F := Ideal)) W (Proc.devRef .tc main_arg9) = W (Proc.devRef .tc main_arg9) := by
  after_results_simp
theorem keep_arg10 : StableHlo.after (hostOps3 (F := Ideal)) W (Proc.devRef .tc main_arg10) = W (Proc.devRef .tc main_arg10) := by
  after_results_simp
theorem keep_arg11 : StableHlo.after (hostOps3 (F := Ideal)) W (Proc.devRef .tc main_arg11) = W (Proc.devRef .tc main_arg11) := by
  after_results_simp

end Cert.KernelIdeal.Hand.Host3

end
-- ==== Proof.Host5.lean ====
/-
  A stretch of host operations between two launches: the neighbour aggregation of a layer.

  The stretch gathers the rows of the transformed array at the edges' sources, scales them by the edge weights,
  scatter-adds them at the edges' targets into a zero array, and reshapes the layer's bias into a one-row array.  Read at
  the aggregated buffer it is the weighted sum over incoming edges of the four buffers it reads; every buffer it does
  not write is as it was.
-/
import proofs.«113976_j46772193853800_2_alg».proof.Proof.Gen.KernelIdeal.Launch
import proofs.«113976_j46772193853800_2_alg».proof.Proof.LibTypedRef
import proofs.«113976_j46772193853800_2_alg».proof.Proof.Spec

set_option maxRecDepth 16384

noncomputable section

namespace Cert.KernelIdeal.Hand.Host5

open Cert.KernelIdeal Cert.KernelIdeal.Gen
open Idealize.ShloMosaic Idealize.ShloMosaic.TcCoe Idealize.SL.Sem Idealize.ShloMosaic.StableHlo

variable (W : Valuation τ sig (Elt Ideal))

/-- The weighted sum over incoming edges. -/
theorem agg : StableHlo.after (hostOps5 (F := Ideal)) W (Proc.devRef .tc main_call0_v73) = Spec.agg64 (W (Proc.devRef .tc main_call0_v60)) (W (Proc.devRef .tc main_call0_v1)) (W (Proc.devRef .tc main_call0_v3)) (W (Proc.devRef .tc main_call0_v25)) := by
  after_results_simp
  try simp only [Cert.LibTypedRef.ofBuf_toBuf, Cert.LibTypedRef.toBuf_ofBuf]
  rfl
/-- The bias as a one-row array. -/
theorem bias : StableHlo.after (hostOps5 (F := Ideal)) W (Proc.devRef .tc main_call0_v74) = shapeCast S1x64 (W (Proc.devRef .tc main_arg7)) shapeCasts_S64_S1x64 := by
  after_results_simp
  try simp only [Cert.LibTypedRef.ofBuf_toBuf, Cert.LibTypedRef.toBuf_ofBuf]
  rfl

/-- The stretch leaves every buffer it does not write as it was. -/
theorem keep_v60 : StableHlo.after (hostOps5 (F := Ideal)) W (Proc.devRef .tc main_call0_v60) = W (Proc.devRef .tc main_call0_v60) := by
  after_results_simp
theorem keep_v27 : StableHlo.after (hostOps5 (F := Ideal)) W (Proc.devRef .tc main_call0_v27) = W (Proc.devRef .tc main_call0_v27) := by
  after_results_simp
theorem keep_arg8 : StableHlo.after (hostOps5 (F := Ideal)) W (Proc.devRef .tc main_arg8) = W (Proc.devRef .tc main_arg8) := by
  after_results_simp
theorem keep_arg9 : StableHlo.after (hostOps5 (F := Ideal)) W (Proc.devRef .tc main_arg9) = W (Proc.devRef .tc main_arg9) := by
  after_results_simp
theorem keep_arg10 : StableHlo.after (hostOps5 (F := Ideal)) W (Proc.devRef .tc main_arg10) = W (Proc.devRef .tc main_arg10) := by
  after_results_simp
theorem keep_arg11 : StableHlo.after (hostOps5 (F := Ideal)) W (Proc.devRef .tc main_arg11) = W (Proc.devRef .tc main_arg11) := by
  after_results_simp

end Cert.KernelIdeal.Hand.Host5

end
-- ==== Proof.Host6.lean ====
/-
  The last stretch of host operations: the decoder's two biases reshaped into one-row arrays.

  Every buffer the stretch does not write is as it was.
-/
import proofs.«113976_j46772193853800_2_alg».proof.Proof.Gen.KernelIdeal.Launch
import proofs.«113976_j46772193853800_2_alg».proof.Proof.LibTypedRef
import proofs.«113976_j46772193853800_2_alg».proof.Proof.Spec

set_option maxRecDepth 16384

noncomputable section

namespace Cert.KernelIdeal.Hand.Host6

open Cert.KernelIdeal Cert.KernelIdeal.Gen
open Idealize.ShloMosaic Idealize.ShloMosaic.TcCoe Idealize.SL.Sem Idealize.ShloMosaic.StableHlo

variable (W : Valuation τ sig (Elt Ideal))

/-- The first decoder bias as a one-row array. -/
theorem bias1 : StableHlo.after (hostOps6 (F := Ideal)) W (Proc.devRef .tc main_call0_v76) = shapeCast S1x128 (W (Proc.devRef .tc main_arg9)) shapeCasts_S128_S1x128 := by
  after_results_simp
  try simp only [Cert.LibTypedRef.ofBuf_toBuf, Cert.LibTypedRef.toBuf_ofBuf]
  rfl
/-- The second decoder bias as a one-row array. -/
theorem bias2 : StableHlo.after (hostOps6 (F := Ideal)) W (Proc.devRef .tc main_call0_v77) = shapeCast S1x256 (W (Proc.devRef .tc main_arg11)) shapeCasts_S256_S1x256 := by
  after_results_simp
  try simp only [Cert.LibTypedRef.ofBuf_toBuf, Cert.LibTypedRef.toBuf_ofBuf]
  rfl

/-- The stretch leaves every buffer it does not write as it was. -/
theorem keep_v0_0 : StableHlo.after (hostOps6 (F := Ideal)) W (Proc.devRef .tc main_v0_0) = W (Proc.devRef .tc main_v0_0) := by
  after_results_simp
theorem keep_arg8 : StableHlo.after (hostOps6 (F := Ideal)) W (Proc.devRef .tc main_arg8) = W (Proc.devRef .tc main_arg8) := by
  after_results_simp
theorem keep_arg10 : StableHlo.after (hostOps6 (F := Ideal)) W (Proc.devRef .tc main_arg10) = W (Proc.devRef .tc main_arg10) := by
  after_results_simp

end Cert.KernelIdeal.Hand.Host6

end
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.LibDotGeneral.lean ====
/-
  A host matrix product with one contracted axis, read at one entry, and two broadcasts of a row read at an entry.

  Over the extended reals the host's product of an A by K matrix and a K by B matrix at entry (p, q) is the sum over k
  of l (p, k) r (k, q): there is no accumulator, and the contraction index of a product with one contracted axis is that
  axis' coordinate. The lemma is stated for any dimension record whose operand indices are (row, contraction) on the left
  and (contraction, column) on the right, which the four coordinate hypotheses say.
-/
import Idealize.ShloMosaic.PureOps.Ideal.Laws
import Idealize.ShloMosaic.Lib.ValueIdx
import Idealize.ShloMosaic.Lib.Pipeline.Value

noncomputable section

namespace Cert.LibDotGeneral

open Idealize.ShloMosaic Idealize.ShloMosaic.ValueIdx

/-- Entry (p, q) of a host matrix product with one contracted axis is the sum over that axis. -/
theorem dotGeneral_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    Host.dotGeneral d prec l r (ix2 p q) = ∑ k : Fin K, l (ix2 p k) * r (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibDotGeneral

end
-- ==== Proof.Mm0.lean ====
/-
  The first matrix-product launch: a row-tiled product with 256 contracted columns and 128 output columns.

  The launch walks fifty grid points; point t loads rows 2000 t … 2000 t + 1999 of the left array (all 256 columns) and
  the whole right array, multiplies them into a zero accumulator, and writes the 2000 × 128 product back as rows
  2000 t … 2000 t + 1999 of the output array.  Over the extended reals entry (p, q) of a tile's product is the sum over
  k of left (2000 t + p, k) · right (k, q), which is entry (2000 t + p, q) of the product of the whole arrays; the fifty
  row tiles cover the output array, so after the launch the output array is the whole product, whatever the left and
  right arrays held when the launch was entered.
-/
import proofs.«113976_j46772193853800_2_alg».proof.Proof.Gen.KernelIdeal.Frame
import proofs.«113976_j46772193853800_2_alg».proof.Proof.Gen.ReferenceIdeal.Read
import proofs.«113976_j46772193853800_2_alg».proof.Proof.LibMatmul
import proofs.«113976_j46772193853800_2_alg».proof.Proof.LibDotGeneral
import Idealize.ShloMosaic.Lib.Pipeline.Value
import Idealize.ShloMosaic.Lib.ValueIdx

set_option maxRecDepth 16384

noncomputable section

namespace Cert.KernelIdeal.Hand.Mm0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product of the whole arrays. -/
def prod (X : FVec Ideal S100000x256 .f32) (W : FVec Ideal S256x128 .f32) : FVec Ideal S100000x128 .f32 :=
  Host.dotGeneral Cert.ReferenceIdeal.dot_S100000x256_S256x128_S100000x128_1_0_0_1_n_n none X W

/-- Entry (r, q) of the whole product is the sum over the contracted axis. -/
theorem prod_at (X : FVec Ideal S100000x256 .f32) (W : FVec Ideal S256x128 .f32) (r : Fin 100000) (q : Fin 128) :
    prod X W (ix2 r q) = ∑ k : Fin 256, X (ix2 r k) * W (ix2 k q) := by
  unfold prod
  exact Cert.LibDotGeneral.dotGeneral_ix2 Cert.ReferenceIdeal.dot_S100000x256_S256x128_S100000x128_1_0_0_1_n_n rfl rfl Cert.ReferenceIdeal.Read.lhs_main_v4_0 Cert.ReferenceIdeal.Read.lhs_main_v4_1 Cert.ReferenceIdeal.Read.rhs_main_v4_0 Cert.ReferenceIdeal.Read.rhs_main_v4_1 none X W r q

/-- Where each window's block sits at grid point t: the left and the output blocks at block row t, the right array whole. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The tile product's dimension record reads the left operand at (row, contraction) and the right at (contraction, column). -/
theorem dl0 (i : S2000x128.Idx) (q : dot_S2000x256_S256x128_S2000x128_1_0_0_1_n_n.contr.Idx) : (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem dl1 (i : S2000x128.Idx) (q : dot_S2000x256_S256x128_S2000x128_1_0_0_1_n_n.contr.Idx) : (dot_S2000x256_S256x128_S2000x128_1_0_0_1_n_n.lhsIdx i q 1).val = (q ⟨0, by decide⟩).val :=
  dot_S2000x256_S256x128_S2000x128_1_0_0_1_n_n.lhsIdx_val_of_single rfl i q
theorem dr0 (i : S2000x128.Idx) (q : dot_S2000x256_S256x128_S2000x128_1_0_0_1_n_n.contr.Idx) : (dot_S2000x256_S256x128_S2000x128_1_0_0_1_n_n.rhsIdx i q 0).val = (q ⟨0, by decide⟩).val :=
  dot_S2000x256_S256x128_S2000x128_1_0_0_1_n_n.rhsIdx_val_of_single rfl i q
theorem dr1 (i : S2000x128.Idx) (q : dot_S2000x256_S256x128_S2000x128_1_0_0_1_n_n.contr.Idx) : (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Entry (p, q) of a tile's product is the sum over the contracted axis. -/
theorem pay_at (x0 : FVec Ideal S2000x256 .f32) (x1 : FVec Ideal S256x128 .f32) (p : Fin 2000) (q : Fin 128) :
    k0_pay1 x0 x1 (ix2 p q) = ∑ k : Fin 256, x0 (ix2 p k) * x1 (ix2 k q) := by
  unfold k0_pay1
  try simp only [shapeCast_self]
  exact Cert.LibMatmul.matmul_zero_ix2 dot_S2000x256_S256x128_S2000x128_1_0_0_1_n_n rfl rfl dl0 dl1 dr0 dr1 (some .fp32) x0 x1 p q

/-- The left window's block at point t is rows 2000 t … of the left array. -/
theorem left_read (c : Dev nD) (t : Fin cfg0.N) (p : Fin 2000) (k : Fin 256) (I : S100000x256.Idx)
    (h0 : (I 0).val = t.val * 2000 + p.val) (h1 : (I 1).val = k.val) :
    (iblk0 V c 0 t : Vec Ideal S2000x256 .f32) (ix2 p k) = (V c main_arg0 : S100000x256.Idx → EReal) I := by
  unfold iblk0
  rw [View.read_apply]
  show V c main_arg0 _ = V c main_arg0 I
  refine congrArg _ (funext fun a => Fin.ext ?_)
  match a with
  | ⟨0, _⟩ => show win0_0.index t (0 : Fin 2) * 2000 + 1 * p.val = (I 0).val; rw [h0, (idx t).1]; omega
  | ⟨1, _⟩ => show win0_0.index t (1 : Fin 2) * 256 + 1 * k.val = (I 1).val; rw [h1, (idx t).2.1]; omega

/-- The right window's block at every point is the right array. -/
theorem right_read (c : Dev nD) (t : Fin cfg0.N) (k : Fin 256) (q : Fin 128) (I : S256x128.Idx)
    (h0 : (I 0).val = k.val) (h1 : (I 1).val = q.val) :
    (iblk0 V c 1 t : Vec Ideal S256x128 .f32) (ix2 k q) = (V c main_arg2 : S256x128.Idx → EReal) I := by
  unfold iblk0
  rw [View.read_apply]
  show V c main_arg2 _ = V c main_arg2 I
  refine congrArg _ (funext fun a => Fin.ext ?_)
  match a with
  | ⟨0, _⟩ => show win0_1.index t (0 : Fin 2) * 256 + 1 * k.val = (I 0).val; rw [h0, (idx t).2.2.1]; omega
  | ⟨1, _⟩ => show win0_1.index t (1 : Fin 2) * 128 + 1 * q.val = (I 1).val; rw [h1, (idx t).2.2.2.1]; omega

/-- What point t's body leaves at entry j of the tile is the whole product at the entry the tile's rectangle puts j. -/
theorem point (c : Dev nD) (t : Fin cfg0.N) (j : S2000x128.Idx) :
    k0_pay1 (iblk0 V c 0 t) (iblk0 V c 1 t) j
      = prod (V c main_arg0) (V c main_arg2) (((cfg0.win 2).blk t).view.emb j) := by
  obtain ⟨p, q, rfl⟩ : ∃ (p : Fin 2000) (q : Fin 128), j = ix2 p q := ⟨j 0, j 1, eq_ix2 j⟩
  have hr : t.val * 2000 + p.val < 100000 := by have := t.isLt; have hN : cfg0.N = 50 := N_0; have := p.isLt; omega
  have he : ((cfg0.win 2).blk t).view.emb (ix2 p q) = ix2 (⟨t.val * 2000 + p.val, hr⟩ : Fin 100000) q := by
    funext a; apply Fin.ext
    match a with
    | ⟨0, _⟩ => show win0_2.index t (0 : Fin 2) * 2000 + 1 * p.val = t.val * 2000 + p.val; rw [(idx t).2.2.2.2.1]; omega
    | ⟨1, _⟩ => show win0_2.index t (1 : Fin 2) * 128 + 1 * q.val = q.val; rw [(idx t).2.2.2.2.2]; omega
  rw [he, prod_at, pay_at]
  refine Finset.sum_congr rfl fun k _ => ?_
  rw [left_read V c t p k (ix2 (⟨t.val * 2000 + p.val, hr⟩ : Fin 100000) k) rfl rfl,
    right_read V c t k q (ix2 k q) rfl rfl]

/-- What point t writes back is block t of the whole product. -/
theorem flushed (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x128) hz]
  funext j
  rw [View.read_apply]
  exact point V c t j

/-- An index of the output array is in point t's block iff its row is in rows 2000 t … 2000 t + 1999. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_call0_v28).slice (win0_2.rect t)).set ↔ _
  rw [View.set_slice_whole, Rect.mem_set_unit]
  exact Iff.rfl

/-- Every index of the output array is in the block of its row's tile. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  refine ⟨⟨(i 0).val / 2000, by rw [hN]; omega⟩, flush0_2 _, ?_⟩
  rw [mem_blk]
  intro a
  match a with
  | ⟨0, _⟩ => show win0_2.index _ (0 : Fin 2) * 2000 ≤ (i 0).val ∧ (i 0).val < win0_2.index _ (0 : Fin 2) * 2000 + 2000; rw [(idx _).2.2.2.2.1]; show (i 0).val / 2000 * 2000 ≤ (i 0).val ∧ (i 0).val < (i 0).val / 2000 * 2000 + 2000; omega
  | ⟨1, _⟩ => show win0_2.index _ (1 : Fin 2) * 128 ≤ (i 1).val ∧ (i 1).val < win0_2.index _ (1 : Fin 2) * 128 + 128; rw [(idx _).2.2.2.2.2]; omega

/-- After the launch the output array is the whole product of the left and right arrays as the launch found them. -/
theorem arr (c : Dev nD) : (dat0 V c).arrAt 2 cfg0.N = prod (V c main_arg0) (V c main_arg2) :=
  (dat0 V c).arrAt_eq_of_cover 2 _ (fun t _ => flushed V c t) cover

end Cert.KernelIdeal.Hand.Mm0

end
-- ==== Proof.Mm2.lean ====
/-
  The second matrix-product launch: a row-tiled product with 128 contracted columns and 128 output columns.

  The launch walks fifty grid points; point t loads rows 2000 t … 2000 t + 1999 of the left array (all 128 columns) and
  the whole right array, multiplies them into a zero accumulator, and writes the 2000 × 128 product back as rows
  2000 t … 2000 t + 1999 of the output array.  Over the extended reals entry (p, q) of a tile's product is the sum over
  k of left (2000 t + p, k) · right (k, q), which is entry (2000 t + p, q) of the product of the whole arrays; the fifty
  row tiles cover the output array, so after the launch the output array is the whole product, whatever the left and
  right arrays held when the launch was entered.
-/
import proofs.«113976_j46772193853800_2_alg».proof.Proof.Gen.KernelIdeal.Frame
import proofs.«113976_j46772193853800_2_alg».proof.Proof.Gen.ReferenceIdeal.Read
import proofs.«113976_j46772193853800_2_alg».proof.Proof.LibMatmul
import proofs.«113976_j46772193853800_2_alg».proof.Proof.LibDotGeneral
import Idealize.ShloMosaic.Lib.Pipeline.Value
import Idealize.ShloMosaic.Lib.ValueIdx

set_option maxRecDepth 16384

noncomputable section

namespace Cert.KernelIdeal.Hand.Mm2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product of the whole arrays. -/
def prod (X : FVec Ideal S100000x128 .f32) (W : FVec Ideal S128x128 .f32) : FVec Ideal S100000x128 .f32 :=
  Host.dotGeneral Cert.ReferenceIdeal.dot_S100000x128_S128x128_S100000x128_1_0_0_1_n_n none X W

/-- Entry (r, q) of the whole product is the sum over the contracted axis. -/
theorem prod_at (X : FVec Ideal S100000x128 .f32) (W : FVec Ideal S128x128 .f32) (r : Fin 100000) (q : Fin 128) :
    prod X W (ix2 r q) = ∑ k : Fin 128, X (ix2 r k) * W (ix2 k q) := by
  unfold prod
  exact Cert.LibDotGeneral.dotGeneral_ix2 Cert.ReferenceIdeal.dot_S100000x128_S128x128_S100000x128_1_0_0_1_n_n rfl rfl Cert.ReferenceIdeal.Read.lhs_main_v49_0 Cert.ReferenceIdeal.Read.lhs_main_v49_1 Cert.ReferenceIdeal.Read.rhs_main_v49_0 Cert.ReferenceIdeal.Read.rhs_main_v49_1 none X W r q

/-- Where each window's block sits at grid point t: the left and the output blocks at block row t, the right array whole. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The tile product's dimension record reads the left operand at (row, contraction) and the right at (contraction, column). -/
theorem dl0 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem dl1 (i : S2000x128.Idx) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q
theorem dr0 (i : S2000x128.Idx) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q
theorem dr1 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (p, q) of a tile's product is the sum over the contracted axis. -/
theorem pay_at (x0 : FVec Ideal S2000x128 .f32) (x1 : FVec Ideal S128x128 .f32) (p : Fin 2000) (q : Fin 128) :
    k2_pay1 x0 x1 (ix2 p q) = ∑ k : Fin 128, x0 (ix2 p k) * x1 (ix2 k q) := by
  unfold k2_pay1
  try simp only [shapeCast_self]
  exact Cert.LibMatmul.matmul_zero_ix2 dot_S2000x128_S128x128_S2000x128_1_0_0_1_n_n rfl rfl dl0 dl1 dr0 dr1 (some .fp32) x0 x1 p q

/-- The left window's block at point t is rows 2000 t … of the left array. -/
theorem left_read (c : Dev nD) (t : Fin cfg2.N) (p : Fin 2000) (k : Fin 128) (I : S100000x128.Idx)
    (h0 : (I 0).val = t.val * 2000 + p.val) (h1 : (I 1).val = k.val) :
    (iblk2 V c 0 t : Vec Ideal S2000x128 .f32) (ix2 p k) = (V c main_call0_v43 : S100000x128.Idx → EReal) I := by
  unfold iblk2
  rw [View.read_apply]
  show V c main_call0_v43 _ = V c main_call0_v43 I
  refine congrArg _ (funext fun a => Fin.ext ?_)
  match a with
  | ⟨0, _⟩ => show win2_0.index t (0 : Fin 2) * 2000 + 1 * p.val = (I 0).val; rw [h0, (idx t).1]; omega
  | ⟨1, _⟩ => show win2_0.index t (1 : Fin 2) * 128 + 1 * k.val = (I 1).val; rw [h1, (idx t).2.1]; omega

/-- The right window's block at every point is the right array. -/
theorem right_read (c : Dev nD) (t : Fin cfg2.N) (k : Fin 128) (q : Fin 128) (I : S128x128.Idx)
    (h0 : (I 0).val = k.val) (h1 : (I 1).val = q.val) :
    (iblk2 V c 1 t : Vec Ideal S128x128 .f32) (ix2 k q) = (V c main_arg4 : S128x128.Idx → EReal) I := by
  unfold iblk2
  rw [View.read_apply]
  show V c main_arg4 _ = V c main_arg4 I
  refine congrArg _ (funext fun a => Fin.ext ?_)
  match a with
  | ⟨0, _⟩ => show win2_1.index t (0 : Fin 2) * 128 + 1 * k.val = (I 0).val; rw [h0, (idx t).2.2.1]; omega
  | ⟨1, _⟩ => show win2_1.index t (1 : Fin 2) * 128 + 1 * q.val = (I 1).val; rw [h1, (idx t).2.2.2.1]; omega

/-- What point t's body leaves at entry j of the tile is the whole product at the entry the tile's rectangle puts j. -/
theorem point (c : Dev nD) (t : Fin cfg2.N) (j : S2000x128.Idx) :
    k2_pay1 (iblk2 V c 0 t) (iblk2 V c 1 t) j
      = prod (V c main_call0_v43) (V c main_arg4) (((cfg2.win 2).blk t).view.emb j) := by
  obtain ⟨p, q, rfl⟩ : ∃ (p : Fin 2000) (q : Fin 128), j = ix2 p q := ⟨j 0, j 1, eq_ix2 j⟩
  have hr : t.val * 2000 + p.val < 100000 := by have := t.isLt; have hN : cfg2.N = 50 := N_2; have := p.isLt; omega
  have he : ((cfg2.win 2).blk t).view.emb (ix2 p q) = ix2 (⟨t.val * 2000 + p.val, hr⟩ : Fin 100000) q := by
    funext a; apply Fin.ext
    match a with
    | ⟨0, _⟩ => show win2_2.index t (0 : Fin 2) * 2000 + 1 * p.val = t.val * 2000 + p.val; rw [(idx t).2.2.2.2.1]; omega
    | ⟨1, _⟩ => show win2_2.index t (1 : Fin 2) * 128 + 1 * q.val = q.val; rw [(idx t).2.2.2.2.2]; omega
  rw [he, prod_at, pay_at]
  refine Finset.sum_congr rfl fun k _ => ?_
  rw [left_read V c t p k (ix2 (⟨t.val * 2000 + p.val, hr⟩ : Fin 100000) k) rfl rfl,
    right_read V c t k q (ix2 k q) rfl rfl]

/-- What point t writes back is block t of the whole product. -/
theorem flushed (c : Dev nD) (t : Fin cfg2.N) :
    (dat2 V c).flushed 2 t = ((cfg2.win 2).blk t).view.read (Elt Ideal) (prod (V c main_call0_v43) (V c main_arg4)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x128) hz]
  funext j
  rw [View.read_apply]
  exact point V c t j

/-- An index of the output array is in point t's block iff its row is in rows 2000 t … 2000 t + 1999. -/
theorem mem_blk (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_call0_v44).slice (win2_2.rect t)).set ↔ _
  rw [View.set_slice_whole, Rect.mem_set_unit]
  exact Iff.rfl

/-- Every index of the output array is in the block of its row's tile. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 50 := N_2
  refine ⟨⟨(i 0).val / 2000, by rw [hN]; omega⟩, flush2_2 _, ?_⟩
  rw [mem_blk]
  intro a
  match a with
  | ⟨0, _⟩ => show win2_2.index _ (0 : Fin 2) * 2000 ≤ (i 0).val ∧ (i 0).val < win2_2.index _ (0 : Fin 2) * 2000 + 2000; rw [(idx _).2.2.2.2.1]; show (i 0).val / 2000 * 2000 ≤ (i 0).val ∧ (i 0).val < (i 0).val / 2000 * 2000 + 2000; omega
  | ⟨1, _⟩ => show win2_2.index _ (1 : Fin 2) * 128 ≤ (i 1).val ∧ (i 1).val < win2_2.index _ (1 : Fin 2) * 128 + 128; rw [(idx _).2.2.2.2.2]; omega

/-- After the launch the output array is the whole product of the left and right arrays as the launch found them. -/
theorem arr (c : Dev nD) : (dat2 V c).arrAt 2 cfg2.N = prod (V c main_call0_v43) (V c main_arg4) :=
  (dat2 V c).arrAt_eq_of_cover 2 _ (fun t _ => flushed V c t) cover

end Cert.KernelIdeal.Hand.Mm2

end
-- ==== Proof.Mm4.lean ====
/-
  The third matrix-product launch: a row-tiled product with 128 contracted columns and 64 output columns.

  The launch walks fifty grid points; point t loads rows 2000 t … 2000 t + 1999 of the left array (all 128 columns) and
  the whole right array, multiplies them into a zero accumulator, and writes the 2000 × 64 product back as rows
  2000 t … 2000 t + 1999 of the output array.  Over the extended reals entry (p, q) of a tile's product is the sum over
  k of left (2000 t + p, k) · right (k, q), which is entry (2000 t + p, q) of the product of the whole arrays; the fifty
  row tiles cover the output array, so after the launch the output array is the whole product, whatever the left and
  right arrays held when the launch was entered.
-/
import proofs.«113976_j46772193853800_2_alg».proof.Proof.Gen.KernelIdeal.Frame
import proofs.«113976_j46772193853800_2_alg».proof.Proof.Gen.ReferenceIdeal.Read
import proofs.«113976_j46772193853800_2_alg».proof.Proof.LibMatmul
import proofs.«113976_j46772193853800_2_alg».proof.Proof.LibDotGeneral
import Idealize.ShloMosaic.Lib.Pipeline.Value
import Idealize.ShloMosaic.Lib.ValueIdx

set_option maxRecDepth 16384

noncomputable section

namespace Cert.KernelIdeal.Hand.Mm4

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product of the whole arrays. -/
def prod (X : FVec Ideal S100000x128 .f32) (W : FVec Ideal S128x64 .f32) : FVec Ideal S100000x64 .f32 :=
  Host.dotGeneral Cert.ReferenceIdeal.dot_S100000x128_S128x64_S100000x64_1_0_0_1_n_n none X W

/-- Entry (r, q) of the whole product is the sum over the contracted axis. -/
theorem prod_at (X : FVec Ideal S100000x128 .f32) (W : FVec Ideal S128x64 .f32) (r : Fin 100000) (q : Fin 64) :
    prod X W (ix2 r q) = ∑ k : Fin 128, X (ix2 r k) * W (ix2 k q) := by
  unfold prod
  exact Cert.LibDotGeneral.dotGeneral_ix2 Cert.ReferenceIdeal.dot_S100000x128_S128x64_S100000x64_1_0_0_1_n_n rfl rfl Cert.ReferenceIdeal.Read.lhs_main_v94_0 Cert.ReferenceIdeal.Read.lhs_main_v94_1 Cert.ReferenceIdeal.Read.rhs_main_v94_0 Cert.ReferenceIdeal.Read.rhs_main_v94_1 none X W r q

/-- Where each window's block sits at grid point t: the left and the output blocks at block row t, the right array whole. -/
theorem idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The tile product's dimension record reads the left operand at (row, contraction) and the right at (contraction, column). -/
theorem dl0 (i : S2000x64.Idx) (q : dot_S2000x128_S128x64_S2000x64_1_0_0_1_n_n.contr.Idx) : (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem dl1 (i : S2000x64.Idx) (q : dot_S2000x128_S128x64_S2000x64_1_0_0_1_n_n.contr.Idx) : (dot_S2000x128_S128x64_S2000x64_1_0_0_1_n_n.lhsIdx i q 1).val = (q ⟨0, by decide⟩).val :=
  dot_S2000x128_S128x64_S2000x64_1_0_0_1_n_n.lhsIdx_val_of_single rfl i q
theorem dr0 (i : S2000x64.Idx) (q : dot_S2000x128_S128x64_S2000x64_1_0_0_1_n_n.contr.Idx) : (dot_S2000x128_S128x64_S2000x64_1_0_0_1_n_n.rhsIdx i q 0).val = (q ⟨0, by decide⟩).val :=
  dot_S2000x128_S128x64_S2000x64_1_0_0_1_n_n.rhsIdx_val_of_single rfl i q
theorem dr1 (i : S2000x64.Idx) (q : dot_S2000x128_S128x64_S2000x64_1_0_0_1_n_n.contr.Idx) : (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- Entry (p, q) of a tile's product is the sum over the contracted axis. -/
theorem pay_at (x0 : FVec Ideal S2000x128 .f32) (x1 : FVec Ideal S128x64 .f32) (p : Fin 2000) (q : Fin 64) :
    k4_pay1 x0 x1 (ix2 p q) = ∑ k : Fin 128, x0 (ix2 p k) * x1 (ix2 k q) := by
  unfold k4_pay1
  try simp only [shapeCast_self]
  exact Cert.LibMatmul.matmul_zero_ix2 dot_S2000x128_S128x64_S2000x64_1_0_0_1_n_n rfl rfl dl0 dl1 dr0 dr1 (some .fp32) x0 x1 p q

/-- The left window's block at point t is rows 2000 t … of the left array. -/
theorem left_read (c : Dev nD) (t : Fin cfg4.N) (p : Fin 2000) (k : Fin 128) (I : S100000x128.Idx)
    (h0 : (I 0).val = t.val * 2000 + p.val) (h1 : (I 1).val = k.val) :
    (iblk4 V c 0 t : Vec Ideal S2000x128 .f32) (ix2 p k) = (V c main_call0_v59 : S100000x128.Idx → EReal) I := by
  unfold iblk4
  rw [View.read_apply]
  show V c main_call0_v59 _ = V c main_call0_v59 I
  refine congrArg _ (funext fun a => Fin.ext ?_)
  match a with
  | ⟨0, _⟩ => show win4_0.index t (0 : Fin 2) * 2000 + 1 * p.val = (I 0).val; rw [h0, (idx t).1]; omega
  | ⟨1, _⟩ => show win4_0.index t (1 : Fin 2) * 128 + 1 * k.val = (I 1).val; rw [h1, (idx t).2.1]; omega

/-- The right window's block at every point is the right array. -/
theorem right_read (c : Dev nD) (t : Fin cfg4.N) (k : Fin 128) (q : Fin 64) (I : S128x64.Idx)
    (h0 : (I 0).val = k.val) (h1 : (I 1).val = q.val) :
    (iblk4 V c 1 t : Vec Ideal S128x64 .f32) (ix2 k q) = (V c main_arg6 : S128x64.Idx → EReal) I := by
  unfold iblk4
  rw [View.read_apply]
  show V c main_arg6 _ = V c main_arg6 I
  refine congrArg _ (funext fun a => Fin.ext ?_)
  match a with
  | ⟨0, _⟩ => show win4_1.index t (0 : Fin 2) * 128 + 1 * k.val = (I 0).val; rw [h0, (idx t).2.2.1]; omega
  | ⟨1, _⟩ => show win4_1.index t (1 : Fin 2) * 64 + 1 * q.val = (I 1).val; rw [h1, (idx t).2.2.2.1]; omega

/-- What point t's body leaves at entry j of the tile is the whole product at the entry the tile's rectangle puts j. -/
theorem point (c : Dev nD) (t : Fin cfg4.N) (j : S2000x64.Idx) :
    k4_pay1 (iblk4 V c 0 t) (iblk4 V c 1 t) j
      = prod (V c main_call0_v59) (V c main_arg6) (((cfg4.win 2).blk t).view.emb j) := by
  obtain ⟨p, q, rfl⟩ : ∃ (p : Fin 2000) (q : Fin 64), j = ix2 p q := ⟨j 0, j 1, eq_ix2 j⟩
  have hr : t.val * 2000 + p.val < 100000 := by have := t.isLt; have hN : cfg4.N = 50 := N_4; have := p.isLt; omega
  have he : ((cfg4.win 2).blk t).view.emb (ix2 p q) = ix2 (⟨t.val * 2000 + p.val, hr⟩ : Fin 100000) q := by
    funext a; apply Fin.ext
    match a with
    | ⟨0, _⟩ => show win4_2.index t (0 : Fin 2) * 2000 + 1 * p.val = t.val * 2000 + p.val; rw [(idx t).2.2.2.2.1]; omega
    | ⟨1, _⟩ => show win4_2.index t (1 : Fin 2) * 64 + 1 * q.val = q.val; rw [(idx t).2.2.2.2.2]; omega
  rw [he, prod_at, pay_at]
  refine Finset.sum_congr rfl fun k _ => ?_
  rw [left_read V c t p k (ix2 (⟨t.val * 2000 + p.val, hr⟩ : Fin 100000) k) rfl rfl,
    right_read V c t k q (ix2 k q) rfl rfl]

/-- What point t writes back is block t of the whole product. -/
theorem flushed (c : Dev nD) (t : Fin cfg4.N) :
    (dat4 V c).flushed 2 t = ((cfg4.win 2).blk t).view.read (Elt Ideal) (prod (V c main_call0_v59) (V c main_arg6)) := by
  show (cfg4.win 2).cut (grid4.coords t) ((dat4 V c).after 2 t) = _
  rw [after4_2]
  unfold out4_2
  rw [View.canon_unit_zero hz]
  simp only [View.ld_unit_zero (S := S2000x128) hz, View.ld_unit_zero (S := S128x64) hz]
  funext j
  rw [View.read_apply]
  exact point V c t j

/-- An index of the output array is in point t's block iff its row is in rows 2000 t … 2000 t + 1999. -/
theorem mem_blk (t : Fin cfg4.N) (i : S100000x64.Idx) :
    i ∈ ((cfg4.win 2).blk t).view.set ↔ ∀ a : Fin 2, win4_2.index t a * S2000x64.size a ≤ (i a).val ∧ (i a).val < win4_2.index t a * S2000x64.size a + S2000x64.size a := by
  show i ∈ ((View.whole main_call0_v60).slice (win4_2.rect t)).set ↔ _
  rw [View.set_slice_whole, Rect.mem_set_unit]
  exact Iff.rfl

/-- Every index of the output array is in the block of its row's tile. -/
theorem cover (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 50 := N_4
  refine ⟨⟨(i 0).val / 2000, by rw [hN]; omega⟩, flush4_2 _, ?_⟩
  rw [mem_blk]
  intro a
  match a with
  | ⟨0, _⟩ => show win4_2.index _ (0 : Fin 2) * 2000 ≤ (i 0).val ∧ (i 0).val < win4_2.index _ (0 : Fin 2) * 2000 + 2000; rw [(idx _).2.2.2.2.1]; show (i 0).val / 2000 * 2000 ≤ (i 0).val ∧ (i 0).val < (i 0).val / 2000 * 2000 + 2000; omega
  | ⟨1, _⟩ => show win4_2.index _ (1 : Fin 2) * 64 ≤ (i 1).val ∧ (i 1).val < win4_2.index _ (1 : Fin 2) * 64 + 64; rw [(idx _).2.2.2.2.2]; omega

/-- After the launch the output array is the whole product of the left and right arrays as the launch found them. -/
theorem arr (c : Dev nD) : (dat4 V c).arrAt 2 cfg4.N = prod (V c main_call0_v59) (V c main_arg6) :=
  (dat4 V c).arrAt_eq_of_cover 2 _ (fun t _ => flushed V c t) cover

end Cert.KernelIdeal.Hand.Mm4

end
-- ==== Proof.Epi1.lean ====
/-
  A layer's closing step with the maximum with zero, row tile by row tile (128 columns).

  Point t loads rows 2000 t … 2000 t + 1999 of the aggregated array, of the transformed array and of the one-column array
  of self-loop weights, and the one-row bias array whole; it stores, at entry (p, q) of the tile,
  max (agg (p, q) + h (p, q) · d (p, 0) + b (0, q), 0), and writes the tile back as the same rows of the output array.
  That is entry (2000 t + p, q) of the whole-array expression: the column array broadcast along each row, the row array
  broadcast down the rows, a product, two sums and the maximum with zero, all entry by entry.  The fifty tiles cover the
  output array, so after the launch the output array is that expression of the four arrays as the launch found them.
-/
import proofs.«113976_j46772193853800_2_alg».proof.Proof.Gen.KernelIdeal.Frame
import proofs.«113976_j46772193853800_2_alg».proof.Proof.Gen.ReferenceIdeal
import Idealize.ShloMosaic.Lib.Pipeline.Value
import Idealize.ShloMosaic.Lib.ValueIdx

set_option maxRecDepth 16384

noncomputable section

namespace Cert.KernelIdeal.Hand.Epi1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The closing step on whole arrays: aggregated + transformed · (self-loop weight, one per row) + bias (one per column),
    then the maximum with zero, entry by entry. -/
def close (agg h : FVec Ideal S100000x128 .f32) (d : FVec Ideal S100000x1 .f32) (b : FVec Ideal S1x128 .f32) :
    FVec Ideal S100000x128 .f32 :=
  maximumf (addf (addf agg (mulf h (broadcastInDim S100000x128 ![0, 1] Cert.ReferenceIdeal.Gen.bcast_S100000x1_S100000x128_0_1 d)))
    (broadcastInDim S100000x128 ![0, 1] Cert.ReferenceIdeal.Gen.bcast_S1x128_S100000x128_0_1 b))
    (broadcastInDim S100000x128 ![] Cert.ReferenceIdeal.Gen.bcast_S_S100000x128 (constant (F := Ideal) S_ .f32 0x00000000#32))

/-- The whole-array expression at entry (r, q). -/
theorem close_at (agg h : FVec Ideal S100000x128 .f32) (d : FVec Ideal S100000x1 .f32) (b : FVec Ideal S1x128 .f32)
    (r : Fin 100000) (q : Fin 128) :
    close agg h d b (ix2 r q) = FloatOps.maximumf (FloatOps.addf (FloatOps.addf (agg (ix2 r q)) (FloatOps.mulf (h (ix2 r q)) (d (ix2 r 0)))) (b (ix2 0 q))) (FloatOps.ofBits .f32 0x00000000#32) := by
  unfold close
  show FloatOps.maximumf (FloatOps.addf (FloatOps.addf (agg (ix2 r q)) (FloatOps.mulf (h (ix2 r q))
      (broadcastInDim S100000x128 ![0, 1] Cert.ReferenceIdeal.Gen.bcast_S100000x1_S100000x128_0_1 d (ix2 r q))))
      (broadcastInDim S100000x128 ![0, 1] Cert.ReferenceIdeal.Gen.bcast_S1x128_S100000x128_0_1 b (ix2 r q)))
      (broadcastInDim S100000x128 ![] Cert.ReferenceIdeal.Gen.bcast_S_S100000x128 (constant (F := Ideal) S_ .f32 0x00000000#32) (ix2 r q)) = _
  rw [broadcastInDim_apply _ Cert.ReferenceIdeal.Gen.bcast_S100000x1_S100000x128_0_1 d (ix2 r q) (ix2 r 0) (fun a => match a with
        | ⟨0, _⟩ => by show r.val = if (100000 : Nat) = 1 then 0 else r.val; rw [if_neg (by decide)]
        | ⟨1, _⟩ => by show 0 = if (1 : Nat) = 1 then 0 else q.val; rw [if_pos rfl]),
      broadcastInDim_apply _ Cert.ReferenceIdeal.Gen.bcast_S1x128_S100000x128_0_1 b (ix2 r q) (ix2 0 q) (fun a => match a with
        | ⟨0, _⟩ => by show 0 = if (1 : Nat) = 1 then 0 else r.val; rw [if_pos rfl]
        | ⟨1, _⟩ => by show q.val = if (128 : Nat) = 1 then 0 else q.val; rw [if_neg (by decide)]),
      broadcastInDim_apply _ Cert.ReferenceIdeal.Gen.bcast_S_S100000x128 (constant (F := Ideal) S_ .f32 0x00000000#32) (ix2 r q) (fun a => a.elim0) (fun a => a.elim0)]
  rfl

/-- Where each window's block sits at grid point t. -/
theorem idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The body's stored value at entry (p, q) of the tile. -/
theorem pay_at (a h : FVec Ideal S2000x128 .f32) (d : FVec Ideal S2000x1 .f32) (b : FVec Ideal S1x128 .f32) (p : Fin 2000) (q : Fin 128) :
    k1_pay1 a h d b (ix2 p q) = FloatOps.maximumf (FloatOps.addf (FloatOps.addf (a (ix2 p q)) (FloatOps.mulf (h (ix2 p q)) (d (ix2 p 0)))) (b (ix2 0 q))) (FloatOps.ofBits .f32 0x00000000#32) := by
  unfold k1_pay1
  simp only [shapeCast_self]
  show FloatOps.maximumf (FloatOps.addf (FloatOps.addf (a (ix2 p q)) (FloatOps.mulf (h (ix2 p q))
      (broadcastTo S2000x128 d broadcasts_S2000x1_S2000x128 (ix2 p q))))
      (broadcastTo S2000x128 b broadcasts_S1x128_S2000x128 (ix2 p q))) _ = _
  rw [broadcastTo_apply d broadcasts_S2000x1_S2000x128 (ix2 p q) (ix2 p 0) (fun a => match a with
        | ⟨0, _⟩ => by show p.val = if (2000 : Nat) = 1 then 0 else p.val; rw [if_neg (by decide)]
        | ⟨1, _⟩ => by show 0 = if (1 : Nat) = 1 then 0 else q.val; rw [if_pos rfl]),
      broadcastTo_apply b broadcasts_S1x128_S2000x128 (ix2 p q) (ix2 0 q) (fun a => match a with
        | ⟨0, _⟩ => by show 0 = if (1 : Nat) = 1 then 0 else p.val; rw [if_pos rfl]
        | ⟨1, _⟩ => by show q.val = if (128 : Nat) = 1 then 0 else q.val; rw [if_neg (by decide)])]
  rfl

/-- The aggregated window's block at point t is rows 2000 t … of its array. -/
theorem agg_read (c : Dev nD) (t : Fin cfg1.N) (p : Fin 2000) (q : Fin 128) (I : S100000x128.Idx)
    (h0 : (I 0).val = t.val * 2000 + p.val) (h1 : (I 1).val = q.val) :
    (iblk1 V c 0 t : Vec Ideal S2000x128 .f32) (ix2 p q) = (V c main_call0_v41 : S100000x128.Idx → EReal) I := by
  unfold iblk1
  rw [View.read_apply]
  show V c main_call0_v41 _ = V c main_call0_v41 I
  refine congrArg _ (funext fun a => Fin.ext ?_)
  match a with
  | ⟨0, _⟩ => show win1_0.index t (0 : Fin 2) * 2000 + 1 * p.val = (I 0).val; rw [h0, (idx t).1]; omega
  | ⟨1, _⟩ => show win1_0.index t (1 : Fin 2) * 128 + 1 * q.val = (I 1).val; rw [h1, (idx t).2.1]; omega
/-- The transformed window's block at point t is rows 2000 t … of its array. -/
theorem h_read (c : Dev nD) (t : Fin cfg1.N) (p : Fin 2000) (q : Fin 128) (I : S100000x128.Idx)
    (h0 : (I 0).val = t.val * 2000 + p.val) (h1 : (I 1).val = q.val) :
    (iblk1 V c 1 t : Vec Ideal S2000x128 .f32) (ix2 p q) = (V c main_call0_v28 : S100000x128.Idx → EReal) I := by
  unfold iblk1
  rw [View.read_apply]
  show V c main_call0_v28 _ = V c main_call0_v28 I
  refine congrArg _ (funext fun a => Fin.ext ?_)
  match a with
  | ⟨0, _⟩ => show win1_1.index t (0 : Fin 2) * 2000 + 1 * p.val = (I 0).val; rw [h0, (idx t).2.2.1]; omega
  | ⟨1, _⟩ => show win1_1.index t (1 : Fin 2) * 128 + 1 * q.val = (I 1).val; rw [h1, (idx t).2.2.2.1]; omega
/-- The one-column window's block at point t is rows 2000 t … of the column array. -/
theorem d_read (c : Dev nD) (t : Fin cfg1.N) (p : Fin 2000) (I : S100000x1.Idx)
    (h0 : (I 0).val = t.val * 2000 + p.val) :
    (iblk1 V c 2 t : Vec Ideal S2000x1 .f32) (ix2 p 0) = (V c main_call0_v27 : S100000x1.Idx → EReal) I := by
  unfold iblk1
  rw [View.read_apply]
  show V c main_call0_v27 _ = V c main_call0_v27 I
  refine congrArg _ (funext fun a => Fin.ext ?_)
  match a with
  | ⟨0, _⟩ => show win1_2.index t (0 : Fin 2) * 2000 + 1 * p.val = (I 0).val; rw [h0, (idx t).2.2.2.2.1]; omega
  | ⟨1, _⟩ => show win1_2.index t (1 : Fin 2) * 1 + 1 * 0 = (I 1).val; rw [(idx t).2.2.2.2.2.1]; have h1 : (I 1).val < 1 := (I 1).isLt; omega
/-- The one-row window's block at every point is the row array. -/
theorem b_read (c : Dev nD) (t : Fin cfg1.N) (q : Fin 128) (I : S1x128.Idx) (h1 : (I 1).val = q.val) :
    (iblk1 V c 3 t : Vec Ideal S1x128 .f32) (ix2 0 q) = (V c main_call0_v42 : S1x128.Idx → EReal) I := by
  unfold iblk1
  rw [View.read_apply]
  show V c main_call0_v42 _ = V c main_call0_v42 I
  refine congrArg _ (funext fun a => Fin.ext ?_)
  match a with
  | ⟨0, _⟩ => show win1_3.index t (0 : Fin 2) * 1 + 1 * 0 = (I 0).val; rw [(idx t).2.2.2.2.2.2.1]; have h0 : (I 0).val < 1 := (I 0).isLt; omega
  | ⟨1, _⟩ => show win1_3.index t (1 : Fin 2) * 128 + 1 * q.val = (I 1).val; rw [h1, (idx t).2.2.2.2.2.2.2.1]; omega

/-- What point t's body leaves at entry j of the tile is the whole-array expression where the tile's rectangle puts j. -/
theorem point (c : Dev nD) (t : Fin cfg1.N) (j : S2000x128.Idx) :
    k1_pay1 (iblk1 V c 0 t) (iblk1 V c 1 t) (iblk1 V c 2 t) (iblk1 V c 3 t) j
      = close (V c main_call0_v41) (V c main_call0_v28) (V c main_call0_v27) (V c main_call0_v42) (((cfg1.win 4).blk t).view.emb j) := by
  obtain ⟨p, q, rfl⟩ : ∃ (p : Fin 2000) (q : Fin 128), j = ix2 p q := ⟨j 0, j 1, eq_ix2 j⟩
  have hr : t.val * 2000 + p.val < 100000 := by have := t.isLt; have hN : cfg1.N = 50 := N_1; have := p.isLt; omega
  have he : ((cfg1.win 4).blk t).view.emb (ix2 p q) = ix2 (⟨t.val * 2000 + p.val, hr⟩ : Fin 100000) q := by
    funext a; apply Fin.ext
    match a with
    | ⟨0, _⟩ => show win1_4.index t (0 : Fin 2) * 2000 + 1 * p.val = t.val * 2000 + p.val; rw [(idx t).2.2.2.2.2.2.2.2.1]; omega
    | ⟨1, _⟩ => show win1_4.index t (1 : Fin 2) * 128 + 1 * q.val = q.val; rw [(idx t).2.2.2.2.2.2.2.2.2]; omega
  rw [he, close_at, pay_at,
    agg_read V c t p q (ix2 (⟨t.val * 2000 + p.val, hr⟩ : Fin 100000) q) rfl rfl,
    h_read V c t p q (ix2 (⟨t.val * 2000 + p.val, hr⟩ : Fin 100000) q) rfl rfl,
    d_read V c t p (ix2 (⟨t.val * 2000 + p.val, hr⟩ : Fin 100000) 0) rfl,
    b_read V c t q (ix2 0 q) rfl]

/-- What point t writes back is block t of the whole-array expression. -/
theorem flushed (c : Dev nD) (t : Fin cfg1.N) :
    (dat1 V c).flushed 4 t = ((cfg1.win 4).blk t).view.read (Elt Ideal)
      (close (V c main_call0_v41) (V c main_call0_v28) (V c main_call0_v27) (V c main_call0_v42)) := by
  show (cfg1.win 4).cut (grid1.coords t) ((dat1 V c).after 4 t) = _
  rw [after1_4]
  unfold out1_4
  rw [View.canon_unit_zero hz]
  simp only [View.ld_unit_zero (S := S2000x128) hz, View.ld_unit_zero (S := S2000x1) hz, View.ld_unit_zero (S := S1x128) hz]
  funext j
  rw [View.read_apply]
  exact point V c t j

/-- An index of the output array is in point t's block iff its row is in rows 2000 t … 2000 t + 1999. -/
theorem mem_blk (t : Fin cfg1.N) (i : S100000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_call0_v43).slice (win1_4.rect t)).set ↔ _
  rw [View.set_slice_whole, Rect.mem_set_unit]
  exact Iff.rfl

/-- Every index of the output array is in the block of its row's tile. -/
theorem cover (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 50 := N_1
  refine ⟨⟨(i 0).val / 2000, by rw [hN]; omega⟩, flush1_4 _, ?_⟩
  rw [mem_blk]
  intro a
  match a with
  | ⟨0, _⟩ => show win1_4.index _ (0 : Fin 2) * 2000 ≤ (i 0).val ∧ (i 0).val < win1_4.index _ (0 : Fin 2) * 2000 + 2000; rw [(idx _).2.2.2.2.2.2.2.2.1]; show (i 0).val / 2000 * 2000 ≤ (i 0).val ∧ (i 0).val < (i 0).val / 2000 * 2000 + 2000; omega
  | ⟨1, _⟩ => show win1_4.index _ (1 : Fin 2) * 128 ≤ (i 1).val ∧ (i 1).val < win1_4.index _ (1 : Fin 2) * 128 + 128; rw [(idx _).2.2.2.2.2.2.2.2.2]; omega

/-- After the launch the output array is the closing step of the four arrays as the launch found them. -/
theorem arr (c : Dev nD) : (dat1 V c).arrAt 4 cfg1.N
    = close (V c main_call0_v41) (V c main_call0_v28) (V c main_call0_v27) (V c main_call0_v42) :=
  (dat1 V c).arrAt_eq_of_cover 4 _ (fun t _ => flushed V c t) cover

end Cert.KernelIdeal.Hand.Epi1

end
-- ==== Proof.Epi3.lean ====
/-
  A layer's closing step with the maximum with zero, row tile by row tile (128 columns).

  Point t loads rows 2000 t … 2000 t + 1999 of the aggregated array, of the transformed array and of the one-column array
  of self-loop weights, and the one-row bias array whole; it stores, at entry (p, q) of the tile,
  max (agg (p, q) + h (p, q) · d (p, 0) + b (0, q), 0), and writes the tile back as the same rows of the output array.
  That is entry (2000 t + p, q) of the whole-array expression: the column array broadcast along each row, the row array
  broadcast down the rows, a product, two sums and the maximum with zero, all entry by entry.  The fifty tiles cover the
  output array, so after the launch the output array is that expression of the four arrays as the launch found them.
-/
import proofs.«113976_j46772193853800_2_alg».proof.Proof.Gen.KernelIdeal.Frame
import proofs.«113976_j46772193853800_2_alg».proof.Proof.Gen.ReferenceIdeal
import Idealize.ShloMosaic.Lib.Pipeline.Value
import Idealize.ShloMosaic.Lib.ValueIdx

set_option maxRecDepth 16384

noncomputable section

namespace Cert.KernelIdeal.Hand.Epi3

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The closing step on whole arrays: aggregated + transformed · (self-loop weight, one per row) + bias (one per column),
    then the maximum with zero, entry by entry. -/
def close (agg h : FVec Ideal S100000x128 .f32) (d : FVec Ideal S100000x1 .f32) (b : FVec Ideal S1x128 .f32) :
    FVec Ideal S100000x128 .f32 :=
  maximumf (addf (addf agg (mulf h (broadcastInDim S100000x128 ![0, 1] Cert.ReferenceIdeal.Gen.bcast_S100000x1_S100000x128_0_1 d)))
    (broadcastInDim S100000x128 ![0, 1] Cert.ReferenceIdeal.Gen.bcast_S1x128_S100000x128_0_1 b))
    (broadcastInDim S100000x128 ![] Cert.ReferenceIdeal.Gen.bcast_S_S100000x128 (constant (F := Ideal) S_ .f32 0x00000000#32))

/-- The whole-array expression at entry (r, q). -/
theorem close_at (agg h : FVec Ideal S100000x128 .f32) (d : FVec Ideal S100000x1 .f32) (b : FVec Ideal S1x128 .f32)
    (r : Fin 100000) (q : Fin 128) :
    close agg h d b (ix2 r q) = FloatOps.maximumf (FloatOps.addf (FloatOps.addf (agg (ix2 r q)) (FloatOps.mulf (h (ix2 r q)) (d (ix2 r 0)))) (b (ix2 0 q))) (FloatOps.ofBits .f32 0x00000000#32) := by
  unfold close
  show FloatOps.maximumf (FloatOps.addf (FloatOps.addf (agg (ix2 r q)) (FloatOps.mulf (h (ix2 r q))
      (broadcastInDim S100000x128 ![0, 1] Cert.ReferenceIdeal.Gen.bcast_S100000x1_S100000x128_0_1 d (ix2 r q))))
      (broadcastInDim S100000x128 ![0, 1] Cert.ReferenceIdeal.Gen.bcast_S1x128_S100000x128_0_1 b (ix2 r q)))
      (broadcastInDim S100000x128 ![] Cert.ReferenceIdeal.Gen.bcast_S_S100000x128 (constant (F := Ideal) S_ .f32 0x00000000#32) (ix2 r q)) = _
  rw [broadcastInDim_apply _ Cert.ReferenceIdeal.Gen.bcast_S100000x1_S100000x128_0_1 d (ix2 r q) (ix2 r 0) (fun a => match a with
        | ⟨0, _⟩ => by show r.val = if (100000 : Nat) = 1 then 0 else r.val; rw [if_neg (by decide)]
        | ⟨1, _⟩ => by show 0 = if (1 : Nat) = 1 then 0 else q.val; rw [if_pos rfl]),
      broadcastInDim_apply _ Cert.ReferenceIdeal.Gen.bcast_S1x128_S100000x128_0_1 b (ix2 r q) (ix2 0 q) (fun a => match a with
        | ⟨0, _⟩ => by show 0 = if (1 : Nat) = 1 then 0 else r.val; rw [if_pos rfl]
        | ⟨1, _⟩ => by show q.val = if (128 : Nat) = 1 then 0 else q.val; rw [if_neg (by decide)]),
      broadcastInDim_apply _ Cert.ReferenceIdeal.Gen.bcast_S_S100000x128 (constant (F := Ideal) S_ .f32 0x00000000#32) (ix2 r q) (fun a => a.elim0) (fun a => a.elim0)]
  rfl

/-- Where each window's block sits at grid point t. -/
theorem idx : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The body's stored value at entry (p, q) of the tile. -/
theorem pay_at (a h : FVec Ideal S2000x128 .f32) (d : FVec Ideal S2000x1 .f32) (b : FVec Ideal S1x128 .f32) (p : Fin 2000) (q : Fin 128) :
    k3_pay1 a h d b (ix2 p q) = FloatOps.maximumf (FloatOps.addf (FloatOps.addf (a (ix2 p q)) (FloatOps.mulf (h (ix2 p q)) (d (ix2 p 0)))) (b (ix2 0 q))) (FloatOps.ofBits .f32 0x00000000#32) := by
  unfold k3_pay1
  simp only [shapeCast_self]
  show FloatOps.maximumf (FloatOps.addf (FloatOps.addf (a (ix2 p q)) (FloatOps.mulf (h (ix2 p q))
      (broadcastTo S2000x128 d broadcasts_S2000x1_S2000x128 (ix2 p q))))
      (broadcastTo S2000x128 b broadcasts_S1x128_S2000x128 (ix2 p q))) _ = _
  rw [broadcastTo_apply d broadcasts_S2000x1_S2000x128 (ix2 p q) (ix2 p 0) (fun a => match a with
        | ⟨0, _⟩ => by show p.val = if (2000 : Nat) = 1 then 0 else p.val; rw [if_neg (by decide)]
        | ⟨1, _⟩ => by show 0 = if (1 : Nat) = 1 then 0 else q.val; rw [if_pos rfl]),
      broadcastTo_apply b broadcasts_S1x128_S2000x128 (ix2 p q) (ix2 0 q) (fun a => match a with
        | ⟨0, _⟩ => by show 0 = if (1 : Nat) = 1 then 0 else p.val; rw [if_pos rfl]
        | ⟨1, _⟩ => by show q.val = if (128 : Nat) = 1 then 0 else q.val; rw [if_neg (by decide)])]
  rfl

/-- The aggregated window's block at point t is rows 2000 t … of its array. -/
theorem agg_read (c : Dev nD) (t : Fin cfg3.N) (p : Fin 2000) (q : Fin 128) (I : S100000x128.Idx)
    (h0 : (I 0).val = t.val * 2000 + p.val) (h1 : (I 1).val = q.val) :
    (iblk3 V c 0 t : Vec Ideal S2000x128 .f32) (ix2 p q) = (V c main_call0_v57 : S100000x128.Idx → EReal) I := by
  unfold iblk3
  rw [View.read_apply]
  show V c main_call0_v57 _ = V c main_call0_v57 I
  refine congrArg _ (funext fun a => Fin.ext ?_)
  match a with
  | ⟨0, _⟩ => show win3_0.index t (0 : Fin 2) * 2000 + 1 * p.val = (I 0).val; rw [h0, (idx t).1]; omega
  | ⟨1, _⟩ => show win3_0.index t (1 : Fin 2) * 128 + 1 * q.val = (I 1).val; rw [h1, (idx t).2.1]; omega
/-- The transformed window's block at point t is rows 2000 t … of its array. -/
theorem h_read (c : Dev nD) (t : Fin cfg3.N) (p : Fin 2000) (q : Fin 128) (I : S100000x128.Idx)
    (h0 : (I 0).val = t.val * 2000 + p.val) (h1 : (I 1).val = q.val) :
    (iblk3 V c 1 t : Vec Ideal S2000x128 .f32) (ix2 p q) = (V c main_call0_v44 : S100000x128.Idx → EReal) I := by
  unfold iblk3
  rw [View.read_apply]
  show V c main_call0_v44 _ = V c main_call0_v44 I
  refine congrArg _ (funext fun a => Fin.ext ?_)
  match a with
  | ⟨0, _⟩ => show win3_1.index t (0 : Fin 2) * 2000 + 1 * p.val = (I 0).val; rw [h0, (idx t).2.2.1]; omega
  | ⟨1, _⟩ => show win3_1.index t (1 : Fin 2) * 128 + 1 * q.val = (I 1).val; rw [h1, (idx t).2.2.2.1]; omega
/-- The one-column window's block at point t is rows 2000 t … of the column array. -/
theorem d_read (c : Dev nD) (t : Fin cfg3.N) (p : Fin 2000) (I : S100000x1.Idx)
    (h0 : (I 0).val = t.val * 2000 + p.val) :
    (iblk3 V c 2 t : Vec Ideal S2000x1 .f32) (ix2 p 0) = (V c main_call0_v27 : S100000x1.Idx → EReal) I := by
  unfold iblk3
  rw [View.read_apply]
  show V c main_call0_v27 _ = V c main_call0_v27 I
  refine congrArg _ (funext fun a => Fin.ext ?_)
  match a with
  | ⟨0, _⟩ => show win3_2.index t (0 : Fin 2) * 2000 + 1 * p.val = (I 0).val; rw [h0, (idx t).2.2.2.2.1]; omega
  | ⟨1, _⟩ => show win3_2.index t (1 : Fin 2) * 1 + 1 * 0 = (I 1).val; rw [(idx t).2.2.2.2.2.1]; have h1 : (I 1).val < 1 := (I 1).isLt; omega
/-- The one-row window's block at every point is the row array. -/
theorem b_read (c : Dev nD) (t : Fin cfg3.N) (q : Fin 128) (I : S1x128.Idx) (h1 : (I 1).val = q.val) :
    (iblk3 V c 3 t : Vec Ideal S1x128 .f32) (ix2 0 q) = (V c main_call0_v58 : S1x128.Idx → EReal) I := by
  unfold iblk3
  rw [View.read_apply]
  show V c main_call0_v58 _ = V c main_call0_v58 I
  refine congrArg _ (funext fun a => Fin.ext ?_)
  match a with
  | ⟨0, _⟩ => show win3_3.index t (0 : Fin 2) * 1 + 1 * 0 = (I 0).val; rw [(idx t).2.2.2.2.2.2.1]; have h0 : (I 0).val < 1 := (I 0).isLt; omega
  | ⟨1, _⟩ => show win3_3.index t (1 : Fin 2) * 128 + 1 * q.val = (I 1).val; rw [h1, (idx t).2.2.2.2.2.2.2.1]; omega

/-- What point t's body leaves at entry j of the tile is the whole-array expression where the tile's rectangle puts j. -/
theorem point (c : Dev nD) (t : Fin cfg3.N) (j : S2000x128.Idx) :
    k3_pay1 (iblk3 V c 0 t) (iblk3 V c 1 t) (iblk3 V c 2 t) (iblk3 V c 3 t) j
      = close (V c main_call0_v57) (V c main_call0_v44) (V c main_call0_v27) (V c main_call0_v58) (((cfg3.win 4).blk t).view.emb j) := by
  obtain ⟨p, q, rfl⟩ : ∃ (p : Fin 2000) (q : Fin 128), j = ix2 p q := ⟨j 0, j 1, eq_ix2 j⟩
  have hr : t.val * 2000 + p.val < 100000 := by have := t.isLt; have hN : cfg3.N = 50 := N_3; have := p.isLt; omega
  have he : ((cfg3.win 4).blk t).view.emb (ix2 p q) = ix2 (⟨t.val * 2000 + p.val, hr⟩ : Fin 100000) q := by
    funext a; apply Fin.ext
    match a with
    | ⟨0, _⟩ => show win3_4.index t (0 : Fin 2) * 2000 + 1 * p.val = t.val * 2000 + p.val; rw [(idx t).2.2.2.2.2.2.2.2.1]; omega
    | ⟨1, _⟩ => show win3_4.index t (1 : Fin 2) * 128 + 1 * q.val = q.val; rw [(idx t).2.2.2.2.2.2.2.2.2]; omega
  rw [he, close_at, pay_at,
    agg_read V c t p q (ix2 (⟨t.val * 2000 + p.val, hr⟩ : Fin 100000) q) rfl rfl,
    h_read V c t p q (ix2 (⟨t.val * 2000 + p.val, hr⟩ : Fin 100000) q) rfl rfl,
    d_read V c t p (ix2 (⟨t.val * 2000 + p.val, hr⟩ : Fin 100000) 0) rfl,
    b_read V c t q (ix2 0 q) rfl]

/-- What point t writes back is block t of the whole-array expression. -/
theorem flushed (c : Dev nD) (t : Fin cfg3.N) :
    (dat3 V c).flushed 4 t = ((cfg3.win 4).blk t).view.read (Elt Ideal)
      (close (V c main_call0_v57) (V c main_call0_v44) (V c main_call0_v27) (V c main_call0_v58)) := by
  show (cfg3.win 4).cut (grid3.coords t) ((dat3 V c).after 4 t) = _
  rw [after3_4]
  unfold out3_4
  rw [View.canon_unit_zero hz]
  simp only [View.ld_unit_zero (S := S2000x128) hz, View.ld_unit_zero (S := S2000x1) hz, View.ld_unit_zero (S := S1x128) hz]
  funext j
  rw [View.read_apply]
  exact point V c t j

/-- An index of the output array is in point t's block iff its row is in rows 2000 t … 2000 t + 1999. -/
theorem mem_blk (t : Fin cfg3.N) (i : S100000x128.Idx) :
    i ∈ ((cfg3.win 4).blk t).view.set ↔ ∀ a : Fin 2, win3_4.index t a * S2000x128.size a ≤ (i a).val ∧ (i a).val < win3_4.index t a * S2000x128.size a + S2000x128.size a := by
  show i ∈ ((View.whole main_call0_v59).slice (win3_4.rect t)).set ↔ _
  rw [View.set_slice_whole, Rect.mem_set_unit]
  exact Iff.rfl

/-- Every index of the output array is in the block of its row's tile. -/
theorem cover (i : S100000x128.Idx) : ∃ t : Fin cfg3.N, (cfg3.win 4).flush t = true ∧ i ∈ ((cfg3.win 4).blk t).view.set := by
  have hi0 : (i 0).val < 100000 := (i 0).isLt
  have hi1 : (i 1).val < 128 := (i 1).isLt
  have hN : cfg3.N = 50 := N_3
  refine ⟨⟨(i 0).val / 2000, by rw [hN]; omega⟩, flush3_4 _, ?_⟩
  rw [mem_blk]
  intro a
  match a with
  | ⟨0, _⟩ => show win3_4.index _ (0 : Fin 2) * 2000 ≤ (i 0).val ∧ (i 0).val < win3_4.index _ (0 : Fin 2) * 2000 + 2000; rw [(idx _).2.2.2.2.2.2.2.2.1]; show (i 0).val / 2000 * 2000 ≤ (i 0).val ∧ (i 0).val < (i 0).val / 2000 * 2000 + 2000; omega
  | ⟨1, _⟩ => show win3_4.index _ (1 : Fin 2) * 128 ≤ (i 1).val ∧ (i 1).val < win3_4.index _ (1 : Fin 2) * 128 + 128; rw [(idx _).2.2.2.2.2.2.2.2.2]; omega

/-- After the launch the output array is the closing step of the four arrays as the launch found them. -/
theorem arr (c : Dev nD) : (dat3 V c).arrAt 4 cfg3.N
    = close (V c main_call0_v57) (V c main_call0_v44) (V c main_call0_v27) (V c main_call0_v58) :=
  (dat3 V c).arrAt_eq_of_cover 4 _ (fun t _ => flushed V c t) cover

end Cert.KernelIdeal.Hand.Epi3

end
-- ==== Proof.Epi5.lean ====
/-
  The last layer's closing step (no maximum), row tile by row tile (64 columns).

  Point t loads rows 2000 t … 2000 t + 1999 of the aggregated array, of the transformed array and of the one-column array
  of self-loop weights, and the one-row bias array whole; it stores, at entry (p, q) of the tile,
  agg (p, q) + h (p, q) · d (p, 0) + b (0, q), and writes the tile back as the same rows of the output array.
  That is entry (2000 t + p, q) of the whole-array expression: the column array broadcast along each row, the row array
  broadcast down the rows, a product and two sums, entry by entry.  The fifty tiles cover the output array, so after the
  launch the output array is that expression of the four arrays as the launch found them.
-/
import proofs.«113976_j46772193853800_2_alg».proof.Proof.Gen.KernelIdeal.Frame
import proofs.«113976_j46772193853800_2_alg».proof.Proof.Gen.ReferenceIdeal
import Idealize.ShloMosaic.Lib.Pipeline.Value
import Idealize.ShloMosaic.Lib.ValueIdx

set_option maxRecDepth 16384

noncomputable section

namespace Cert.KernelIdeal.Hand.Epi5

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The closing step on whole arrays: aggregated + transformed · (self-loop weight, one per row) + bias (one per column), entry by entry. -/
def close (agg h : FVec Ideal S100000x64 .f32) (d : FVec Ideal S100000x1 .f32) (b : FVec Ideal S1x64 .f32) :
    FVec Ideal S100000x64 .f32 :=
  addf (addf agg (mulf h (broadcastInDim S100000x64 ![0, 1] Cert.ReferenceIdeal.Gen.bcast_S100000x1_S100000x64_0_1 d)))
    (broadcastInDim S100000x64 ![0, 1] Cert.ReferenceIdeal.Gen.bcast_S1x64_S100000x64_0_1 b)

/-- The whole-array expression at entry (r, q). -/
theorem close_at (agg h : FVec Ideal S100000x64 .f32) (d : FVec Ideal S100000x1 .f32) (b : FVec Ideal S1x64 .f32)
    (r : Fin 100000) (q : Fin 64) :
    close agg h d b (ix2 r q) = FloatOps.addf (FloatOps.addf (agg (ix2 r q)) (FloatOps.mulf (h (ix2 r q)) (d (ix2 r 0)))) (b (ix2 0 q)) := by
  unfold close
  show FloatOps.addf (FloatOps.addf (agg (ix2 r q)) (FloatOps.mulf (h (ix2 r q))
      (broadcastInDim S100000x64 ![0, 1] Cert.ReferenceIdeal.Gen.bcast_S100000x1_S100000x64_0_1 d (ix2 r q))))
      (broadcastInDim S100000x64 ![0, 1] Cert.ReferenceIdeal.Gen.bcast_S1x64_S100000x64_0_1 b (ix2 r q)) = _
  rw [broadcastInDim_apply _ Cert.ReferenceIdeal.Gen.bcast_S100000x1_S100000x64_0_1 d (ix2 r q) (ix2 r 0) (fun a => match a with
        | ⟨0, _⟩ => by show r.val = if (100000 : Nat) = 1 then 0 else r.val; rw [if_neg (by decide)]
        | ⟨1, _⟩ => by show 0 = if (1 : Nat) = 1 then 0 else q.val; rw [if_pos rfl]),
      broadcastInDim_apply _ Cert.ReferenceIdeal.Gen.bcast_S1x64_S100000x64_0_1 b (ix2 r q) (ix2 0 q) (fun a => match a with
        | ⟨0, _⟩ => by show 0 = if (1 : Nat) = 1 then 0 else r.val; rw [if_pos rfl]
        | ⟨1, _⟩ => by show q.val = if (64 : Nat) = 1 then 0 else q.val; rw [if_neg (by decide)])]

/-- Where each window's block sits at grid point t. -/
theorem idx : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The body's stored value at entry (p, q) of the tile. -/
theorem pay_at (a h : FVec Ideal S2000x64 .f32) (d : FVec Ideal S2000x1 .f32) (b : FVec Ideal S1x64 .f32) (p : Fin 2000) (q : Fin 64) :
    k5_pay1 a h d b (ix2 p q) = FloatOps.addf (FloatOps.addf (a (ix2 p q)) (FloatOps.mulf (h (ix2 p q)) (d (ix2 p 0)))) (b (ix2 0 q)) := by
  unfold k5_pay1
  simp only [shapeCast_self]
  show FloatOps.addf (FloatOps.addf (a (ix2 p q)) (FloatOps.mulf (h (ix2 p q))
      (broadcastTo S2000x64 d broadcasts_S2000x1_S2000x64 (ix2 p q))))
      (broadcastTo S2000x64 b broadcasts_S1x64_S2000x64 (ix2 p q)) = _
  rw [broadcastTo_apply d broadcasts_S2000x1_S2000x64 (ix2 p q) (ix2 p 0) (fun a => match a with
        | ⟨0, _⟩ => by show p.val = if (2000 : Nat) = 1 then 0 else p.val; rw [if_neg (by decide)]
        | ⟨1, _⟩ => by show 0 = if (1 : Nat) = 1 then 0 else q.val; rw [if_pos rfl]),
      broadcastTo_apply b broadcasts_S1x64_S2000x64 (ix2 p q) (ix2 0 q) (fun a => match a with
        | ⟨0, _⟩ => by show 0 = if (1 : Nat) = 1 then 0 else p.val; rw [if_pos rfl]
        | ⟨1, _⟩ => by show q.val = if (64 : Nat) = 1 then 0 else q.val; rw [if_neg (by decide)])]

/-- The aggregated window's block at point t is rows 2000 t … of its array. -/
theorem agg_read (c : Dev nD) (t : Fin cfg5.N) (p : Fin 2000) (q : Fin 64) (I : S100000x64.Idx)
    (h0 : (I 0).val = t.val * 2000 + p.val) (h1 : (I 1).val = q.val) :
    (iblk5 V c 0 t : Vec Ideal S2000x64 .f32) (ix2 p q) = (V c main_call0_v73 : S100000x64.Idx → EReal) I := by
  unfold iblk5
  rw [View.read_apply]
  show V c main_call0_v73 _ = V c main_call0_v73 I
  refine congrArg _ (funext fun a => Fin.ext ?_)
  match a with
  | ⟨0, _⟩ => show win5_0.index t (0 : Fin 2) * 2000 + 1 * p.val = (I 0).val; rw [h0, (idx t).1]; omega
  | ⟨1, _⟩ => show win5_0.index t (1 : Fin 2) * 64 + 1 * q.val = (I 1).val; rw [h1, (idx t).2.1]; omega
/-- The transformed window's block at point t is rows 2000 t … of its array. -/
theorem h_read (c : Dev nD) (t : Fin cfg5.N) (p : Fin 2000) (q : Fin 64) (I : S100000x64.Idx)
    (h0 : (I 0).val = t.val * 2000 + p.val) (h1 : (I 1).val = q.val) :
    (iblk5 V c 1 t : Vec Ideal S2000x64 .f32) (ix2 p q) = (V c main_call0_v60 : S100000x64.Idx → EReal) I := by
  unfold iblk5
  rw [View.read_apply]
  show V c main_call0_v60 _ = V c main_call0_v60 I
  refine congrArg _ (funext fun a => Fin.ext ?_)
  match a with
  | ⟨0, _⟩ => show win5_1.index t (0 : Fin 2) * 2000 + 1 * p.val = (I 0).val; rw [h0, (idx t).2.2.1]; omega
  | ⟨1, _⟩ => show win5_1.index t (1 : Fin 2) * 64 + 1 * q.val = (I 1).val; rw [h1, (idx t).2.2.2.1]; omega
/-- The one-column window's block at point t is rows 2000 t … of the column array. -/
theorem d_read (c : Dev nD) (t : Fin cfg5.N) (p : Fin 2000) (I : S100000x1.Idx)
    (h0 : (I 0).val = t.val * 2000 + p.val) :
    (iblk5 V c 2 t : Vec Ideal S2000x1 .f32) (ix2 p 0) = (V c main_call0_v27 : S100000x1.Idx → EReal) I := by
  unfold iblk5
  rw [View.read_apply]
  show V c main_call0_v27 _ = V c main_call0_v27 I
  refine congrArg _ (funext fun a => Fin.ext ?_)
  match a with
  | ⟨0, _⟩ => show win5_2.index t (0 : Fin 2) * 2000 + 1 * p.val = (I 0).val; rw [h0, (idx t).2.2.2.2.1]; omega
  | ⟨1, _⟩ => show win5_2.index t (1 : Fin 2) * 1 + 1 * 0 = (I 1).val; rw [(idx t).2.2.2.2.2.1]; have h1 : (I 1).val < 1 := (I 1).isLt; omega
/-- The one-row window's block at every point is the row array. -/
theorem b_read (c : Dev nD) (t : Fin cfg5.N) (q : Fin 64) (I : S1x64.Idx) (h1 : (I 1).val = q.val) :
    (iblk5 V c 3 t : Vec Ideal S1x64 .f32) (ix2 0 q) = (V c main_call0_v74 : S1x64.Idx → EReal) I := by
  unfold iblk5
  rw [View.read_apply]
  show V c main_call0_v74 _ = V c main_call0_v74 I
  refine congrArg _ (funext fun a => Fin.ext ?_)
  match a with
  | ⟨0, _⟩ => show win5_3.index t (0 : Fin 2) * 1 + 1 * 0 = (I 0).val; rw [(idx t).2.2.2.2.2.2.1]; have h0 : (I 0).val < 1 := (I 0).isLt; omega
  | ⟨1, _⟩ => show win5_3.index t (1 : Fin 2) * 64 + 1 * q.val = (I 1).val; rw [h1, (idx t).2.2.2.2.2.2.2.1]; omega

/-- What point t's body leaves at entry j of the tile is the whole-array expression where the tile's rectangle puts j. -/
theorem point (c : Dev nD) (t : Fin cfg5.N) (j : S2000x64.Idx) :
    k5_pay1 (iblk5 V c 0 t) (iblk5 V c 1 t) (iblk5 V c 2 t) (iblk5 V c 3 t) j
      = close (V c main_call0_v73) (V c main_call0_v60) (V c main_call0_v27) (V c main_call0_v74) (((cfg5.win 4).blk t).view.emb j) := by
  obtain ⟨p, q, rfl⟩ : ∃ (p : Fin 2000) (q : Fin 64), j = ix2 p q := ⟨j 0, j 1, eq_ix2 j⟩
  have hr : t.val * 2000 + p.val < 100000 := by have := t.isLt; have hN : cfg5.N = 50 := N_5; have := p.isLt; omega
  have he : ((cfg5.win 4).blk t).view.emb (ix2 p q) = ix2 (⟨t.val * 2000 + p.val, hr⟩ : Fin 100000) q := by
    funext a; apply Fin.ext
    match a with
    | ⟨0, _⟩ => show win5_4.index t (0 : Fin 2) * 2000 + 1 * p.val = t.val * 2000 + p.val; rw [(idx t).2.2.2.2.2.2.2.2.1]; omega
    | ⟨1, _⟩ => show win5_4.index t (1 : Fin 2) * 64 + 1 * q.val = q.val; rw [(idx t).2.2.2.2.2.2.2.2.2]; omega
  rw [he, close_at, pay_at,
    agg_read V c t p q (ix2 (⟨t.val * 2000 + p.val, hr⟩ : Fin 100000) q) rfl rfl,
    h_read V c t p q (ix2 (⟨t.val * 2000 + p.val, hr⟩ : Fin 100000) q) rfl rfl,
    d_read V c t p (ix2 (⟨t.val * 2000 + p.val, hr⟩ : Fin 100000) 0) rfl,
    b_read V c t q (ix2 0 q) rfl]

/-- What point t writes back is block t of the whole-array expression. -/
theorem flushed (c : Dev nD) (t : Fin cfg5.N) :
    (dat5 V c).flushed 4 t = ((cfg5.win 4).blk t).view.read (Elt Ideal)
      (close (V c main_call0_v73) (V c main_call0_v60) (V c main_call0_v27) (V c main_call0_v74)) := by
  show (cfg5.win 4).cut (grid5.coords t) ((dat5 V c).after 4 t) = _
  rw [after5_4]
  unfold out5_4
  rw [View.canon_unit_zero hz]
  simp only [View.ld_unit_zero (S := S2000x64) hz, View.ld_unit_zero (S := S2000x1) hz, View.ld_unit_zero (S := S1x64) hz]
  funext j
  rw [View.read_apply]
  exact point V c t j

/-- An index of the output array is in point t's block iff its row is in rows 2000 t … 2000 t + 1999. -/
theorem mem_blk (t : Fin cfg5.N) (i : S100000x64.Idx) :
    i ∈ ((cfg5.win 4).blk t).view.set ↔ ∀ a : Fin 2, win5_4.index t a * S2000x64.size a ≤ (i a).val ∧ (i a).val < win5_4.index t a * S2000x64.size a + S2000x64.size a := by
  show i ∈ ((View.whole main_v0_0).slice (win5_4.rect t)).set ↔ _
  rw [View.set_slice_whole, Rect.mem_set_unit]
  exact Iff.rfl

/-- Every index of the output array is in the block of its row's tile. -/
theorem cover (i : S100000x64.Idx) : ∃ t : Fin cfg5.N, (cfg5.win 4).flush t = true ∧ i ∈ ((cfg5.win 4).blk t).view.set := by
  have hi0 : (i 0).val < 100000 := (i 0).isLt
  have hi1 : (i 1).val < 64 := (i 1).isLt
  have hN : cfg5.N = 50 := N_5
  refine ⟨⟨(i 0).val / 2000, by rw [hN]; omega⟩, flush5_4 _, ?_⟩
  rw [mem_blk]
  intro a
  match a with
  | ⟨0, _⟩ => show win5_4.index _ (0 : Fin 2) * 2000 ≤ (i 0).val ∧ (i 0).val < win5_4.index _ (0 : Fin 2) * 2000 + 2000; rw [(idx _).2.2.2.2.2.2.2.2.1]; show (i 0).val / 2000 * 2000 ≤ (i 0).val ∧ (i 0).val < (i 0).val / 2000 * 2000 + 2000; omega
  | ⟨1, _⟩ => show win5_4.index _ (1 : Fin 2) * 64 ≤ (i 1).val ∧ (i 1).val < win5_4.index _ (1 : Fin 2) * 64 + 64; rw [(idx _).2.2.2.2.2.2.2.2.2]; omega

/-- After the launch the output array is the closing step of the four arrays as the launch found them. -/
theorem arr (c : Dev nD) : (dat5 V c).arrAt 4 cfg5.N
    = close (V c main_call0_v73) (V c main_call0_v60) (V c main_call0_v27) (V c main_call0_v74) :=
  (dat5 V c).arrAt_eq_of_cover 4 _ (fun t _ => flushed V c t) cover

end Cert.KernelIdeal.Hand.Epi5

end
-- ==== Proof.Dec6.lean ====
/-
  The last grid launch: the two-layer decoder, row tile by row tile.

  Point t loads rows 2000 t … 2000 t + 1999 of the embedding array (64 columns) and, whole, the two weight arrays and
  the two one-row bias arrays; in the tile it forms hidden (p, k) = max (Σ_j z (p, j) · W1 (j, k) + b1 (0, k), 0) for the
  128 hidden columns and stores Σ_k hidden (p, k) · W2 (k, q) + b2 (0, q) at entry (p, q), then writes the 2000 × 256 tile
  back as the same rows of the output array.  The hidden values never leave the tile; over the extended reals they are
  the rows 2000 t … of the whole hidden array max (z · W1 + b1, 0), so the stored entry is entry (2000 t + p, q) of the
  whole-array expression max (z · W1 + b1, 0) · W2 + b2 with the two one-row arrays broadcast down the rows.  The fifty
  tiles cover the output array, so after the launch the output array is that expression of the five arrays as the
  launch found them.
-/
import proofs.«113976_j46772193853800_2_alg».proof.Proof.Gen.KernelIdeal.Frame
import proofs.«113976_j46772193853800_2_alg».proof.Proof.Gen.ReferenceIdeal.Read
import proofs.«113976_j46772193853800_2_alg».proof.Proof.LibMatmul
import proofs.«113976_j46772193853800_2_alg».proof.Proof.LibDotGeneral
import Idealize.ShloMosaic.Lib.Pipeline.Value
import Idealize.ShloMosaic.Lib.ValueIdx

set_option maxRecDepth 16384

noncomputable section

namespace Cert.KernelIdeal.Hand.Dec6

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The whole hidden array: max (z · W1 + b1, 0), the one-row bias broadcast down the rows. -/
def hidden (z : FVec Ideal S100000x64 .f32) (w1 : FVec Ideal S64x128 .f32) (b1 : FVec Ideal S1x128 .f32) : FVec Ideal S100000x128 .f32 :=
  maximumf (addf (Host.dotGeneral Cert.ReferenceIdeal.dot_S100000x64_S64x128_S100000x128_1_0_0_1_n_n none z w1) (broadcastInDim S100000x128 ![0, 1] Cert.ReferenceIdeal.Gen.bcast_S1x128_S100000x128_0_1 b1))
    (broadcastInDim S100000x128 ![] Cert.ReferenceIdeal.Gen.bcast_S_S100000x128 (constant (F := Ideal) S_ .f32 0x00000000#32))

/-- The whole decoded array: hidden · W2 + b2, the one-row bias broadcast down the rows. -/
def decoded (z : FVec Ideal S100000x64 .f32) (w1 : FVec Ideal S64x128 .f32) (b1 : FVec Ideal S1x128 .f32)
    (w2 : FVec Ideal S128x256 .f32) (b2 : FVec Ideal S1x256 .f32) : FVec Ideal S100000x256 .f32 :=
  addf (Host.dotGeneral Cert.ReferenceIdeal.dot_S100000x128_S128x256_S100000x256_1_0_0_1_n_n none (hidden z w1 b1) w2) (broadcastInDim S100000x256 ![0, 1] Cert.ReferenceIdeal.Gen.bcast_S1x256_S100000x256_0_1 b2)

/-- The whole hidden array at entry (r, k). -/
theorem hidden_at (z : FVec Ideal S100000x64 .f32) (w1 : FVec Ideal S64x128 .f32) (b1 : FVec Ideal S1x128 .f32) (r : Fin 100000) (k : Fin 128) :
    hidden z w1 b1 (ix2 r k) = FloatOps.maximumf (FloatOps.addf (∑ j : Fin 64, z (ix2 r j) * w1 (ix2 j k)) (b1 (ix2 0 k))) (FloatOps.ofBits .f32 0x00000000#32) := by
  unfold hidden
  show FloatOps.maximumf (FloatOps.addf (Host.dotGeneral Cert.ReferenceIdeal.dot_S100000x64_S64x128_S100000x128_1_0_0_1_n_n none z w1 (ix2 r k))
      (broadcastInDim S100000x128 ![0, 1] Cert.ReferenceIdeal.Gen.bcast_S1x128_S100000x128_0_1 b1 (ix2 r k)))
      (broadcastInDim S100000x128 ![] Cert.ReferenceIdeal.Gen.bcast_S_S100000x128 (constant (F := Ideal) S_ .f32 0x00000000#32) (ix2 r k)) = _
  rw [Cert.LibDotGeneral.dotGeneral_ix2 Cert.ReferenceIdeal.dot_S100000x64_S64x128_S100000x128_1_0_0_1_n_n rfl rfl Cert.ReferenceIdeal.Read.lhs_main_v138_0 Cert.ReferenceIdeal.Read.lhs_main_v138_1 Cert.ReferenceIdeal.Read.rhs_main_v138_0 Cert.ReferenceIdeal.Read.rhs_main_v138_1 none z w1 r k,
      broadcastInDim_apply _ Cert.ReferenceIdeal.Gen.bcast_S1x128_S100000x128_0_1 b1 (ix2 r k) (ix2 0 k) (fun a => match a with
        | ⟨0, _⟩ => by show 0 = if (1 : Nat) = 1 then 0 else r.val; rw [if_pos rfl]
        | ⟨1, _⟩ => by show k.val = if (128 : Nat) = 1 then 0 else k.val; rw [if_neg (by decide)]),
      broadcastInDim_apply _ Cert.ReferenceIdeal.Gen.bcast_S_S100000x128 (constant (F := Ideal) S_ .f32 0x00000000#32) (ix2 r k) (fun a => a.elim0) (fun a => a.elim0)]
  rfl

/-- The whole decoded array at entry (r, q). -/
theorem decoded_at (z : FVec Ideal S100000x64 .f32) (w1 : FVec Ideal S64x128 .f32) (b1 : FVec Ideal S1x128 .f32)
    (w2 : FVec Ideal S128x256 .f32) (b2 : FVec Ideal S1x256 .f32) (r : Fin 100000) (q : Fin 256) :
    decoded z w1 b1 w2 b2 (ix2 r q) = FloatOps.addf (∑ k : Fin 128, hidden z w1 b1 (ix2 r k) * w2 (ix2 k q)) (b2 (ix2 0 q)) := by
  unfold decoded
  show FloatOps.addf (Host.dotGeneral Cert.ReferenceIdeal.dot_S100000x128_S128x256_S100000x256_1_0_0_1_n_n none (hidden z w1 b1) w2 (ix2 r q))
      (broadcastInDim S100000x256 ![0, 1] Cert.ReferenceIdeal.Gen.bcast_S1x256_S100000x256_0_1 b2 (ix2 r q)) = _
  rw [Cert.LibDotGeneral.dotGeneral_ix2 Cert.ReferenceIdeal.dot_S100000x128_S128x256_S100000x256_1_0_0_1_n_n rfl rfl Cert.ReferenceIdeal.Read.lhs_main_v143_0 Cert.ReferenceIdeal.Read.lhs_main_v143_1 Cert.ReferenceIdeal.Read.rhs_main_v143_0 Cert.ReferenceIdeal.Read.rhs_main_v143_1 none (hidden z w1 b1) w2 r q,
      broadcastInDim_apply _ Cert.ReferenceIdeal.Gen.bcast_S1x256_S100000x256_0_1 b2 (ix2 r q) (ix2 0 q) (fun a => match a with
        | ⟨0, _⟩ => by show 0 = if (1 : Nat) = 1 then 0 else r.val; rw [if_pos rfl]
        | ⟨1, _⟩ => by show q.val = if (256 : Nat) = 1 then 0 else q.val; rw [if_neg (by decide)])]

/-- Where each window's block sits at grid point t: the embedding and the output blocks at block row t, the rest whole. -/
theorem idx : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- The two tile products' dimension records read the left operand at (row, contraction) and the right at
    (contraction, column). -/
theorem al0 (i : S2000x128.Idx) (q : dot_S2000x64_S64x128_S2000x128_1_0_0_1_n_n.contr.Idx) : (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
theorem al1 (i : S2000x128.Idx) (q : dot_S2000x64_S64x128_S2000x128_1_0_0_1_n_n.contr.Idx) : (dot_S2000x64_S64x128_S2000x128_1_0_0_1_n_n.lhsIdx i q 1).val = (q ⟨0, by decide⟩).val :=
  dot_S2000x64_S64x128_S2000x128_1_0_0_1_n_n.lhsIdx_val_of_single rfl i q
theorem ar0 (i : S2000x128.Idx) (q : dot_S2000x64_S64x128_S2000x128_1_0_0_1_n_n.contr.Idx) : (dot_S2000x64_S64x128_S2000x128_1_0_0_1_n_n.rhsIdx i q 0).val = (q ⟨0, by decide⟩).val :=
  dot_S2000x64_S64x128_S2000x128_1_0_0_1_n_n.rhsIdx_val_of_single rfl i q
theorem ar1 (i : S2000x128.Idx) (q : dot_S2000x64_S64x128_S2000x128_1_0_0_1_n_n.contr.Idx) : (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl
theorem bl0 (i : S2000x256.Idx) (q : dot_S2000x128_S128x256_S2000x256_1_0_0_1_n_n.contr.Idx) : (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem bl1 (i : S2000x256.Idx) (q : dot_S2000x128_S128x256_S2000x256_1_0_0_1_n_n.contr.Idx) : (dot_S2000x128_S128x256_S2000x256_1_0_0_1_n_n.lhsIdx i q 1).val = (q ⟨0, by decide⟩).val :=
  dot_S2000x128_S128x256_S2000x256_1_0_0_1_n_n.lhsIdx_val_of_single rfl i q
theorem br0 (i : S2000x256.Idx) (q : dot_S2000x128_S128x256_S2000x256_1_0_0_1_n_n.contr.Idx) : (dot_S2000x128_S128x256_S2000x256_1_0_0_1_n_n.rhsIdx i q 0).val = (q ⟨0, by decide⟩).val :=
  dot_S2000x128_S128x256_S2000x256_1_0_0_1_n_n.rhsIdx_val_of_single rfl i q
theorem br1 (i : S2000x256.Idx) (q : dot_S2000x128_S128x256_S2000x256_1_0_0_1_n_n.contr.Idx) : (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- Entry (p, k) of the tile's first product is the sum over the 64 contracted columns. -/
theorem mmA_at (x0 : FVec Ideal S2000x64 .f32) (x1 : FVec Ideal S64x128 .f32) (p : Fin 2000) (k : Fin 128) :
    matmul dot_S2000x64_S64x128_S2000x128_1_0_0_1_n_n (some .fp32) x0 x1 (constant (F := Ideal) S2000x128 .f32 0x00000000#32) (ix2 p k)
      = ∑ j : Fin 64, x0 (ix2 p j) * x1 (ix2 j k) :=
  Cert.LibMatmul.matmul_zero_ix2 dot_S2000x64_S64x128_S2000x128_1_0_0_1_n_n rfl rfl al0 al1 ar0 ar1 (some .fp32) x0 x1 p k
/-- Entry (p, q) of the tile's second product is the sum over the 128 contracted columns. -/
theorem mmB_at (y : FVec Ideal S2000x128 .f32) (x3 : FVec Ideal S128x256 .f32) (p : Fin 2000) (q : Fin 256) :
    matmul dot_S2000x128_S128x256_S2000x256_1_0_0_1_n_n (some .fp32) y x3 (constant (F := Ideal) S2000x256 .f32 0x00000000#32) (ix2 p q)
      = ∑ k : Fin 128, y (ix2 p k) * x3 (ix2 k q) :=
  Cert.LibMatmul.matmul_zero_ix2 dot_S2000x128_S128x256_S2000x256_1_0_0_1_n_n rfl rfl bl0 bl1 br0 br1 (some .fp32) y x3 p q

/-- The tile's hidden values. -/
def hiddenT (x0 : FVec Ideal S2000x64 .f32) (x1 : FVec Ideal S64x128 .f32) (x2 : FVec Ideal S1x128 .f32) : FVec Ideal S2000x128 .f32 :=
  maximumf (addf (matmul dot_S2000x64_S64x128_S2000x128_1_0_0_1_n_n (some .fp32) x0 x1 (constant (F := Ideal) S2000x128 .f32 0x00000000#32)) (broadcastTo S2000x128 x2 broadcasts_S1x128_S2000x128))
    (broadcast S2000x128 (Scalar.ofBits (F := Ideal) .f32 0x00000000#32))

/-- The tile's hidden values at entry (p, k). -/
theorem hiddenT_at (x0 : FVec Ideal S2000x64 .f32) (x1 : FVec Ideal S64x128 .f32) (x2 : FVec Ideal S1x128 .f32) (p : Fin 2000) (k : Fin 128) :
    hiddenT x0 x1 x2 (ix2 p k) = FloatOps.maximumf (FloatOps.addf (∑ j : Fin 64, x0 (ix2 p j) * x1 (ix2 j k)) (x2 (ix2 0 k))) (FloatOps.ofBits .f32 0x00000000#32) := by
  unfold hiddenT
  show FloatOps.maximumf (FloatOps.addf (matmul dot_S2000x64_S64x128_S2000x128_1_0_0_1_n_n (some .fp32) x0 x1 (constant (F := Ideal) S2000x128 .f32 0x00000000#32) (ix2 p k))
      (broadcastTo S2000x128 x2 broadcasts_S1x128_S2000x128 (ix2 p k))) _ = _
  rw [mmA_at x0 x1 p k,
      broadcastTo_apply x2 broadcasts_S1x128_S2000x128 (ix2 p k) (ix2 0 k) (fun a => match a with
        | ⟨0, _⟩ => by show 0 = if (1 : Nat) = 1 then 0 else p.val; rw [if_pos rfl]
        | ⟨1, _⟩ => by show k.val = if (128 : Nat) = 1 then 0 else k.val; rw [if_neg (by decide)])]
  rfl

/-- The body's stored value at entry (p, q) of the tile. -/
theorem pay_at (x0 : FVec Ideal S2000x64 .f32) (x1 : FVec Ideal S64x128 .f32) (x2 : FVec Ideal S1x128 .f32)
    (x3 : FVec Ideal S128x256 .f32) (x4 : FVec Ideal S1x256 .f32) (p : Fin 2000) (q : Fin 256) :
    k6_pay1 x0 x1 x2 x3 x4 (ix2 p q) = FloatOps.addf (∑ k : Fin 128, hiddenT x0 x1 x2 (ix2 p k) * x3 (ix2 k q)) (x4 (ix2 0 q)) := by
  unfold k6_pay1
  simp only [shapeCast_self]
  show FloatOps.addf (matmul dot_S2000x128_S128x256_S2000x256_1_0_0_1_n_n (some .fp32) (hiddenT x0 x1 x2) x3 (constant (F := Ideal) S2000x256 .f32 0x00000000#32) (ix2 p q))
      (broadcastTo S2000x256 x4 broadcasts_S1x256_S2000x256 (ix2 p q)) = _
  rw [mmB_at (hiddenT x0 x1 x2) x3 p q,
      broadcastTo_apply x4 broadcasts_S1x256_S2000x256 (ix2 p q) (ix2 0 q) (fun a => match a with
        | ⟨0, _⟩ => by show 0 = if (1 : Nat) = 1 then 0 else p.val; rw [if_pos rfl]
        | ⟨1, _⟩ => by show q.val = if (256 : Nat) = 1 then 0 else q.val; rw [if_neg (by decide)])]

/-- The embedding window's block at point t is rows 2000 t … of the embedding array. -/
theorem z_read (c : Dev nD) (t : Fin cfg6.N) (p : Fin 2000) (j : Fin 64) (I : S100000x64.Idx)
    (h0 : (I 0).val = t.val * 2000 + p.val) (h1 : (I 1).val = j.val) :
    (iblk6 V c 0 t : Vec Ideal S2000x64 .f32) (ix2 p j) = (V c main_v0_0 : S100000x64.Idx → EReal) I := by
  unfold iblk6
  rw [View.read_apply]
  show V c main_v0_0 _ = V c main_v0_0 I
  refine congrArg _ (funext fun a => Fin.ext ?_)
  match a with
  | ⟨0, _⟩ => show win6_0.index t (0 : Fin 2) * 2000 + 1 * p.val = (I 0).val; rw [h0, (idx t).1]; omega
  | ⟨1, _⟩ => show win6_0.index t (1 : Fin 2) * 64 + 1 * j.val = (I 1).val; rw [h1, (idx t).2.1]; omega
/-- The first weight window's block at every point is the first weight array. -/
theorem w1_read (c : Dev nD) (t : Fin cfg6.N) (k : Fin 64) (q : Fin 128) (I : S64x128.Idx)
    (h0 : (I 0).val = k.val) (h1 : (I 1).val = q.val) :
    (iblk6 V c 1 t : Vec Ideal S64x128 .f32) (ix2 k q) = (V c main_arg8 : S64x128.Idx → EReal) I := by
  unfold iblk6
  rw [View.read_apply]
  show V c main_arg8 _ = V c main_arg8 I
  refine congrArg _ (funext fun a => Fin.ext ?_)
  match a with
  | ⟨0, _⟩ => show win6_1.index t (0 : Fin 2) * 64 + 1 * k.val = (I 0).val; rw [h0, (idx t).2.2.1]; omega
  | ⟨1, _⟩ => show win6_1.index t (1 : Fin 2) * 128 + 1 * q.val = (I 1).val; rw [h1, (idx t).2.2.2.1]; omega
/-- The second weight window's block at every point is the second weight array. -/
theorem w2_read (c : Dev nD) (t : Fin cfg6.N) (k : Fin 128) (q : Fin 256) (I : S128x256.Idx)
    (h0 : (I 0).val = k.val) (h1 : (I 1).val = q.val) :
    (iblk6 V c 3 t : Vec Ideal S128x256 .f32) (ix2 k q) = (V c main_arg10 : S128x256.Idx → EReal) I := by
  unfold iblk6
  rw [View.read_apply]
  show V c main_arg10 _ = V c main_arg10 I
  refine congrArg _ (funext fun a => Fin.ext ?_)
  match a with
  | ⟨0, _⟩ => show win6_3.index t (0 : Fin 2) * 128 + 1 * k.val = (I 0).val; rw [h0, (idx t).2.2.2.2.2.2.1]; omega
  | ⟨1, _⟩ => show win6_3.index t (1 : Fin 2) * 256 + 1 * q.val = (I 1).val; rw [h1, (idx t).2.2.2.2.2.2.2.1]; omega
/-- The first bias window's block at every point is the first one-row bias array. -/
theorem b1_read (c : Dev nD) (t : Fin cfg6.N) (k : Fin 128) (I : S1x128.Idx) (h1 : (I 1).val = k.val) :
    (iblk6 V c 2 t : Vec Ideal S1x128 .f32) (ix2 0 k) = (V c main_call0_v76 : S1x128.Idx → EReal) I := by
  unfold iblk6
  rw [View.read_apply]
  show V c main_call0_v76 _ = V c main_call0_v76 I
  refine congrArg _ (funext fun a => Fin.ext ?_)
  match a with
  | ⟨0, _⟩ => show win6_2.index t (0 : Fin 2) * 1 + 1 * 0 = (I 0).val; rw [(idx t).2.2.2.2.1]; have h0 : (I 0).val < 1 := (I 0).isLt; omega
  | ⟨1, _⟩ => show win6_2.index t (1 : Fin 2) * 128 + 1 * k.val = (I 1).val; rw [h1, (idx t).2.2.2.2.2.1]; omega
/-- The second bias window's block at every point is the second one-row bias array. -/
theorem b2_read (c : Dev nD) (t : Fin cfg6.N) (q : Fin 256) (I : S1x256.Idx) (h1 : (I 1).val = q.val) :
    (iblk6 V c 4 t : Vec Ideal S1x256 .f32) (ix2 0 q) = (V c main_call0_v77 : S1x256.Idx → EReal) I := by
  unfold iblk6
  rw [View.read_apply]
  show V c main_call0_v77 _ = V c main_call0_v77 I
  refine congrArg _ (funext fun a => Fin.ext ?_)
  match a with
  | ⟨0, _⟩ => show win6_4.index t (0 : Fin 2) * 1 + 1 * 0 = (I 0).val; rw [(idx t).2.2.2.2.2.2.2.2.1]; have h0 : (I 0).val < 1 := (I 0).isLt; omega
  | ⟨1, _⟩ => show win6_4.index t (1 : Fin 2) * 256 + 1 * q.val = (I 1).val; rw [h1, (idx t).2.2.2.2.2.2.2.2.2.1]; omega

/-- The tile's hidden values are rows 2000 t … of the whole hidden array. -/
theorem hidden_tile (c : Dev nD) (t : Fin cfg6.N) (p : Fin 2000) (k : Fin 128) (hr : t.val * 2000 + p.val < 100000) :
    hiddenT (iblk6 V c 0 t) (iblk6 V c 1 t) (iblk6 V c 2 t) (ix2 p k)
      = hidden (V c main_v0_0) (V c main_arg8) (V c main_call0_v76) (ix2 (⟨t.val * 2000 + p.val, hr⟩ : Fin 100000) k) := by
  rw [hiddenT_at, hidden_at, b1_read V c t k (ix2 0 k) rfl]
  congr 2
  exact Finset.sum_congr rfl fun j _ => by
    rw [z_read V c t p j (ix2 (⟨t.val * 2000 + p.val, hr⟩ : Fin 100000) j) rfl rfl, w1_read V c t j k (ix2 j k) rfl rfl]

/-- What point t's body leaves at entry j of the tile is the whole decoded array where the tile's rectangle puts j. -/
theorem point (c : Dev nD) (t : Fin cfg6.N) (j : S2000x256.Idx) :
    k6_pay1 (iblk6 V c 0 t) (iblk6 V c 1 t) (iblk6 V c 2 t) (iblk6 V c 3 t) (iblk6 V c 4 t) j
      = decoded (V c main_v0_0) (V c main_arg8) (V c main_call0_v76) (V c main_arg10) (V c main_call0_v77) (((cfg6.win 5).blk t).view.emb j) := by
  obtain ⟨p, q, rfl⟩ : ∃ (p : Fin 2000) (q : Fin 256), j = ix2 p q := ⟨j 0, j 1, eq_ix2 j⟩
  have hr : t.val * 2000 + p.val < 100000 := by have := t.isLt; have hN : cfg6.N = 50 := N_6; have := p.isLt; omega
  have he : ((cfg6.win 5).blk t).view.emb (ix2 p q) = ix2 (⟨t.val * 2000 + p.val, hr⟩ : Fin 100000) q := by
    funext a; apply Fin.ext
    match a with
    | ⟨0, _⟩ => show win6_5.index t (0 : Fin 2) * 2000 + 1 * p.val = t.val * 2000 + p.val; rw [(idx t).2.2.2.2.2.2.2.2.2.2.1]; omega
    | ⟨1, _⟩ => show win6_5.index t (1 : Fin 2) * 256 + 1 * q.val = q.val; rw [(idx t).2.2.2.2.2.2.2.2.2.2.2]; omega
  rw [he, decoded_at, pay_at, b2_read V c t q (ix2 0 q) rfl]
  refine congrArg (fun s : Ideal .f32 => FloatOps.addf (F := Ideal) s ((V c main_call0_v77 : S1x256.Idx → EReal) (ix2 0 q))) ?_
  exact Finset.sum_congr rfl fun k _ => by
    rw [hidden_tile V c t p k hr, w2_read V c t k q (ix2 k q) rfl rfl]

/-- What point t writes back is block t of the whole decoded array. -/
theorem flushed (c : Dev nD) (t : Fin cfg6.N) :
    (dat6 V c).flushed 5 t = ((cfg6.win 5).blk t).view.read (Elt Ideal)
      (decoded (V c main_v0_0) (V c main_arg8) (V c main_call0_v76) (V c main_arg10) (V c main_call0_v77)) := by
  show (cfg6.win 5).cut (grid6.coords t) ((dat6 V c).after 5 t) = _
  rw [after6_5]
  unfold out6_5
  rw [View.canon_unit_zero hz]
  simp only [View.ld_unit_zero (S := S2000x64) hz, View.ld_unit_zero (S := S64x128) hz, View.ld_unit_zero (S := S1x128) hz,
    View.ld_unit_zero (S := S128x256) hz, View.ld_unit_zero (S := S1x256) hz]
  funext j
  rw [View.read_apply]
  exact point V c t j

/-- An index of the output array is in point t's block iff its row is in rows 2000 t … 2000 t + 1999. -/
theorem mem_blk (t : Fin cfg6.N) (i : S100000x256.Idx) :
    i ∈ ((cfg6.win 5).blk t).view.set ↔ ∀ a : Fin 2, win6_5.index t a * S2000x256.size a ≤ (i a).val ∧ (i a).val < win6_5.index t a * S2000x256.size a + S2000x256.size a := by
  show i ∈ ((View.whole main_v0_1).slice (win6_5.rect t)).set ↔ _
  rw [View.set_slice_whole, Rect.mem_set_unit]
  exact Iff.rfl

/-- Every index of the output array is in the block of its row's tile. -/
theorem cover (i : S100000x256.Idx) : ∃ t : Fin cfg6.N, (cfg6.win 5).flush t = true ∧ i ∈ ((cfg6.win 5).blk t).view.set := by
  have hi0 : (i 0).val < 100000 := (i 0).isLt
  have hi1 : (i 1).val < 256 := (i 1).isLt
  have hN : cfg6.N = 50 := N_6
  refine ⟨⟨(i 0).val / 2000, by rw [hN]; omega⟩, flush6_5 _, ?_⟩
  rw [mem_blk]
  intro a
  match a with
  | ⟨0, _⟩ => show win6_5.index _ (0 : Fin 2) * 2000 ≤ (i 0).val ∧ (i 0).val < win6_5.index _ (0 : Fin 2) * 2000 + 2000; rw [(idx _).2.2.2.2.2.2.2.2.2.2.1]; show (i 0).val / 2000 * 2000 ≤ (i 0).val ∧ (i 0).val < (i 0).val / 2000 * 2000 + 2000; omega
  | ⟨1, _⟩ => show win6_5.index _ (1 : Fin 2) * 256 ≤ (i 1).val ∧ (i 1).val < win6_5.index _ (1 : Fin 2) * 256 + 256; rw [(idx _).2.2.2.2.2.2.2.2.2.2.2]; omega

/-- After the launch the output array is the whole decoded array of the five arrays as the launch found them. -/
theorem arr (c : Dev nD) : (dat6 V c).arrAt 5 cfg6.N
    = decoded (V c main_v0_0) (V c main_arg8) (V c main_call0_v76) (V c main_arg10) (V c main_call0_v77) :=
  (dat6 V c).arrAt_eq_of_cover 5 _ (fun t _ => flushed V c t) cover

end Cert.KernelIdeal.Hand.Dec6

end
-- ==== Proof.Bridge.lean ====
/-
  The whole-array expressions the launches and the host stretches leave are the plain program's stages.

  The plain program computes, layer by layer, the transformed array (a product), the weighted sum over incoming edges,
  the closing step (self-loop term, bias, and in the first two layers the maximum with zero), and at the end the
  two-layer decoder; it recomputes the edge weights and the self-loop weights in every layer by the same operations
  of the edge array, so they are the same arrays each time.  The tiled program's pieces are the same expressions
  written once: each equation below holds by unfolding both sides to the same operations of the same arrays.  The one
  difference in spelling is a bias made into a one-row array: reshaped on one side, broadcast along a new leading
  axis on the other; both read the bias at the column.
-/
import proofs.«113976_j46772193853800_2_alg».proof.Proof.Gen.ReferenceIdeal.Read
import proofs.«113976_j46772193853800_2_alg».proof.Proof.Spec
import proofs.«113976_j46772193853800_2_alg».proof.Proof.Mm0
import proofs.«113976_j46772193853800_2_alg».proof.Proof.Mm2
import proofs.«113976_j46772193853800_2_alg».proof.Proof.Mm4
import proofs.«113976_j46772193853800_2_alg».proof.Proof.Epi1
import proofs.«113976_j46772193853800_2_alg».proof.Proof.Epi3
import proofs.«113976_j46772193853800_2_alg».proof.Proof.Epi5
import proofs.«113976_j46772193853800_2_alg».proof.Proof.Dec6

set_option maxRecDepth 16384

noncomputable section

namespace Cert.KernelIdeal.Hand.Bridge

open Cert.KernelIdeal Cert.KernelIdeal.Gen
open Idealize.ShloMosaic Idealize.ShloMosaic.ValueIdx

variable (X : FVec Ideal S100000x256 .f32) (E : Spec.IVec S2x600000)
  (W1 : FVec Ideal S256x128 .f32) (b1 : FVec Ideal S128 .f32) (W2 : FVec Ideal S128x128 .f32) (b2 : FVec Ideal S128 .f32)
  (W3 : FVec Ideal S128x64 .f32) (b3 : FVec Ideal S64 .f32) (Wd1 : FVec Ideal S64x128 .f32) (bd1 : FVec Ideal S128 .f32)
  (Wd2 : FVec Ideal S128x256 .f32) (bd2 : FVec Ideal S256 .f32)

/-- A vector reshaped into a one-row array is the vector broadcast along a new leading axis (128 columns). -/
theorem row128 (b : FVec Ideal S128 .f32) : shapeCast S1x128 b shapeCasts_S128_S1x128 = Cert.ReferenceIdeal.Read.val_main_v45 (F := Ideal) b := by
  funext i
  rw [Cert.ReferenceIdeal.Read.val_main_v45_apply]
  exact shapeCast_apply b shapeCasts_S128_S1x128 i (Cert.ReferenceIdeal.Read.idx_main_v45 i)
    (by rewrite [Shape.rowMajor_val_two, Shape.rowMajor_val_one]; have h0 : (i 0).val < 1 := (i 0).isLt; have h1 : (i 1).val < 128 := (i 1).isLt; show (i 1).val = (i 0).val * 128 + (i 1).val; omega)
/-- The same, 64 columns. -/
theorem row64 (b : FVec Ideal S64 .f32) : shapeCast S1x64 b shapeCasts_S64_S1x64 = Cert.ReferenceIdeal.Read.val_main_v135 (F := Ideal) b := by
  funext i
  rw [Cert.ReferenceIdeal.Read.val_main_v135_apply]
  exact shapeCast_apply b shapeCasts_S64_S1x64 i (Cert.ReferenceIdeal.Read.idx_main_v135 i)
    (by rewrite [Shape.rowMajor_val_two, Shape.rowMajor_val_one]; have h0 : (i 0).val < 1 := (i 0).isLt; have h1 : (i 1).val < 64 := (i 1).isLt; show (i 1).val = (i 0).val * 64 + (i 1).val; omega)
/-- The same, 256 columns. -/
theorem row256 (b : FVec Ideal S256 .f32) : shapeCast S1x256 b shapeCasts_S256_S1x256 = Cert.ReferenceIdeal.Read.val_main_v144 (F := Ideal) b := by
  funext i
  rw [Cert.ReferenceIdeal.Read.val_main_v144_apply]
  exact shapeCast_apply b shapeCasts_S256_S1x256 i (Cert.ReferenceIdeal.Read.idx_main_v144 i)
    (by rewrite [Shape.rowMajor_val_two, Shape.rowMajor_val_one]; have h0 : (i 0).val < 1 := (i 0).isLt; have h1 : (i 1).val < 256 := (i 1).isLt; show (i 1).val = (i 0).val * 256 + (i 1).val; omega)

/-- Layer 1: the transformed array. -/
theorem h1 : Mm0.prod X W1 = Cert.ReferenceIdeal.Read.val_main_v4 (F := Ideal) X W1 := rfl
/-- Layer 1: the weighted sum over incoming edges. -/
theorem agg1 : Spec.agg128 (Cert.ReferenceIdeal.Read.val_main_v4 (F := Ideal) X W1) (Cert.ReferenceIdeal.Read.val_main_v1 (F := Ideal) E) (Cert.ReferenceIdeal.Read.val_main_v3 (F := Ideal) E) (Cert.ReferenceIdeal.Read.val_main_v26 (F := Ideal) E) = Cert.ReferenceIdeal.Read.val_main_v39 (F := Ideal) X E W1 := rfl
/-- Layer 1: the closing step. -/
theorem x1 : Epi1.close (Cert.ReferenceIdeal.Read.val_main_v39 (F := Ideal) X E W1) (Cert.ReferenceIdeal.Read.val_main_v4 (F := Ideal) X W1) (Cert.ReferenceIdeal.Read.val_main_v41 (F := Ideal) E) (Cert.ReferenceIdeal.Read.val_main_v45 (F := Ideal) b1) = Cert.ReferenceIdeal.Read.val_main_v48 (F := Ideal) X E W1 b1 := rfl
/-- Layer 2: the transformed array. -/
theorem h2 : Mm2.prod (Cert.ReferenceIdeal.Read.val_main_v48 (F := Ideal) X E W1 b1) W2 = Cert.ReferenceIdeal.Read.val_main_v49 (F := Ideal) X E W1 b1 W2 := rfl
/-- Layer 2: the weighted sum over incoming edges (the edge weights are the first layer's). -/
theorem agg2 : Spec.agg128 (Cert.ReferenceIdeal.Read.val_main_v49 (F := Ideal) X E W1 b1 W2) (Cert.ReferenceIdeal.Read.val_main_v1 (F := Ideal) E) (Cert.ReferenceIdeal.Read.val_main_v3 (F := Ideal) E) (Cert.ReferenceIdeal.Read.val_main_v26 (F := Ideal) E) = Cert.ReferenceIdeal.Read.val_main_v84 (F := Ideal) X E W1 b1 W2 := rfl
/-- Layer 2: the closing step (the self-loop weights are the first layer's). -/
theorem x2 : Epi3.close (Cert.ReferenceIdeal.Read.val_main_v84 (F := Ideal) X E W1 b1 W2) (Cert.ReferenceIdeal.Read.val_main_v49 (F := Ideal) X E W1 b1 W2) (Cert.ReferenceIdeal.Read.val_main_v41 (F := Ideal) E) (Cert.ReferenceIdeal.Read.val_main_v45 (F := Ideal) b2) = Cert.ReferenceIdeal.Read.val_main_v93 (F := Ideal) X E W1 b1 W2 b2 := rfl
/-- Layer 3: the transformed array. -/
theorem h3 : Mm4.prod (Cert.ReferenceIdeal.Read.val_main_v93 (F := Ideal) X E W1 b1 W2 b2) W3 = Cert.ReferenceIdeal.Read.val_main_v94 (F := Ideal) X E W1 b1 W2 b2 W3 := rfl
/-- Layer 3: the weighted sum over incoming edges. -/
theorem agg3 : Spec.agg64 (Cert.ReferenceIdeal.Read.val_main_v94 (F := Ideal) X E W1 b1 W2 b2 W3) (Cert.ReferenceIdeal.Read.val_main_v1 (F := Ideal) E) (Cert.ReferenceIdeal.Read.val_main_v3 (F := Ideal) E) (Cert.ReferenceIdeal.Read.val_main_v26 (F := Ideal) E) = Cert.ReferenceIdeal.Read.val_main_v129 (F := Ideal) X E W1 b1 W2 b2 W3 := rfl
/-- Layer 3: the closing step, the embedding. -/
theorem z : Epi5.close (Cert.ReferenceIdeal.Read.val_main_v129 (F := Ideal) X E W1 b1 W2 b2 W3) (Cert.ReferenceIdeal.Read.val_main_v94 (F := Ideal) X E W1 b1 W2 b2 W3) (Cert.ReferenceIdeal.Read.val_main_v41 (F := Ideal) E) (Cert.ReferenceIdeal.Read.val_main_v135 (F := Ideal) b3) = Cert.ReferenceIdeal.Read.val_main_v137 (F := Ideal) X E W1 b1 W2 b2 W3 b3 := rfl
/-- The decoder. -/
theorem out : Dec6.decoded (Cert.ReferenceIdeal.Read.val_main_v137 (F := Ideal) X E W1 b1 W2 b2 W3 b3) Wd1 (Cert.ReferenceIdeal.Read.val_main_v45 (F := Ideal) bd1) Wd2 (Cert.ReferenceIdeal.Read.val_main_v144 (F := Ideal) bd2) = Cert.ReferenceIdeal.Read.val_main_v146 (F := Ideal) X E W1 b1 W2 b2 W3 b3 Wd1 bd1 Wd2 bd2 := rfl

end Cert.KernelIdeal.Hand.Bridge

end
-- ==== Proof.Chain.lean ====
/-
  The buffers' contents from the launch to the return, as the plain program's stages.

  The program's twelve segments are walked in order.  At every boundary the buffers the later segments read are named:
  the edges' sources, targets and weights and the self-loop weights (computed once, by the first host stretch, and never
  written again), the arguments (never written), and the layer's arrays as they appear — the transformed array after a
  product launch, the weighted neighbour sum after a host stretch, the layer's output after a closing launch.  A host
  stretch changes only the buffers it writes; a launch changes only its output array.  Each new array is the expression
  its segment computes of arrays already named, and that expression is the plain program's stage of the same name.
  At the last boundary the two result buffers hold the plain program's two results of the arguments.
-/
import proofs.«113976_j46772193853800_2_alg».proof.Proof.Gen.KernelIdeal.Frame
import proofs.«113976_j46772193853800_2_alg».proof.Proof.Gen.ReferenceIdeal.Read
import proofs.«113976_j46772193853800_2_alg».proof.Proof.Host0
import proofs.«113976_j46772193853800_2_alg».proof.Proof.Host1
import proofs.«113976_j46772193853800_2_alg».proof.Proof.Host3
import proofs.«113976_j46772193853800_2_alg».proof.Proof.Host5
import proofs.«113976_j46772193853800_2_alg».proof.Proof.Host6
import proofs.«113976_j46772193853800_2_alg».proof.Proof.Bridge

set_option maxRecDepth 16384

noncomputable section

namespace Cert.KernelIdeal.Hand.Chain

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The arguments as launched: the edge array, and the float arguments by position. -/
abbrev E : Spec.IVec S2x600000 := m ((c : Thread nD τ).loc main_arg1)
abbrev A0 : FVec Ideal S100000x256 .f32 := m ((c : Thread nD τ).loc main_arg0)
abbrev A2 : FVec Ideal S256x128 .f32 := m ((c : Thread nD τ).loc main_arg2)
abbrev A3 : FVec Ideal S128 .f32 := m ((c : Thread nD τ).loc main_arg3)
abbrev A4 : FVec Ideal S128x128 .f32 := m ((c : Thread nD τ).loc main_arg4)
abbrev A5 : FVec Ideal S128 .f32 := m ((c : Thread nD τ).loc main_arg5)
abbrev A6 : FVec Ideal S128x64 .f32 := m ((c : Thread nD τ).loc main_arg6)
abbrev A7 : FVec Ideal S64 .f32 := m ((c : Thread nD τ).loc main_arg7)
abbrev A8 : FVec Ideal S64x128 .f32 := m ((c : Thread nD τ).loc main_arg8)
abbrev A9 : FVec Ideal S128 .f32 := m ((c : Thread nD τ).loc main_arg9)
abbrev A10 : FVec Ideal S128x256 .f32 := m ((c : Thread nD τ).loc main_arg10)
abbrev A11 : FVec Ideal S256 .f32 := m ((c : Thread nD τ).loc main_arg11)

/-! ### At the launch (boundary 0) -/

theorem arg0_0 : W0 m ρ c (Proc.devRef .tc main_arg0) = A0 m c := rfl
theorem arg1_0 : W0 m ρ c (Proc.devRef .tc main_arg1) = E m c := rfl
theorem arg2_0 : W0 m ρ c (Proc.devRef .tc main_arg2) = A2 m c := rfl
theorem arg3_0 : W0 m ρ c (Proc.devRef .tc main_arg3) = A3 m c := rfl
theorem arg4_0 : W0 m ρ c (Proc.devRef .tc main_arg4) = A4 m c := rfl
theorem arg5_0 : W0 m ρ c (Proc.devRef .tc main_arg5) = A5 m c := rfl
theorem arg6_0 : W0 m ρ c (Proc.devRef .tc main_arg6) = A6 m c := rfl
theorem arg7_0 : W0 m ρ c (Proc.devRef .tc main_arg7) = A7 m c := rfl
theorem arg8_0 : W0 m ρ c (Proc.devRef .tc main_arg8) = A8 m c := rfl
theorem arg9_0 : W0 m ρ c (Proc.devRef .tc main_arg9) = A9 m c := rfl
theorem arg10_0 : W0 m ρ c (Proc.devRef .tc main_arg10) = A10 m c := rfl
theorem arg11_0 : W0 m ρ c (Proc.devRef .tc main_arg11) = A11 m c := rfl

/-! ### After the first host stretch (boundary 1) -/

theorem src_1 : W1 m ρ c (Proc.devRef .tc main_call0_v1) = Cert.ReferenceIdeal.Read.val_main_v1 (F := Ideal) (E m c) :=
  Host0.src (W0 m ρ c)
theorem dst_1 : W1 m ρ c (Proc.devRef .tc main_call0_v3) = Cert.ReferenceIdeal.Read.val_main_v3 (F := Ideal) (E m c) :=
  Host0.dst (W0 m ρ c)
theorem coef_1 : W1 m ρ c (Proc.devRef .tc main_call0_v25) = Cert.ReferenceIdeal.Read.val_main_v26 (F := Ideal) (E m c) :=
  Host0.coef (W0 m ρ c)
theorem self_1 : W1 m ρ c (Proc.devRef .tc main_call0_v27) = Cert.ReferenceIdeal.Read.val_main_v41 (F := Ideal) (E m c) :=
  Host0.self (W0 m ρ c)
theorem arg0_1 : W1 m ρ c (Proc.devRef .tc main_arg0) = A0 m c :=
  Host0.keep_arg0 (W0 m ρ c)
theorem arg2_1 : W1 m ρ c (Proc.devRef .tc main_arg2) = A2 m c :=
  Host0.keep_arg2 (W0 m ρ c)
theorem arg3_1 : W1 m ρ c (Proc.devRef .tc main_arg3) = A3 m c :=
  Host0.keep_arg3 (W0 m ρ c)
theorem arg4_1 : W1 m ρ c (Proc.devRef .tc main_arg4) = A4 m c :=
  Host0.keep_arg4 (W0 m ρ c)
theorem arg5_1 : W1 m ρ c (Proc.devRef .tc main_arg5) = A5 m c :=
  Host0.keep_arg5 (W0 m ρ c)
theorem arg6_1 : W1 m ρ c (Proc.devRef .tc main_arg6) = A6 m c :=
  Host0.keep_arg6 (W0 m ρ c)
theorem arg7_1 : W1 m ρ c (Proc.devRef .tc main_arg7) = A7 m c :=
  Host0.keep_arg7 (W0 m ρ c)
theorem arg8_1 : W1 m ρ c (Proc.devRef .tc main_arg8) = A8 m c :=
  Host0.keep_arg8 (W0 m ρ c)
theorem arg9_1 : W1 m ρ c (Proc.devRef .tc main_arg9) = A9 m c :=
  Host0.keep_arg9 (W0 m ρ c)
theorem arg10_1 : W1 m ρ c (Proc.devRef .tc main_arg10) = A10 m c :=
  Host0.keep_arg10 (W0 m ρ c)
theorem arg11_1 : W1 m ρ c (Proc.devRef .tc main_arg11) = A11 m c :=
  Host0.keep_arg11 (W0 m ρ c)

/-! ### After launch 0 (boundary 2) -/

theorem h1_2 : W2 m ρ c (Proc.devRef .tc main_call0_v28) = Cert.ReferenceIdeal.Read.val_main_v4 (F := Ideal) (A0 m c) (A2 m c) := by
  refine (W2_arr m ρ c 2).trans ((Mm0.arr (V1 m ρ) c).trans ?_)
  show Mm0.prod (W1 m ρ c (Proc.devRef .tc main_arg0)) (W1 m ρ c (Proc.devRef .tc main_arg2)) = _
  rw [arg0_1 m ρ c, arg2_1 m ρ c]
  exact Bridge.h1 _ _
theorem src_2 : W2 m ρ c (Proc.devRef .tc main_call0_v1) = Cert.ReferenceIdeal.Read.val_main_v1 (F := Ideal) (E m c) :=
  (W2_of_ne m ρ c main_call0_v1 (by decide)).trans (src_1 m ρ c)
theorem dst_2 : W2 m ρ c (Proc.devRef .tc main_call0_v3) = Cert.ReferenceIdeal.Read.val_main_v3 (F := Ideal) (E m c) :=
  (W2_of_ne m ρ c main_call0_v3 (by decide)).trans (dst_1 m ρ c)
theorem coef_2 : W2 m ρ c (Proc.devRef .tc main_call0_v25) = Cert.ReferenceIdeal.Read.val_main_v26 (F := Ideal) (E m c) :=
  (W2_of_ne m ρ c main_call0_v25 (by decide)).trans (coef_1 m ρ c)
theorem self_2 : W2 m ρ c (Proc.devRef .tc main_call0_v27) = Cert.ReferenceIdeal.Read.val_main_v41 (F := Ideal) (E m c) :=
  (W2_of_ne m ρ c main_call0_v27 (by decide)).trans (self_1 m ρ c)
theorem arg3_2 : W2 m ρ c (Proc.devRef .tc main_arg3) = A3 m c :=
  (W2_of_ne m ρ c main_arg3 (by decide)).trans (arg3_1 m ρ c)
theorem arg4_2 : W2 m ρ c (Proc.devRef .tc main_arg4) = A4 m c :=
  (W2_of_ne m ρ c main_arg4 (by decide)).trans (arg4_1 m ρ c)
theorem arg5_2 : W2 m ρ c (Proc.devRef .tc main_arg5) = A5 m c :=
  (W2_of_ne m ρ c main_arg5 (by decide)).trans (arg5_1 m ρ c)
theorem arg6_2 : W2 m ρ c (Proc.devRef .tc main_arg6) = A6 m c :=
  (W2_of_ne m ρ c main_arg6 (by decide)).trans (arg6_1 m ρ c)
theorem arg7_2 : W2 m ρ c (Proc.devRef .tc main_arg7) = A7 m c :=
  (W2_of_ne m ρ c main_arg7 (by decide)).trans (arg7_1 m ρ c)
theorem arg8_2 : W2 m ρ c (Proc.devRef .tc main_arg8) = A8 m c :=
  (W2_of_ne m ρ c main_arg8 (by decide)).trans (arg8_1 m ρ c)
theorem arg9_2 : W2 m ρ c (Proc.devRef .tc main_arg9) = A9 m c :=
  (W2_of_ne m ρ c main_arg9 (by decide)).trans (arg9_1 m ρ c)
theorem arg10_2 : W2 m ρ c (Proc.devRef .tc main_arg10) = A10 m c :=
  (W2_of_ne m ρ c main_arg10 (by decide)).trans (arg10_1 m ρ c)
theorem arg11_2 : W2 m ρ c (Proc.devRef .tc main_arg11) = A11 m c :=
  (W2_of_ne m ρ c main_arg11 (by decide)).trans (arg11_1 m ρ c)

/-! ### After the host stretch ending at boundary 3 -/

theorem agg1_3 : W3 m ρ c (Proc.devRef .tc main_call0_v41) = Cert.ReferenceIdeal.Read.val_main_v39 (F := Ideal) (A0 m c) (E m c) (A2 m c) := by
  refine (Host1.agg (W2 m ρ c)).trans ?_
  rw [h1_2 m ρ c, src_2 m ρ c, dst_2 m ρ c, coef_2 m ρ c]
  exact Bridge.agg1 _ _ _
theorem row1_3 : W3 m ρ c (Proc.devRef .tc main_call0_v42) = Cert.ReferenceIdeal.Read.val_main_v45 (F := Ideal) (A3 m c) := by
  refine (Host1.bias (W2 m ρ c)).trans ?_
  rw [arg3_2 m ρ c]
  exact Bridge.row128 _
theorem h1_3 : W3 m ρ c (Proc.devRef .tc main_call0_v28) = Cert.ReferenceIdeal.Read.val_main_v4 (F := Ideal) (A0 m c) (A2 m c) :=
  (Host1.keep_v28 (W2 m ρ c)).trans (h1_2 m ρ c)
theorem self_3 : W3 m ρ c (Proc.devRef .tc main_call0_v27) = Cert.ReferenceIdeal.Read.val_main_v41 (F := Ideal) (E m c) :=
  (Host1.keep_v27 (W2 m ρ c)).trans (self_2 m ρ c)
theorem src_3 : W3 m ρ c (Proc.devRef .tc main_call0_v1) = Cert.ReferenceIdeal.Read.val_main_v1 (F := Ideal) (E m c) :=
  (Host1.keep_v1 (W2 m ρ c)).trans (src_2 m ρ c)
theorem dst_3 : W3 m ρ c (Proc.devRef .tc main_call0_v3) = Cert.ReferenceIdeal.Read.val_main_v3 (F := Ideal) (E m c) :=
  (Host1.keep_v3 (W2 m ρ c)).trans (dst_2 m ρ c)
theorem coef_3 : W3 m ρ c (Proc.devRef .tc main_call0_v25) = Cert.ReferenceIdeal.Read.val_main_v26 (F := Ideal) (E m c) :=
  (Host1.keep_v25 (W2 m ρ c)).trans (coef_2 m ρ c)
theorem arg4_3 : W3 m ρ c (Proc.devRef .tc main_arg4) = A4 m c :=
  (Host1.keep_arg4 (W2 m ρ c)).trans (arg4_2 m ρ c)
theorem arg5_3 : W3 m ρ c (Proc.devRef .tc main_arg5) = A5 m c :=
  (Host1.keep_arg5 (W2 m ρ c)).trans (arg5_2 m ρ c)
theorem arg6_3 : W3 m ρ c (Proc.devRef .tc main_arg6) = A6 m c :=
  (Host1.keep_arg6 (W2 m ρ c)).trans (arg6_2 m ρ c)
theorem arg7_3 : W3 m ρ c (Proc.devRef .tc main_arg7) = A7 m c :=
  (Host1.keep_arg7 (W2 m ρ c)).trans (arg7_2 m ρ c)
theorem arg8_3 : W3 m ρ c (Proc.devRef .tc main_arg8) = A8 m c :=
  (Host1.keep_arg8 (W2 m ρ c)).trans (arg8_2 m ρ c)
theorem arg9_3 : W3 m ρ c (Proc.devRef .tc main_arg9) = A9 m c :=
  (Host1.keep_arg9 (W2 m ρ c)).trans (arg9_2 m ρ c)
theorem arg10_3 : W3 m ρ c (Proc.devRef .tc main_arg10) = A10 m c :=
  (Host1.keep_arg10 (W2 m ρ c)).trans (arg10_2 m ρ c)
theorem arg11_3 : W3 m ρ c (Proc.devRef .tc main_arg11) = A11 m c :=
  (Host1.keep_arg11 (W2 m ρ c)).trans (arg11_2 m ρ c)

/-! ### After launch 1 (boundary 4) -/

theorem x1_4 : W4 m ρ c (Proc.devRef .tc main_call0_v43) = Cert.ReferenceIdeal.Read.val_main_v48 (F := Ideal) (A0 m c) (E m c) (A2 m c) (A3 m c) := by
  refine (W4_arr m ρ c 4).trans ((Epi1.arr (V3 m ρ) c).trans ?_)
  show Epi1.close (W3 m ρ c (Proc.devRef .tc main_call0_v41)) (W3 m ρ c (Proc.devRef .tc main_call0_v28)) (W3 m ρ c (Proc.devRef .tc main_call0_v27)) (W3 m ρ c (Proc.devRef .tc main_call0_v42)) = _
  rw [agg1_3 m ρ c, h1_3 m ρ c, self_3 m ρ c, row1_3 m ρ c]
  exact Bridge.x1 _ _ _ _
theorem src_4 : W4 m ρ c (Proc.devRef .tc main_call0_v1) = Cert.ReferenceIdeal.Read.val_main_v1 (F := Ideal) (E m c) :=
  (W4_of_ne m ρ c main_call0_v1 (by decide)).trans (src_3 m ρ c)
theorem dst_4 : W4 m ρ c (Proc.devRef .tc main_call0_v3) = Cert.ReferenceIdeal.Read.val_main_v3 (F := Ideal) (E m c) :=
  (W4_of_ne m ρ c main_call0_v3 (by decide)).trans (dst_3 m ρ c)
theorem coef_4 : W4 m ρ c (Proc.devRef .tc main_call0_v25) = Cert.ReferenceIdeal.Read.val_main_v26 (F := Ideal) (E m c) :=
  (W4_of_ne m ρ c main_call0_v25 (by decide)).trans (coef_3 m ρ c)
theorem arg4_4 : W4 m ρ c (Proc.devRef .tc main_arg4) = A4 m c :=
  (W4_of_ne m ρ c main_arg4 (by decide)).trans (arg4_3 m ρ c)
theorem arg5_4 : W4 m ρ c (Proc.devRef .tc main_arg5) = A5 m c :=
  (W4_of_ne m ρ c main_arg5 (by decide)).trans (arg5_3 m ρ c)
theorem arg6_4 : W4 m ρ c (Proc.devRef .tc main_arg6) = A6 m c :=
  (W4_of_ne m ρ c main_arg6 (by decide)).trans (arg6_3 m ρ c)
theorem arg7_4 : W4 m ρ c (Proc.devRef .tc main_arg7) = A7 m c :=
  (W4_of_ne m ρ c main_arg7 (by decide)).trans (arg7_3 m ρ c)
theorem arg8_4 : W4 m ρ c (Proc.devRef .tc main_arg8) = A8 m c :=
  (W4_of_ne m ρ c main_arg8 (by decide)).trans (arg8_3 m ρ c)
theorem arg9_4 : W4 m ρ c (Proc.devRef .tc main_arg9) = A9 m c :=
  (W4_of_ne m ρ c main_arg9 (by decide)).trans (arg9_3 m ρ c)
theorem arg10_4 : W4 m ρ c (Proc.devRef .tc main_arg10) = A10 m c :=
  (W4_of_ne m ρ c main_arg10 (by decide)).trans (arg10_3 m ρ c)
theorem arg11_4 : W4 m ρ c (Proc.devRef .tc main_arg11) = A11 m c :=
  (W4_of_ne m ρ c main_arg11 (by decide)).trans (arg11_3 m ρ c)
theorem self_4 : W4 m ρ c (Proc.devRef .tc main_call0_v27) = Cert.ReferenceIdeal.Read.val_main_v41 (F := Ideal) (E m c) :=
  (W4_arr m ρ c 2).trans (((dat1 (V3 m ρ) c).arrAt_in 2 rfl _).trans ((A_eq1 (V3 m ρ) c 2).trans (self_3 m ρ c)))

/-! ### After launch 2 (boundary 5) -/

theorem h2_5 : W5 m ρ c (Proc.devRef .tc main_call0_v44) = Cert.ReferenceIdeal.Read.val_main_v49 (F := Ideal) (A0 m c) (E m c) (A2 m c) (A3 m c) (A4 m c) := by
  refine (W5_arr m ρ c 2).trans ((Mm2.arr (V4 m ρ) c).trans ?_)
  show Mm2.prod (W4 m ρ c (Proc.devRef .tc main_call0_v43)) (W4 m ρ c (Proc.devRef .tc main_arg4)) = _
  rw [x1_4 m ρ c, arg4_4 m ρ c]
  exact Bridge.h2 _ _ _ _ _
theorem src_5 : W5 m ρ c (Proc.devRef .tc main_call0_v1) = Cert.ReferenceIdeal.Read.val_main_v1 (F := Ideal) (E m c) :=
  (W5_of_ne m ρ c main_call0_v1 (by decide)).trans (src_4 m ρ c)
theorem dst_5 : W5 m ρ c (Proc.devRef .tc main_call0_v3) = Cert.ReferenceIdeal.Read.val_main_v3 (F := Ideal) (E m c) :=
  (W5_of_ne m ρ c main_call0_v3 (by decide)).trans (dst_4 m ρ c)
theorem coef_5 : W5 m ρ c (Proc.devRef .tc main_call0_v25) = Cert.ReferenceIdeal.Read.val_main_v26 (F := Ideal) (E m c) :=
  (W5_of_ne m ρ c main_call0_v25 (by decide)).trans (coef_4 m ρ c)
theorem self_5 : W5 m ρ c (Proc.devRef .tc main_call0_v27) = Cert.ReferenceIdeal.Read.val_main_v41 (F := Ideal) (E m c) :=
  (W5_of_ne m ρ c main_call0_v27 (by decide)).trans (self_4 m ρ c)
theorem arg5_5 : W5 m ρ c (Proc.devRef .tc main_arg5) = A5 m c :=
  (W5_of_ne m ρ c main_arg5 (by decide)).trans (arg5_4 m ρ c)
theorem arg6_5 : W5 m ρ c (Proc.devRef .tc main_arg6) = A6 m c :=
  (W5_of_ne m ρ c main_arg6 (by decide)).trans (arg6_4 m ρ c)
theorem arg7_5 : W5 m ρ c (Proc.devRef .tc main_arg7) = A7 m c :=
  (W5_of_ne m ρ c main_arg7 (by decide)).trans (arg7_4 m ρ c)
theorem arg8_5 : W5 m ρ c (Proc.devRef .tc main_arg8) = A8 m c :=
  (W5_of_ne m ρ c main_arg8 (by decide)).trans (arg8_4 m ρ c)
theorem arg9_5 : W5 m ρ c (Proc.devRef .tc main_arg9) = A9 m c :=
  (W5_of_ne m ρ c main_arg9 (by decide)).trans (arg9_4 m ρ c)
theorem arg10_5 : W5 m ρ c (Proc.devRef .tc main_arg10) = A10 m c :=
  (W5_of_ne m ρ c main_arg10 (by decide)).trans (arg10_4 m ρ c)
theorem arg11_5 : W5 m ρ c (Proc.devRef .tc main_arg11) = A11 m c :=
  (W5_of_ne m ρ c main_arg11 (by decide)).trans (arg11_4 m ρ c)

/-! ### After the host stretch ending at boundary 6 -/

theorem agg2_6 : W6 m ρ c (Proc.devRef .tc main_call0_v57) = Cert.ReferenceIdeal.Read.val_main_v84 (F := Ideal) (A0 m c) (E m c) (A2 m c) (A3 m c) (A4 m c) := by
  refine (Host3.agg (W5 m ρ c)).trans ?_
  rw [h2_5 m ρ c, src_5 m ρ c, dst_5 m ρ c, coef_5 m ρ c]
  exact Bridge.agg2 _ _ _ _ _
theorem row2_6 : W6 m ρ c (Proc.devRef .tc main_call0_v58) = Cert.ReferenceIdeal.Read.val_main_v45 (F := Ideal) (A5 m c) := by
  refine (Host3.bias (W5 m ρ c)).trans ?_
  rw [arg5_5 m ρ c]
  exact Bridge.row128 _
theorem h2_6 : W6 m ρ c (Proc.devRef .tc main_call0_v44) = Cert.ReferenceIdeal.Read.val_main_v49 (F := Ideal) (A0 m c) (E m c) (A2 m c) (A3 m c) (A4 m c) :=
  (Host3.keep_v44 (W5 m ρ c)).trans (h2_5 m ρ c)
theorem self_6 : W6 m ρ c (Proc.devRef .tc main_call0_v27) = Cert.ReferenceIdeal.Read.val_main_v41 (F := Ideal) (E m c) :=
  (Host3.keep_v27 (W5 m ρ c)).trans (self_5 m ρ c)
theorem src_6 : W6 m ρ c (Proc.devRef .tc main_call0_v1) = Cert.ReferenceIdeal.Read.val_main_v1 (F := Ideal) (E m c) :=
  (Host3.keep_v1 (W5 m ρ c)).trans (src_5 m ρ c)
theorem dst_6 : W6 m ρ c (Proc.devRef .tc main_call0_v3) = Cert.ReferenceIdeal.Read.val_main_v3 (F := Ideal) (E m c) :=
  (Host3.keep_v3 (W5 m ρ c)).trans (dst_5 m ρ c)
theorem coef_6 : W6 m ρ c (Proc.devRef .tc main_call0_v25) = Cert.ReferenceIdeal.Read.val_main_v26 (F := Ideal) (E m c) :=
  (Host3.keep_v25 (W5 m ρ c)).trans (coef_5 m ρ c)
theorem arg6_6 : W6 m ρ c (Proc.devRef .tc main_arg6) = A6 m c :=
  (Host3.keep_arg6 (W5 m ρ c)).trans (arg6_5 m ρ c)
theorem arg7_6 : W6 m ρ c (Proc.devRef .tc main_arg7) = A7 m c :=
  (Host3.keep_arg7 (W5 m ρ c)).trans (arg7_5 m ρ c)
theorem arg8_6 : W6 m ρ c (Proc.devRef .tc main_arg8) = A8 m c :=
  (Host3.keep_arg8 (W5 m ρ c)).trans (arg8_5 m ρ c)
theorem arg9_6 : W6 m ρ c (Proc.devRef .tc main_arg9) = A9 m c :=
  (Host3.keep_arg9 (W5 m ρ c)).trans (arg9_5 m ρ c)
theorem arg10_6 : W6 m ρ c (Proc.devRef .tc main_arg10) = A10 m c :=
  (Host3.keep_arg10 (W5 m ρ c)).trans (arg10_5 m ρ c)
theorem arg11_6 : W6 m ρ c (Proc.devRef .tc main_arg11) = A11 m c :=
  (Host3.keep_arg11 (W5 m ρ c)).trans (arg11_5 m ρ c)

/-! ### After launch 3 (boundary 7) -/

theorem x2_7 : W7 m ρ c (Proc.devRef .tc main_call0_v59) = Cert.ReferenceIdeal.Read.val_main_v93 (F := Ideal) (A0 m c) (E m c) (A2 m c) (A3 m c) (A4 m c) (A5 m c) := by
  refine (W7_arr m ρ c 4).trans ((Epi3.arr (V6 m ρ) c).trans ?_)
  show Epi3.close (W6 m ρ c (Proc.devRef .tc main_call0_v57)) (W6 m ρ c (Proc.devRef .tc main_call0_v44)) (W6 m ρ c (Proc.devRef .tc main_call0_v27)) (W6 m ρ c (Proc.devRef .tc main_call0_v58)) = _
  rw [agg2_6 m ρ c, h2_6 m ρ c, self_6 m ρ c, row2_6 m ρ c]
  exact Bridge.x2 _ _ _ _ _ _
theorem src_7 : W7 m ρ c (Proc.devRef .tc main_call0_v1) = Cert.ReferenceIdeal.Read.val_main_v1 (F := Ideal) (E m c) :=
  (W7_of_ne m ρ c main_call0_v1 (by decide)).trans (src_6 m ρ c)
theorem dst_7 : W7 m ρ c (Proc.devRef .tc main_call0_v3) = Cert.ReferenceIdeal.Read.val_main_v3 (F := Ideal) (E m c) :=
  (W7_of_ne m ρ c main_call0_v3 (by decide)).trans (dst_6 m ρ c)
theorem coef_7 : W7 m ρ c (Proc.devRef .tc main_call0_v25) = Cert.ReferenceIdeal.Read.val_main_v26 (F := Ideal) (E m c) :=
  (W7_of_ne m ρ c main_call0_v25 (by decide)).trans (coef_6 m ρ c)
theorem arg6_7 : W7 m ρ c (Proc.devRef .tc main_arg6) = A6 m c :=
  (W7_of_ne m ρ c main_arg6 (by decide)).trans (arg6_6 m ρ c)
theorem arg7_7 : W7 m ρ c (Proc.devRef .tc main_arg7) = A7 m c :=
  (W7_of_ne m ρ c main_arg7 (by decide)).trans (arg7_6 m ρ c)
theorem arg8_7 : W7 m ρ c (Proc.devRef .tc main_arg8) = A8 m c :=
  (W7_of_ne m ρ c main_arg8 (by decide)).trans (arg8_6 m ρ c)
theorem arg9_7 : W7 m ρ c (Proc.devRef .tc main_arg9) = A9 m c :=
  (W7_of_ne m ρ c main_arg9 (by decide)).trans (arg9_6 m ρ c)
theorem arg10_7 : W7 m ρ c (Proc.devRef .tc main_arg10) = A10 m c :=
  (W7_of_ne m ρ c main_arg10 (by decide)).trans (arg10_6 m ρ c)
theorem arg11_7 : W7 m ρ c (Proc.devRef .tc main_arg11) = A11 m c :=
  (W7_of_ne m ρ c main_arg11 (by decide)).trans (arg11_6 m ρ c)
theorem self_7 : W7 m ρ c (Proc.devRef .tc main_call0_v27) = Cert.ReferenceIdeal.Read.val_main_v41 (F := Ideal) (E m c) :=
  (W7_arr m ρ c 2).trans (((dat3 (V6 m ρ) c).arrAt_in 2 rfl _).trans ((A_eq3 (V6 m ρ) c 2).trans (self_6 m ρ c)))

/-! ### After launch 4 (boundary 8) -/

theorem h3_8 : W8 m ρ c (Proc.devRef .tc main_call0_v60) = Cert.ReferenceIdeal.Read.val_main_v94 (F := Ideal) (A0 m c) (E m c) (A2 m c) (A3 m c) (A4 m c) (A5 m c) (A6 m c) := by
  refine (W8_arr m ρ c 2).trans ((Mm4.arr (V7 m ρ) c).trans ?_)
  show Mm4.prod (W7 m ρ c (Proc.devRef .tc main_call0_v59)) (W7 m ρ c (Proc.devRef .tc main_arg6)) = _
  rw [x2_7 m ρ c, arg6_7 m ρ c]
  exact Bridge.h3 _ _ _ _ _ _ _
theorem src_8 : W8 m ρ c (Proc.devRef .tc main_call0_v1) = Cert.ReferenceIdeal.Read.val_main_v1 (F := Ideal) (E m c) :=
  (W8_of_ne m ρ c main_call0_v1 (by decide)).trans (src_7 m ρ c)
theorem dst_8 : W8 m ρ c (Proc.devRef .tc main_call0_v3) = Cert.ReferenceIdeal.Read.val_main_v3 (F := Ideal) (E m c) :=
  (W8_of_ne m ρ c main_call0_v3 (by decide)).trans (dst_7 m ρ c)
theorem coef_8 : W8 m ρ c (Proc.devRef .tc main_call0_v25) = Cert.ReferenceIdeal.Read.val_main_v26 (F := Ideal) (E m c) :=
  (W8_of_ne m ρ c main_call0_v25 (by decide)).trans (coef_7 m ρ c)
theorem self_8 : W8 m ρ c (Proc.devRef .tc main_call0_v27) = Cert.ReferenceIdeal.Read.val_main_v41 (F := Ideal) (E m c) :=
  (W8_of_ne m ρ c main_call0_v27 (by decide)).trans (self_7 m ρ c)
theorem arg7_8 : W8 m ρ c (Proc.devRef .tc main_arg7) = A7 m c :=
  (W8_of_ne m ρ c main_arg7 (by decide)).trans (arg7_7 m ρ c)
theorem arg8_8 : W8 m ρ c (Proc.devRef .tc main_arg8) = A8 m c :=
  (W8_of_ne m ρ c main_arg8 (by decide)).trans (arg8_7 m ρ c)
theorem arg9_8 : W8 m ρ c (Proc.devRef .tc main_arg9) = A9 m c :=
  (W8_of_ne m ρ c main_arg9 (by decide)).trans (arg9_7 m ρ c)
theorem arg10_8 : W8 m ρ c (Proc.devRef .tc main_arg10) = A10 m c :=
  (W8_of_ne m ρ c main_arg10 (by decide)).trans (arg10_7 m ρ c)
theorem arg11_8 : W8 m ρ c (Proc.devRef .tc main_arg11) = A11 m c :=
  (W8_of_ne m ρ c main_arg11 (by decide)).trans (arg11_7 m ρ c)

/-! ### After the host stretch ending at boundary 9 -/

theorem agg3_9 : W9 m ρ c (Proc.devRef .tc main_call0_v73) = Cert.ReferenceIdeal.Read.val_main_v129 (F := Ideal) (A0 m c) (E m c) (A2 m c) (A3 m c) (A4 m c) (A5 m c) (A6 m c) := by
  refine (Host5.agg (W8 m ρ c)).trans ?_
  rw [h3_8 m ρ c, src_8 m ρ c, dst_8 m ρ c, coef_8 m ρ c]
  exact Bridge.agg3 _ _ _ _ _ _ _
theorem row3_9 : W9 m ρ c (Proc.devRef .tc main_call0_v74) = Cert.ReferenceIdeal.Read.val_main_v135 (F := Ideal) (A7 m c) := by
  refine (Host5.bias (W8 m ρ c)).trans ?_
  rw [arg7_8 m ρ c]
  exact Bridge.row64 _
theorem h3_9 : W9 m ρ c (Proc.devRef .tc main_call0_v60) = Cert.ReferenceIdeal.Read.val_main_v94 (F := Ideal) (A0 m c) (E m c) (A2 m c) (A3 m c) (A4 m c) (A5 m c) (A6 m c) :=
  (Host5.keep_v60 (W8 m ρ c)).trans (h3_8 m ρ c)
theorem self_9 : W9 m ρ c (Proc.devRef .tc main_call0_v27) = Cert.ReferenceIdeal.Read.val_main_v41 (F := Ideal) (E m c) :=
  (Host5.keep_v27 (W8 m ρ c)).trans (self_8 m ρ c)
theorem arg8_9 : W9 m ρ c (Proc.devRef .tc main_arg8) = A8 m c :=
  (Host5.keep_arg8 (W8 m ρ c)).trans (arg8_8 m ρ c)
theorem arg9_9 : W9 m ρ c (Proc.devRef .tc main_arg9) = A9 m c :=
  (Host5.keep_arg9 (W8 m ρ c)).trans (arg9_8 m ρ c)
theorem arg10_9 : W9 m ρ c (Proc.devRef .tc main_arg10) = A10 m c :=
  (Host5.keep_arg10 (W8 m ρ c)).trans (arg10_8 m ρ c)
theorem arg11_9 : W9 m ρ c (Proc.devRef .tc main_arg11) = A11 m c :=
  (Host5.keep_arg11 (W8 m ρ c)).trans (arg11_8 m ρ c)

/-! ### After launch 5 (boundary 10) -/

theorem zz_10 : W10 m ρ c (Proc.devRef .tc main_v0_0) = Cert.ReferenceIdeal.Read.val_main_v137 (F := Ideal) (A0 m c) (E m c) (A2 m c) (A3 m c) (A4 m c) (A5 m c) (A6 m c) (A7 m c) := by
  refine (W10_arr m ρ c 4).trans ((Epi5.arr (V9 m ρ) c).trans ?_)
  show Epi5.close (W9 m ρ c (Proc.devRef .tc main_call0_v73)) (W9 m ρ c (Proc.devRef .tc main_call0_v60)) (W9 m ρ c (Proc.devRef .tc main_call0_v27)) (W9 m ρ c (Proc.devRef .tc main_call0_v74)) = _
  rw [agg3_9 m ρ c, h3_9 m ρ c, self_9 m ρ c, row3_9 m ρ c]
  exact Bridge.z _ _ _ _ _ _ _ _
theorem arg8_10 : W10 m ρ c (Proc.devRef .tc main_arg8) = A8 m c :=
  (W10_of_ne m ρ c main_arg8 (by decide)).trans (arg8_9 m ρ c)
theorem arg9_10 : W10 m ρ c (Proc.devRef .tc main_arg9) = A9 m c :=
  (W10_of_ne m ρ c main_arg9 (by decide)).trans (arg9_9 m ρ c)
theorem arg10_10 : W10 m ρ c (Proc.devRef .tc main_arg10) = A10 m c :=
  (W10_of_ne m ρ c main_arg10 (by decide)).trans (arg10_9 m ρ c)
theorem arg11_10 : W10 m ρ c (Proc.devRef .tc main_arg11) = A11 m c :=
  (W10_of_ne m ρ c main_arg11 (by decide)).trans (arg11_9 m ρ c)

/-! ### After the host stretch ending at boundary 11 -/

theorem row4_11 : W11 m ρ c (Proc.devRef .tc main_call0_v76) = Cert.ReferenceIdeal.Read.val_main_v45 (F := Ideal) (A9 m c) := by
  refine (Host6.bias1 (W10 m ρ c)).trans ?_
  rw [arg9_10 m ρ c]
  exact Bridge.row128 _
theorem row5_11 : W11 m ρ c (Proc.devRef .tc main_call0_v77) = Cert.ReferenceIdeal.Read.val_main_v144 (F := Ideal) (A11 m c) := by
  refine (Host6.bias2 (W10 m ρ c)).trans ?_
  rw [arg11_10 m ρ c]
  exact Bridge.row256 _
theorem zz_11 : W11 m ρ c (Proc.devRef .tc main_v0_0) = Cert.ReferenceIdeal.Read.val_main_v137 (F := Ideal) (A0 m c) (E m c) (A2 m c) (A3 m c) (A4 m c) (A5 m c) (A6 m c) (A7 m c) :=
  (Host6.keep_v0_0 (W10 m ρ c)).trans (zz_10 m ρ c)
theorem arg8_11 : W11 m ρ c (Proc.devRef .tc main_arg8) = A8 m c :=
  (Host6.keep_arg8 (W10 m ρ c)).trans (arg8_10 m ρ c)
theorem arg10_11 : W11 m ρ c (Proc.devRef .tc main_arg10) = A10 m c :=
  (Host6.keep_arg10 (W10 m ρ c)).trans (arg10_10 m ρ c)

/-! ### After launch 6 (boundary 12) -/

theorem outv_12 : W12 m ρ c (Proc.devRef .tc main_v0_1) = Cert.ReferenceIdeal.Read.val_main_v146 (F := Ideal) (A0 m c) (E m c) (A2 m c) (A3 m c) (A4 m c) (A5 m c) (A6 m c) (A7 m c) (A8 m c) (A9 m c) (A10 m c) (A11 m c) := by
  refine (W12_arr m ρ c 5).trans ((Dec6.arr (V11 m ρ) c).trans ?_)
  show Dec6.decoded (W11 m ρ c (Proc.devRef .tc main_v0_0)) (W11 m ρ c (Proc.devRef .tc main_arg8)) (W11 m ρ c (Proc.devRef .tc main_call0_v76)) (W11 m ρ c (Proc.devRef .tc main_arg10)) (W11 m ρ c (Proc.devRef .tc main_call0_v77)) = _
  rw [zz_11 m ρ c, arg8_11 m ρ c, row4_11 m ρ c, arg10_11 m ρ c, row5_11 m ρ c]
  exact Bridge.out _ _ _ _ _ _ _ _ _ _ _ _
theorem zz_12 : W12 m ρ c (Proc.devRef .tc main_v0_0) = Cert.ReferenceIdeal.Read.val_main_v137 (F := Ideal) (A0 m c) (E m c) (A2 m c) (A3 m c) (A4 m c) (A5 m c) (A6 m c) (A7 m c) :=
  (W12_arr m ρ c 0).trans (((dat6 (V11 m ρ) c).arrAt_in 0 rfl _).trans ((A_eq6 (V11 m ρ) c 0).trans (zz_11 m ρ c)))

end Cert.KernelIdeal.Hand.Chain

end
-- ==== Proof.lean ====
/-
  A three-layer graph convolution encoder with a two-layer decoder, tiled, against the plain program.

  Both programs compute, from node features x, an edge list and five weight–bias pairs, the embedding
  z = conv₃ (relu (conv₂ (relu (conv₁ x)))) and the reconstruction relu (z · Wd₁ + bd₁) · Wd₂ + bd₂, where a layer is
  conv (h) = Σ over incoming edges of weight · (h · W) at the source + self-loop weight · (h · W) + b, the edge weight
  the product of the inverse root degrees of the edge's two ends and the self-loop weight the squared inverse root
  degree.  The tiled program computes the degrees and the weights once; it forms every product h · W, every closing
  step and the decoder on row tiles of 2000 nodes in seven grid launches, and leaves the gather and scatter-add of the
  neighbour sum to host operations between the launches.  The plain program does the same operations on whole arrays
  and recomputes the weights in every layer.

  Over the extended reals nothing but the tiling differs: a tile's product, closing step or decoder output is the
  corresponding rows of the whole-array expression, the tiles cover the arrays, the host operations between the
  launches are the plain program's own, and the recomputed weights are the same arrays.  So the two results are the
  same functions of the arguments, operation for operation; no law of arithmetic is used, and the precondition is not
  needed for it.  The three frames are the generated ones (the plain program's is its generated run with the results
  dropped); the idealization rewrote nothing, so there is nothing to preserve.
-/
import proofs.«113976_j46772193853800_2_alg».proof.Defs
import proofs.«113976_j46772193853800_2_alg».proof.Proof.Gen.Kernel
import proofs.«113976_j46772193853800_2_alg».proof.Proof.Gen.Kernel.Skeleton
import proofs.«113976_j46772193853800_2_alg».proof.Proof.Gen.Kernel.Launch
import proofs.«113976_j46772193853800_2_alg».proof.Proof.Gen.Kernel.Points
import proofs.«113976_j46772193853800_2_alg».proof.Proof.Gen.Kernel.Frame
import proofs.«113976_j46772193853800_2_alg».proof.Proof.Gen.KernelIdeal
import proofs.«113976_j46772193853800_2_alg».proof.Proof.Gen.KernelIdeal.Skeleton
import proofs.«113976_j46772193853800_2_alg».proof.Proof.Gen.KernelIdeal.Launch
import proofs.«113976_j46772193853800_2_alg».proof.Proof.Gen.KernelIdeal.Points
import proofs.«113976_j46772193853800_2_alg».proof.Proof.Gen.KernelIdeal.Frame
import proofs.«113976_j46772193853800_2_alg».proof.Proof.Gen.ReferenceIdeal
import proofs.«113976_j46772193853800_2_alg».proof.Proof.Gen.Pre_finite_inputs
import proofs.«113976_j46772193853800_2_alg».proof.Proof.Gen.ReferenceIdeal.Run
import proofs.«113976_j46772193853800_2_alg».proof.Proof.Gen.ReferenceIdeal.Read
import proofs.«113976_j46772193853800_2_alg».proof.Proof.KernelRun
import proofs.«113976_j46772193853800_2_alg».proof.Proof.Chain
import Idealize.ShloMosaic.Adequacy
import Idealize.ShloMosaic.Init

set_option maxRecDepth 16384

noncomputable section

namespace Cert.Proof

open Idealize.ShloMosaic Idealize.SL.Sem

/-- The tiled program as printed runs and leaves its arguments unchanged. -/
theorem frame_k : Cert.frame_Kernel := fun m ρ _ => Cert.Kernel.Gen.frame m ρ
/-- So does its reading over the extended reals. -/
theorem frame_ki : Cert.frame_KernelIdeal := fun m ρ _ => Cert.KernelIdeal.Gen.frame m ρ
/-- The plain program runs and leaves its arguments unchanged: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Over the extended reals the tiled program's two results are the plain program's two results of the same arguments:
    the tiled run's result buffers hold the last boundary's contents, which are the plain program's stages; the plain
    run's result buffers hold the same stages of its own arguments, which agree. -/
theorem algebraic : Cert.algebraic_KernelIdeal_ReferenceIdeal := by
  intro m ρ m' ρ' _ hagree
  refine ⟨_, _, (θ_run Cert.KernelIdeal.defs _ _).mono (fun r h c =>
      ⟨(h c).1.trans (Cert.KernelIdeal.Hand.Chain.zz_12 m ρ c), (h c).2.1.trans (Cert.KernelIdeal.Hand.Chain.outv_12 m ρ c), (h c).2.2⟩)
      (Cert.KernelIdeal.Hand.run_results (F := Ideal) m ρ), ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨e0, e1, e2, e3, e4, e5, e6, e7, e8, e9, e10, e11⟩ := hagree c
    rw [Cert.ReferenceIdeal.Read.val_main_v137_eq, e0, e1, e2, e3, e4, e5, e6, e7]
  · obtain ⟨e0, e1, e2, e3, e4, e5, e6, e7, e8, e9, e10, e11⟩ := hagree c
    rw [Cert.ReferenceIdeal.Read.val_main_v146_eq, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
